-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S72x256 : Shape := ⟨2, ![72, 256]⟩
abbrev S72 : Shape := ⟨1, ![72]⟩
abbrev S256 : Shape := ⟨1, ![256]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S72x256 : S_.BroadcastsInDim S72x256 (![] : Fin 0 → Fin S72x256.rank)
  reducesTo_S72x256_S_d0_1 : S72x256.ReducesTo [0, 1] S_
  bcast_S_S72 : S_.BroadcastsInDim S72 (![] : Fin 0 → Fin S72.rank)
  reducesTo_S72_S_d0 : S72.ReducesTo [0] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_arg8 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S72 .f32) (main_arg5 : FVec F S72 .f32) (main_arg6 : FVec F S256 .f32) (main_arg7 : FVec F S256 .f32) (main_arg8 : FVec F S256 .f32) (main_v13 : IVec S_ 1) (main_v16 : IVec S72 1) : IVec S_ 1 :=
  let main_c_5 : IVec S_ 1 := constantI S_ 1 1#1
  let main_v17 : IVec S_ 1 := (fun x v => Host.reduce IntOp.andi x v reducesTo_S72_S_d0 h_S_) main_v16 main_c_5
  let main_v18 : IVec S_ 1 := andi main_v13 main_v17
  let main_v19 : FVec F S72 .f32 := Host.absf main_arg4
  let main_cst_6 : FVec F S_ .f32 := constant S_ .f32 0x7F800000#32
  let main_v20 : FVec F S72 .f32 := broadcastInDim S72 ![] bcast_S_S72 main_cst_6
  let main_v21 : IVec S72 1 := cmpf .olt main_v19 main_v20
  let main_c_7 : IVec S_ 1 := constantI S_ 1 1#1
  let main_v22 : IVec S_ 1 := (fun x v => Host.reduce IntOp.andi x v reducesTo_S72_S_d0 h_S_) main_v21 main_c_7
  let main_v23 : IVec S_ 1 := andi main_v18 main_v22
  let main_v24 : FVec F S72 .f32 := Host.absf main_arg5
  let main_cst_8 : FVec F S_ .f32 := constant S_ .f32 0x7F800000#32
  let main_v25 : FVec F S72 .f32 := broadcastInDim S72 ![] bcast_S_S72 main_cst_8
  let main_v26 : IVec S72 1 := cmpf .olt main_v24 main_v25
  let main_c_9 : IVec S_ 1 := constantI S_ 1 1#1
  let main_v27 : IVec S_ 1 := (fun x v => Host.reduce IntOp.andi x v reducesTo_S72_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S16x256x128x128 .f32) (main_arg1 : FVec F S72x256 .f32) (main_arg2 : FVec F S72 .f32) (main_arg3 : FVec F S72 .f32) (main_arg4 : FVec F S72 .f32) (main_arg5 : FVec F S72 .f32) (main_arg6 : FVec F S256 .f32) (main_arg7 : FVec F S256 .f32) (main_arg8 : FVec F S256 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S72x256 .f32 := Host.absf main_arg1
  let main_cst_0 : FVec F S_ .f32 := constant S_ .f32 0x7F800000#32
  let main_v5 : FVec F S72x256 .f32 := broadcastInDim S72x256 ![] bcast_S_S72x256 main_cst_0
  let main_v6 : IVec S72x256 1 := cmpf .olt main_v4 main_v5
  let main_c_1 : IVec S_ 1 := constantI S_ 1 1#1
  let main_v7 : IVec S_ 1 := (fun x v => Host.reduce IntOp.andi x v reducesTo_S72x256_S_d0_1 h_S_) main_v6 main_c_1
  let main_v8 : IVec S_ 1 := andi main_v3 main_v7
  let main_v9 : FVec F S72 .f32 := Host.absf main_arg2
  let main_cst_2 : FVec F S_ .f32 := constant S_ .f32 0x7F800000#32
  let main_v10 : FVec F S72 .f32 := broadcastInDim S72 ![] bcast_S_S72 main_cst_2
  let main_v11 : IVec S72 1 := cmpf .olt main_v9 main_v10
  let main_c_3 : IVec S_ 1 := constantI S_ 1 1#1
  let main_v12 : IVec S_ 1 := (fun x v => Host.reduce IntOp.andi x v reducesTo_S72_S_d0 h_S_) main_v11 main_c_3
  let main_v13 : IVec S_ 1 := andi main_v8 main_v12
  let main_v14 : FVec F S72 .f32 := Host.absf main_arg3
  let main_cst_4 : FVec F S_ .f32 := constant S_ .f32 0x7F800000#32
  let main_v15 : FVec F S72 .f32 := broadcastInDim S72 ![] bcast_S_S72 main_cst_4
  let main_v16 : IVec S72 1 := cmpf .olt main_v14 main_v15
  fn_part1 (F := F) main_arg4 main_arg5 main_arg6 main_arg7 main_arg8 main_v13 main_v16
-- ==== Kernel.lean ====
abbrev S16x256x128x128 : Shape := ⟨4, ![16, 256, 128, 128]⟩
abbrev S72x256 : Shape := ⟨2, ![72, 256]⟩
abbrev S72 : Shape := ⟨1, ![72]⟩
abbrev S256 : Shape := ⟨1, ![256]⟩
abbrev S16x256x1x1 : Shape := ⟨4, ![16, 256, 1, 1]⟩
abbrev S1x256x128x128 : Shape := ⟨4, ![1, 256, 128, 128]⟩
abbrev S1x256x1x1 : Shape := ⟨4, ![1, 256, 1, 1]⟩
abbrev S256x128x128 : Shape := ⟨3, ![256, 128, 128]⟩
abbrev S16x256 : Shape := ⟨2, ![16, 256]⟩
abbrev S256x72 : Shape := ⟨2, ![256, 72]⟩
abbrev S16x72 : Shape := ⟨2, ![16, 72]⟩
abbrev S_ : Shape := ⟨0, ![]⟩
abbrev S1x72 : Shape := ⟨2, ![1, 72]⟩
abbrev S16x8x9 : Shape := ⟨3, ![16, 8, 9]⟩
abbrev S16x8x32x9 : Shape := ⟨4, ![16, 8, 32, 9]⟩
abbrev S16x256x9 : Shape := ⟨3, ![16, 256, 9]⟩
abbrev S16x9x256 : Shape := ⟨3, ![16, 9, 256]⟩
abbrev S16x9x256x1x1 : Shape := ⟨5, ![16, 9, 256, 1, 1]⟩
abbrev S1x64x128x128 : Shape := ⟨4, ![1, 64, 128, 128]⟩
abbrev S1x64x1x1 : Shape := ⟨4, ![1, 64, 1, 1]⟩
abbrev S1x9x64x1x1 : Shape := ⟨5, ![1, 9, 64, 1, 1]⟩
abbrev S64x128x128 : Shape := ⟨3, ![64, 128, 128]⟩
abbrev S64x1x128 : Shape := ⟨3, ![64, 1, 128]⟩
abbrev S64x130x128 : Shape := ⟨3, ![64, 130, 128]⟩
abbrev S64x130x1 : Shape := ⟨3, ![64, 130, 1]⟩
abbrev S64x130x130 : Shape := ⟨3, ![64, 130, 130]⟩
abbrev S9x64 : Shape := ⟨2, ![9, 64]⟩
abbrev S1x64 : Shape := ⟨2, ![1, 64]⟩
abbrev S64 : Shape := ⟨1, ![64]⟩
abbrev S64x1x1 : Shape := ⟨3, ![64, 1, 1]⟩

abbrev nBuf : Space → Nat
  | .hbm => 37
  | .vmem => 18
  | .smem => 0
  | _ => 0

abbrev bufTy : (tb : Table) → Fin (tcTables nBuf tb) → BufTy
  | .hbm, ⟨0, _⟩ => ⟨S16x256x128x128, .f32⟩
  | .hbm, ⟨1, _⟩ => ⟨S72x256, .f32⟩
  | .hbm, ⟨2, _⟩ => ⟨S72, .f32⟩
  | .hbm, ⟨3, _⟩ => ⟨S72, .f32⟩
  | .hbm, ⟨4, _⟩ => ⟨S72, .f32⟩
  | .hbm, ⟨5, _⟩ => ⟨S72, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S16x256x1x1, .f32⟩
  | .hbm, ⟨10, _⟩ => ⟨S16x256, .f32⟩
  | .hbm, ⟨11, _⟩ => ⟨S256x72, .f32⟩
  | .hbm, ⟨12, _⟩ => ⟨S16x72, .f32⟩
  | .hbm, ⟨13, _⟩ => ⟨S_, .f32⟩
  | .hbm, ⟨14, _⟩ => ⟨S72, .f32⟩
  | .hbm, ⟨15, _⟩ => ⟨S72, .f32⟩
  | .hbm, ⟨16, _⟩ => ⟨S72, .f32⟩
  | .hbm, ⟨17, _⟩ => ⟨S72, .f32⟩
  | .hbm, ⟨18, _⟩ => ⟨S1x72, .f32⟩
  | .hbm, ⟨19, _⟩ => ⟨S16x72, .f32⟩
  | .hbm, ⟨20, _⟩ => ⟨S16x72, .f32⟩
  | .hbm, ⟨21, _⟩ => ⟨S1x72, .f32⟩
  | .hbm, ⟨22, _⟩ => ⟨S16x72, .f32⟩
  | .hbm, ⟨23, _⟩ => ⟨S16x72, .f32⟩
  | .hbm, ⟨24, _⟩ => ⟨S1x72, .f32⟩
  | .hbm, ⟨25, _⟩ => ⟨S16x72, .f32⟩
  | .hbm, ⟨26, _⟩ => ⟨S16x72, .f32⟩
  | .hbm, ⟨27, _⟩ => ⟨S16x72, .f32⟩
  | .hbm, ⟨28, _⟩ => ⟨S16x8x9, .f32⟩
  | .hbm, ⟨29, _⟩ => ⟨S16x8x32x9, .f32⟩
  | .hbm, ⟨30, _⟩ => ⟨S16x256x9, .f32⟩
  | .hbm, ⟨31, _⟩ => ⟨S16x9x256, .f32⟩
  | .hbm, ⟨32, _⟩ => ⟨S16x9x256x1x1, .f32⟩
  | .hbm, ⟨33, _⟩ => ⟨S1x256x1x1, .f32⟩
  | .hbm, ⟨34, _⟩ => ⟨S1x256x1x1, .f32⟩
  | .hbm, ⟨35, _⟩ => ⟨S1x256x1x1, .f32⟩
  | .hbm, ⟨36, _⟩ => ⟨S16x256x128x128, .f32⟩
  | .local _ .vmem, ⟨0, _⟩ => ⟨S1x256x128x128, .f32⟩
  | .local _ .vmem, ⟨1, _⟩ => ⟨S1x256x128x128, .f32⟩
  | .local _ .vmem, ⟨2, _⟩ => ⟨S1x256x1x1, .f32⟩
  | .local _ .vmem, ⟨3, _⟩ => ⟨S1x256x1x1, .f32⟩
  | .local _ .vmem, ⟨4, _⟩ => ⟨S1x64x128x128, .f32⟩
  | .local _ .vmem, ⟨5, _⟩ => ⟨S1x64x128x128, .f32⟩
  | .local _ .vmem, ⟨6, _⟩ => ⟨S1x64x1x1, .f32⟩
  | .local _ .vmem, ⟨7, _⟩ => ⟨S1x64x1x1, .f32⟩
  | .local _ .vmem, ⟨8, _⟩ => ⟨S1x9x64x1x1, .f32⟩
  | .local _ .vmem, ⟨9, _⟩ => ⟨S1x9x64x1x1, .f32⟩
  | .local _ .vmem, ⟨10, _⟩ => ⟨S1x64x1x1, .f32⟩
  | .local _ .vmem, ⟨11, _⟩ => ⟨S1x64x1x1, .f32⟩
  | .local _ .vmem, ⟨12, _⟩ => ⟨S1x64x1x1, .f32⟩
  | .local _ .vmem, ⟨13, _⟩ => ⟨S1x64x1x1, .f32⟩
  | .local _ .vmem, ⟨14, _⟩ => ⟨S1x64x1x1, .f32⟩
  | .local _ .vmem, ⟨15, _⟩ => ⟨S1x64x1x1, .f32⟩
  | .local _ .vmem, ⟨16, _⟩ => ⟨S1x64x128x128, .f32⟩
  | .local _ .vmem, ⟨17, _⟩ => ⟨S1x64x128x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x64x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x9x64x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x64x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x64x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x64x1x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x64x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  inb_S1x256x128x128_S1x256x128x128_0_0_0_0 : ∀ a, (![0, 0, 0, 0] : Fin 4 → Nat) a + S1x256x128x128.size a ≤ S1x256x128x128.size a
  h_S1x256x128x128 : 0 < S1x256x128x128.numel
  shapeCasts_S1x256x128x128_S256x128x128 : S1x256x128x128.ShapeCasts S256x128x128
  reduces_S256x128x128_S256 : S256x128x128.Reduces [1, 2] S256
  inb_S1x256x1x1_S1x256x1x1_0_0_0_0 : ∀ a, (![0, 0, 0, 0] : Fin 4 → Nat) a + S1x256x1x1.size a ≤ S1x256x1x1.size a
  h_S1x256x1x1 : 0 < S1x256x1x1.numel
  shapeCasts_S1x256x1x1_S256 : S1x256x1x1.ShapeCasts S256
  shapeCasts_S256_S1x256x1x1 : S256.ShapeCasts S1x256x1x1
  shapeCasts_S16x256x1x1_S16x256 : S16x256x1x1.ShapeCasts S16x256
  transposes_S72x256_S256x72_1_0 : S72x256.Transposes [1, 0] S256x72
  bcast_S_S72 : S_.BroadcastsInDim S72 (![] : Fin 0 → Fin S72.rank)
  bcast_S72_S1x72_1 : S72.BroadcastsInDim S1x72 (![1] : Fin 1 → Fin S1x72.rank)
  bcast_S1x72_S16x72_0_1 : S1x72.BroadcastsInDim S16x72 (![0, 1] : Fin 2 → Fin S16x72.rank)
  shapeCasts_S16x72_S16x8x9 : S16x72.ShapeCasts S16x8x9
  bcast_S16x8x9_S16x8x32x9_0_1_3 : S16x8x9.BroadcastsInDim S16x8x32x9 (![0, 1, 3] : Fin 3 → Fin S16x8x32x9.rank)
  shapeCasts_S16x8x32x9_S16x256x9 : S16x8x32x9.ShapeCasts S16x256x9
  transposes_S16x256x9_S16x9x256_0_2_1 : S16x256x9.Transposes [0, 2, 1] S16x9x256
  bcast_S16x9x256_S16x9x256x1x1_0_1_2 : S16x9x256.BroadcastsInDim S16x9x256x1x1 (![0, 1, 2] : Fin 3 → Fin S16x9x256x1x1.rank)
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  slices_S64x128x128_o0_1_0_S64x1x128 : S64x128x128.Slices ![0, 1, 0] S64x1x128
  slices_S64x128x128_o0_126_0_S64x1x128 : S64x128x128.Slices ![0, 126, 0] S64x1x128
  concatenates_S64x1x128_S64x128x128_S64x1x128_S64x130x128_d1 : Shape.Concatenates [S64x1x128, S64x128x128, S64x1x128] S64x130x128 1
  slices_S64x130x128_o0_0_1_S64x130x1 : S64x130x128.Slices ![0, 0, 1] S64x130x1
  slices_S64x130x128_o0_0_126_S64x130x1 : S64x130x128.Slices ![0, 0, 126] S64x130x1
  concatenates_S64x130x1_S64x130x128_S64x130x1_S64x130x130_d2 : Shape.Concatenates [S64x130x1, S64x130x128, S64x130x1] S64x130x130 2
  inb_S1x9x64x1x1_S1x9x64x1x1_0_0_0_0_0 : ∀ a, (![0, 0, 0, 0, 0] : Fin 5 → Nat) a + S1x9x64x1x1.size a ≤ S1x9x64x1x1.size a
  h_S1x9x64x1x1 : 0 < S1x9x64x1x1.numel
  shapeCasts_S1x9x64x1x1_S9x64 : S1x9x64x1x1.ShapeCasts S9x64
  slices_S64x130x130_o0_0_0_S64x128x128 : S64x130x130.Slices ![0, 0, 0] S64x128x128
  slices_S9x64_o0_0_S1x64 : S9x64.Slices ![0, 0] S1x64
  shapeCasts_S1x64_S64 : S1x64.ShapeCasts S64
  shapeCasts_S64_S64x1x1 : S64.ShapeCasts S64x1x1
  broadcasts_S64x1x1_S64x128x128 : S64x1x1.Broadcasts S64x128x128
  slices_S64x130x130_o0_0_1_S64x128x128 : S64x130x130.Slices ![0, 0, 1] S64x128x128
  slices_S9x64_o1_0_S1x64 : S9x64.Slices ![1, 0] S1x64
  slices_S64x130x130_o0_0_2_S64x128x128 : S64x130x130.Slices ![0, 0, 2] S64x128x128
  slices_S9x64_o2_0_S1x64 : S9x64.Slices ![2, 0] S1x64
  slices_S64x130x130_o0_1_0_S64x128x128 : S64x130x130.Slices ![0, 1, 0] S64x128x128
  slices_S9x64_o3_0_S1x64 : S9x64.Slices ![3, 0] S1x64
  slices_S64x130x130_o0_1_1_S64x128x128 : S64x130x130.Slices ![0, 1, 1] S64x128x128
  slices_S9x64_o4_0_S1x64 : S9x64.Slices ![4, 0] S1x64
  slices_S64x130x130_o0_1_2_S64x128x128 : S64x130x130.Slices ![0, 1, 2] S64x128x128
  slices_S9x64_o5_0_S1x64 : S9x64.Slices ![5, 0] S1x64
  slices_S64x130x130_o0_2_0_S64x128x128 : S64x130x130.Slices ![0, 2, 0] S64x128x128
  slices_S9x64_o6_0_S1x64 : S9x64.Slices ![6, 0] S1x64
  slices_S64x130x130_o0_2_1_S64x128x128 : S64x130x130.Slices ![0, 2, 1] S64x128x128
  slices_S9x64_o7_0_S1x64 : S9x64.Slices ![7, 0] S1x64
  slices_S64x130x130_o0_2_2_S64x128x128 : S64x130x130.Slices ![0, 2, 2] S64x128x128
  slices_S9x64_o8_0_S1x64 : S9x64.Slices ![8, 0] S1x64
  inb_S1x64x1x1_S1x64x1x1_0_0_0_0 : ∀ a, (![0, 0, 0, 0] : Fin 4 → Nat) a + S1x64x1x1.size a ≤ S1x64x1x1.size a
  h_S1x64x1x1 : 0 < S1x64x1x1.numel
  shapeCasts_S1x64x1x1_S64 : S1x64x1x1.ShapeCasts S64
  shapeCasts_S64x128x128_S1x64x128x128 : S64x128x128.ShapeCasts S1x64x128x128
  dot_S16x256_S256x72_S16x72_1_0_0_1_n_n_wf : DotDims.WF S16x256 S256x72 S16x72 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128x128.size a ≤ S16x256x128x128.size a
  hwx0_0 : ∀ i : grid0.Coords, EltTy.bits .f32 = 32 ∨ (Rect.block (s := S16x256x128x128) S1x256x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1x1.size a ≤ S16x256x1x1.size a
  hwx0_1 : ∀ i : grid0.Coords, EltTy.bits .f32 = 32 ∨ (Rect.block (s := S16x256x1x1) S1x256x1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x128x128.size a ≤ S16x256x128x128.size a
  hwx1_0 : ∀ i : grid1.Coords, EltTy.bits .f32 = 32 ∨ (Rect.block (s := S16x256x128x128) S1x64x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x1x1.size a ≤ S16x256x1x1.size a
  hwx1_1 : ∀ i : grid1.Coords, EltTy.bits .f32 = 32 ∨ (Rect.block (s := S16x256x1x1) S1x64x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x9x64x1x1.size a ≤ S16x9x256x1x1.size a
  hwx1_2 : ∀ i : grid1.Coords, EltTy.bits .f32 = 32 ∨ (Rect.block (s := S16x9x256x1x1) S1x9x64x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x1x1.size a ≤ S1x256x1x1.size a
  hwx1_3 : ∀ i : grid1.Coords, EltTy.bits .f32 = 32 ∨ (Rect.block (s := S1x256x1x1) S1x64x1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x64x1x1.size a ≤ S1x256x1x1.size a
  hwx1_4 : ∀ i : grid1.Coords, EltTy.bits .f32 = 32 ∨ (Rect.block (s := S1x256x1x1) S1x64x1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x64x1x1.size a ≤ S1x256x1x1.size a
  hwx1_5 : ∀ i : grid1.Coords, EltTy.bits .f32 = 32 ∨ (Rect.block (s := S1x256x1x1) S1x64x1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x64x128x128.size a ≤ S16x256x128x128.size a
  hwx1_6 : ∀ i : grid1.Coords, EltTy.bits .f32 = 32 ∨ (Rect.block (s := S16x256x128x128) S1x64x128x128.size (cc1_transform_6 i) (hinb1_6 i)).WholeWords (EltTy.packing .f32)

variable [Facts₀]

def dot_S16x256_S256x72_S16x72_1_0_0_1_n_n : DotDims S16x256 S256x72 S16x72 where
  lhsContracting := [1]
  rhsContracting := [0]
  lhsNonContracting := [0]
  rhsNonContracting := [1]
  lhsBatch := []
  rhsBatch := []
  wf := dot_S16x256_S256x72_S16x72_1_0_0_1_n_n_wf

abbrev win0_0 : Pipeline.Window sig grid0 :=
  Pipeline.Window.ofSpec (Memref.whole main_arg0) S1x256x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x64x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x64x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x9x64x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x64x1x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x64x1x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x64x1x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1x64x128x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S16x256x128x128 : Shape := ⟨4, ![16, 256, 128, 128]⟩
abbrev S72x256 : Shape := ⟨2, ![72, 256]⟩
abbrev S72 : Shape := ⟨1, ![72]⟩
abbrev S256 : Shape := ⟨1, ![256]⟩
abbrev S_ : Shape := ⟨0, ![]⟩
abbrev S16x256 : Shape := ⟨2, ![16, 256]⟩
abbrev S256x72 : Shape := ⟨2, ![256, 72]⟩
abbrev S16x72 : Shape := ⟨2, ![16, 72]⟩
abbrev S1x72 : Shape := ⟨2, ![1, 72]⟩
abbrev S16x8x9 : Shape := ⟨3, ![16, 8, 9]⟩
abbrev S16x256x1x128 : Shape := ⟨4, ![16, 256, 1, 128]⟩
abbrev S16x256x129x128 : Shape := ⟨4, ![16, 256, 129, 128]⟩
abbrev S16x256x130x128 : Shape := ⟨4, ![16, 256, 130, 128]⟩
abbrev S16x256x130x1 : Shape := ⟨4, ![16, 256, 130, 1]⟩
abbrev S16x256x130x129 : Shape := ⟨4, ![16, 256, 130, 129]⟩
abbrev S16x256x130x130 : Shape := ⟨4, ![16, 256, 130, 130]⟩
abbrev S16x8x32x128x128 : Shape := ⟨5, ![16, 8, 32, 128, 128]⟩
abbrev S16x8x1 : Shape := ⟨3, ![16, 8, 1]⟩
abbrev S16x8 : Shape := ⟨2, ![16, 8]⟩
abbrev S16x8x1x1x1 : Shape := ⟨5, ![16, 8, 1, 1, 1]⟩
abbrev S16x256x1x1 : Shape := ⟨4, ![16, 256, 1, 1]⟩
abbrev S1x256x1x1 : Shape := ⟨4, ![1, 256, 1, 1]⟩

abbrev nBuf : Space → Nat
  | .hbm => 154
  | .vmem => 0
  | .smem => 0
  | _ => 0

abbrev hbmTy0_0 (i : Nat) : BufTy := match i % 128 with
  | 0 => ⟨S16x256x128x128, .f32⟩
  | 1 => ⟨S72x256, .f32⟩
  | 2 => ⟨S72, .f32⟩
  | 3 => ⟨S72, .f32⟩
  | 4 => ⟨S72, .f32⟩
  | 5 => ⟨S72, .f32⟩
  | 6 => ⟨S256, .f32⟩
  | 7 => ⟨S256, .f32⟩
  | 8 => ⟨S256, .f32⟩
  | 9 => ⟨S_, .f32⟩
  | 10 => ⟨S16x256, .f32⟩
  | 11 => ⟨S_, .f32⟩
  | 12 => ⟨S16x256, .f32⟩
  | 13 => ⟨S16x256, .f32⟩
  | 14 => ⟨S256x72, .f32⟩
  | 15 => ⟨S16x72, .f32⟩
  | 16 => ⟨S1x72, .f32⟩
  | 17 => ⟨S16x72, .f32⟩
  | 18 => ⟨S16x72, .f32⟩
  | 19 => ⟨S_, .f32⟩
  | 20 => ⟨S72, .f32⟩
  | 21 => ⟨S72, .f32⟩
  | 22 => ⟨S72, .f32⟩
  | 23 => ⟨S72, .f32⟩
  | 24 => ⟨S1x72, .f32⟩
  | 25 => ⟨S16x72, .f32⟩
  | 26 => ⟨S16x72, .f32⟩
  | 27 => ⟨S1x72, .f32⟩
  | 28 => ⟨S16x72, .f32⟩
  | 29 => ⟨S16x72, .f32⟩
  | 30 => ⟨S16x72, .f32⟩
  | 31 => ⟨S16x8x9, .f32⟩
  | 32 => ⟨S_, .i32⟩
  | 33 => ⟨S16x256x1x128, .f32⟩
  | 34 => ⟨S16x256x1x128, .f32⟩
  | 35 => ⟨S16x256x1x128, .f32⟩
  | 36 => ⟨S16x256x129x128, .f32⟩
  | 37 => ⟨S16x256x1x128, .f32⟩
  | 38 => ⟨S16x256x1x128, .f32⟩
  | 39 => ⟨S16x256x1x128, .f32⟩
  | 40 => ⟨S16x256x130x128, .f32⟩
  | 41 => ⟨S16x256x130x1, .f32⟩
  | 42 => ⟨S16x256x130x1, .f32⟩
  | 43 => ⟨S16x256x130x1, .f32⟩
  | 44 => ⟨S16x256x130x129, .f32⟩
  | 45 => ⟨S16x256x130x1, .f32⟩
  | 46 => ⟨S16x256x130x1, .f32⟩
  | 47 => ⟨S16x256x130x1, .f32⟩
  | 48 => ⟨S16x256x130x130, .f32⟩
  | 49 => ⟨S_, .f32⟩
  | 50 => ⟨S16x8x32x128x128, .f32⟩
  | 51 => ⟨S16x256x128x128, .f32⟩
  | 52 => ⟨S16x8x32x128x128, .f32⟩
  | 53 => ⟨S16x8x1, .f32⟩
  | 54 => ⟨S16x8, .f32⟩
  | 55 => ⟨S16x8x1x1x1, .f32⟩
  | 56 => ⟨S16x8x32x128x128, .f32⟩
  | 57 => ⟨S16x8x32x128x128, .f32⟩
  | 58 => ⟨S16x8x32x128x128, .f32⟩
  | 59 => ⟨S16x256x128x128, .f32⟩
  | 60 => ⟨S16x8x32x128x128, .f32⟩
  | 61 => ⟨S16x8x1, .f32⟩
  | 62 => ⟨S16x8, .f32⟩
  | 63 => ⟨S16x8x1x1x1, .f32⟩
  | 64 => ⟨S16x8x32x128x128, .f32⟩
  | 65 => ⟨S16x8x32x128x128, .f32⟩
  | 66 => ⟨S16x8x32x128x128, .f32⟩
  | 67 => ⟨S16x256x128x128, .f32⟩
  | 68 => ⟨S16x8x32x128x128, .f32⟩
  | 69 => ⟨S16x8x1, .f32⟩
  | 70 => ⟨S16x8, .f32⟩
  | 71 => ⟨S16x8x1x1x1, .f32⟩
  | 72 => ⟨S16x8x32x128x128, .f32⟩
  | 73 => ⟨S16x8x32x128x128, .f32⟩
  | 74 => ⟨S16x8x32x128x128, .f32⟩
  | 75 => ⟨S16x256x128x128, .f32⟩
  | 76 => ⟨S16x8x32x128x128, .f32⟩
  | 77 => ⟨S16x8x1, .f32⟩
  | 78 => ⟨S16x8, .f32⟩
  | 79 => ⟨S16x8x1x1x1, .f32⟩
  | 80 => ⟨S16x8x32x128x128, .f32⟩
  | 81 => ⟨S16x8x32x128x128, .f32⟩
  | 82 => ⟨S16x8x32x128x128, .f32⟩
  | 83 => ⟨S16x256x128x128, .f32⟩
  | 84 => ⟨S16x8x32x128x128, .f32⟩
  | 85 => ⟨S16x8x1, .f32⟩
  | 86 => ⟨S16x8, .f32⟩
  | 87 => ⟨S16x8x1x1x1, .f32⟩
  | 88 => ⟨S16x8x32x128x128, .f32⟩
  | 89 => ⟨S16x8x32x128x128, .f32⟩
  | 90 => ⟨S16x8x32x128x128, .f32⟩
  | 91 => ⟨S16x256x128x128, .f32⟩
  | 92 => ⟨S16x8x32x128x128, .f32⟩
  | 93 => ⟨S16x8x1, .f32⟩
  | 94 => ⟨S16x8, .f32⟩
  | 95 => ⟨S16x8x1x1x1, .f32⟩
  | 96 => ⟨S16x8x32x128x128, .f32⟩
  | 97 => ⟨S16x8x32x128x128, .f32⟩
  | 98 => ⟨S16x8x32x128x128, .f32⟩
  | 99 => ⟨S16x256x128x128, .f32⟩
  | 100 => ⟨S16x8x32x128x128, .f32⟩
  | 101 => ⟨S16x8x1, .f32⟩
  | 102 => ⟨S16x8, .f32⟩
  | 103 => ⟨S16x8x1x1x1, .f32⟩
  | 104 => ⟨S16x8x32x128x128, .f32⟩
  | 105 => ⟨S16x8x32x128x128, .f32⟩
  | 106 => ⟨S16x8x32x128x128, .f32⟩
  | 107 => ⟨S16x256x128x128, .f32⟩
  | 108 => ⟨S16x8x32x128x128, .f32⟩
  | 109 => ⟨S16x8x1, .f32⟩
  | 110 => ⟨S16x8, .f32⟩
  | 111 => ⟨S16x8x1x1x1, .f32⟩
  | 112 => ⟨S16x8x32x128x128, .f32⟩
  | 113 => ⟨S16x8x32x128x128, .f32⟩
  | 114 => ⟨S16x8x32x128x128, .f32⟩
  | 115 => ⟨S16x256x128x128, .f32⟩
  | 116 => ⟨S16x8x32x128x128, .f32⟩
  | 117 => ⟨S16x8x1, .f32⟩
  | 118 => ⟨S16x8, .f32⟩
  | 119 => ⟨S16x8x1x1x1, .f32⟩
  | 120 => ⟨S16x8x32x128x128, .f32⟩
  | 121 => ⟨S16x8x32x128x128, .f32⟩
  | 122 => ⟨S16x8x32x128x128, .f32⟩
  | 123 => ⟨S16x256x128x128, .f32⟩
  | 124 => ⟨S_, .f32⟩
  | 125 => ⟨S16x256, .f32⟩
  | 126 => ⟨S16x256x1x1, .f32⟩
  | 127 => ⟨S_, .f32⟩
  | _ => ⟨S16x256x128x128, .f32⟩

abbrev hbmTy0_1 (i : Nat) : BufTy := match i % 128 with
  | 0 => ⟨S16x256x1x1, .f32⟩
  | 1 => ⟨S16x256x1x1, .f32⟩
  | 2 => ⟨S1x256x1x1, .f32⟩
  | 3 => ⟨S_, .f32⟩
  | 4 => ⟨S1x256x1x1, .f32⟩
  | 5 => ⟨S1x256x1x1, .f32⟩
  | 6 => ⟨S16x256x128x128, .f32⟩
  | 7 => ⟨S16x256x128x128, .f32⟩
  | 8 => ⟨S16x256x1x1, .f32⟩
  | 9 => ⟨S16x256x1x1, .f32⟩
  | 10 => ⟨S16x256x128x128, .f32⟩
  | 11 => ⟨S16x256x128x128, .f32⟩
  | 12 => ⟨S1x256x1x1, .f32⟩
  | 13 => ⟨S_, .f32⟩
  | 14 => ⟨S1x256x1x1, .f32⟩
  | 15 => ⟨S1x256x1x1, .f32⟩
  | 16 => ⟨S16x256x128x128, .f32⟩
  | 17 => ⟨S16x256x128x128, .f32⟩
  | 18 => ⟨S16x256x128x128, .f32⟩
  | 19 => ⟨S1x256x1x1, .f32⟩
  | 20 => ⟨S_, .f32⟩
  | 21 => ⟨S1x256x1x1, .f32⟩
  | 22 => ⟨S1x256x1x1, .f32⟩
  | 23 => ⟨S16x256x128x128, .f32⟩
  | 24 => ⟨S16x256x128x128, .f32⟩
  | 25 => ⟨S16x256x128x128, .f32⟩
  | _ => ⟨S16x256x128x128, .f32⟩

abbrev hbmTy (i : Nat) : BufTy := match i / 128 with
  | 0 => hbmTy0_0 i
  | 1 => hbmTy0_1 i
  | _ => ⟨S16x256x128x128, .f32⟩

abbrev bufTy : (tb : Table) → Fin (tcTables nBuf tb) → BufTy
  | .hbm, ⟨i, _⟩ => hbmTy i
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_v20 : Ref sig .tc := ⟨.hbm, 48, rfl⟩
abbrev main_cst_2 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_3 : Ref sig .tc := ⟨.hbm, 124, rfl⟩
abbrev main_v95 : Ref sig .tc := ⟨.hbm, 125, rfl⟩
abbrev main_v96 : Ref sig .tc := ⟨.hbm, 126, rfl⟩
abbrev main_cst_4 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_5 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_6 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_7 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩

abbrev nD : Nat := 1
abbrev τ : Topo := Topo.v7x

variable {F : FTy → Type} [FloatOps F]

class Facts₀ : Prop where
  reducesTo_S16x256x128x128_S16x256_d2_3 : S16x256x128x128.ReducesTo [2, 3] S16x256
  h_S_ : 0 < S_.numel
  bcast_S_S16x256 : S_.BroadcastsInDim S16x256 (![] : Fin 0 → Fin S16x256.rank)
  transposes_S72x256_S256x72_1_0 : S72x256.Transposes [1, 0] S256x72
  bcast_S72_S1x72_1 : S72.BroadcastsInDim S1x72 (![1] : Fin 1 → Fin S1x72.rank)
  bcast_S1x72_S16x72_0_1 : S1x72.BroadcastsInDim S16x72 (![0, 1] : Fin 2 → Fin S16x72.rank)
  bcast_S_S72 : S_.BroadcastsInDim S72 (![] : Fin 0 → Fin S72.rank)
  shapeCasts_S16x72_S16x8x9 : S16x72.ShapeCasts S16x8x9
  slices_S16x256x128x128_S16x256x1x128_0_0_0_0 : S16x256x128x128.Slices ![0, 0, 0, 0] S16x256x1x128
  slices_S16x256x128x128_S16x256x1x128_0_0_1_0 : S16x256x128x128.Slices ![0, 0, 1, 0] S16x256x1x128
  concatenates_S16x256x1x128_S16x256x128x128_S16x256x129x128_d2 : Shape.Concatenates [S16x256x1x128, S16x256x128x128] S16x256x129x128 2
  slices_S16x256x129x128_S16x256x1x128_0_0_128_0 : S16x256x129x128.Slices ![0, 0, 128, 0] S16x256x1x128
  slices_S16x256x129x128_S16x256x1x128_0_0_127_0 : S16x256x129x128.Slices ![0, 0, 127, 0] S16x256x1x128
  concatenates_S16x256x129x128_S16x256x1x128_S16x256x130x128_d2 : Shape.Concatenates [S16x256x129x128, S16x256x1x128] S16x256x130x128 2
  slices_S16x256x130x128_S16x256x130x1_0_0_0_0 : S16x256x130x128.Slices ![0, 0, 0, 0] S16x256x130x1
  slices_S16x256x130x128_S16x256x130x1_0_0_0_1 : S16x256x130x128.Slices ![0, 0, 0, 1] S16x256x130x1
  concatenates_S16x256x130x1_S16x256x130x128_S16x256x130x129_d3 : Shape.Concatenates [S16x256x130x1, S16x256x130x128] S16x256x130x129 3
  slices_S16x256x130x129_S16x256x130x1_0_0_0_128 : S16x256x130x129.Slices ![0, 0, 0, 128] S16x256x130x1
  slices_S16x256x130x129_S16x256x130x1_0_0_0_127 : S16x256x130x129.Slices ![0, 0, 0, 127] S16x256x130x1
  concatenates_S16x256x130x129_S16x256x130x1_S16x256x130x130_d3 : Shape.Concatenates [S16x256x130x129, S16x256x130x1] S16x256x130x130 3
  bcast_S_S16x8x32x128x128 : S_.BroadcastsInDim S16x8x32x128x128 (![] : Fin 0 → Fin S16x8x32x128x128.rank)
  slices_S16x256x130x130_S16x256x128x128_0_0_0_0 : S16x256x130x130.Slices ![0, 0, 0, 0] S16x256x128x128
  shapeCasts_S16x256x128x128_S16x8x32x128x128 : S16x256x128x128.ShapeCasts S16x8x32x128x128
  slices_S16x8x9_S16x8x1_0_0_0 : S16x8x9.Slices ![0, 0, 0] S16x8x1
  shapeCasts_S16x8x1_S16x8 : S16x8x1.ShapeCasts S16x8
  bcast_S16x8_S16x8x1x1x1_0_1 : S16x8.BroadcastsInDim S16x8x1x1x1 (![0, 1] : Fin 2 → Fin S16x8x1x1x1.rank)
  bcast_S16x8x1x1x1_S16x8x32x128x128_0_1_2_3_4 : S16x8x1x1x1.BroadcastsInDim S16x8x32x128x128 (![0, 1, 2, 3, 4] : Fin 5 → Fin S16x8x32x128x128.rank)
  slices_S16x256x130x130_S16x256x128x128_0_0_0_1 : S16x256x130x130.Slices ![0, 0, 0, 1] S16x256x128x128
  slices_S16x8x9_S16x8x1_0_0_1 : S16x8x9.Slices ![0, 0, 1] S16x8x1
  slices_S16x256x130x130_S16x256x128x128_0_0_0_2 : S16x256x130x130.Slices ![0, 0, 0, 2] S16x256x128x128
  slices_S16x8x9_S16x8x1_0_0_2 : S16x8x9.Slices ![0, 0, 2] S16x8x1
  slices_S16x256x130x130_S16x256x128x128_0_0_1_0 : S16x256x130x130.Slices ![0, 0, 1, 0] S16x256x128x128
  slices_S16x8x9_S16x8x1_0_0_3 : S16x8x9.Slices ![0, 0, 3] S16x8x1
  slices_S16x256x130x130_S16x256x128x128_0_0_1_1 : S16x256x130x130.Slices ![0, 0, 1, 1] S16x256x128x128
  slices_S16x8x9_S16x8x1_0_0_4 : S16x8x9.Slices ![0, 0, 4] S16x8x1
  slices_S16x256x130x130_S16x256x128x128_0_0_1_2 : S16x256x130x130.Slices ![0, 0, 1, 2] S16x256x128x128
  slices_S16x8x9_S16x8x1_0_0_5 : S16x8x9.Slices ![0, 0, 5] S16x8x1
  slices_S16x256x130x130_S16x256x128x128_0_0_2_0 : S16x256x130x130.Slices ![0, 0, 2, 0] S16x256x128x128
  slices_S16x8x9_S16x8x1_0_0_6 : S16x8x9.Slices ![0, 0, 6] S16x8x1
  slices_S16x256x130x130_S16x256x128x128_0_0_2_1 : S16x256x130x130.Slices ![0, 0, 2, 1] S16x256x128x128
  slices_S16x8x9_S16x8x1_0_0_7 : S16x8x9.Slices ![0, 0, 7] S16x8x1
  slices_S16x256x130x130_S16x256x128x128_0_0_2_2 : S16x256x130x130.Slices ![0, 0, 2, 2] S16x256x128x128
  slices_S16x8x9_S16x8x1_0_0_8 : S16x8x9.Slices ![0, 0, 8] S16x8x1
  shapeCasts_S16x8x32x128x128_S16x256x128x128 : S16x8x32x128x128.ShapeCasts S16x256x128x128
  bcast_S16x256_S16x256x1x1_0_1 : S16x256.BroadcastsInDim S16x256x1x1 (![0, 1] : Fin 2 → Fin S16x256x1x1.rank)
  bcast_S_S16x256x1x1 : S_.BroadcastsInDim S16x256x1x1 (![] : Fin 0 → Fin S16x256x1x1.rank)
  bcast_S256_S1x256x1x1_1 : S256.BroadcastsInDim S1x256x1x1 (![1] : Fin 1 → Fin S1x256x1x1.rank)
  bcast_S_S1x256x1x1 : S_.BroadcastsInDim S1x256x1x1 (![] : Fin 0 → Fin S1x256x1x1.rank)
  bcast_S1x256x1x1_S16x256x128x128_0_1_2_3 : S1x256x1x1.BroadcastsInDim S16x256x128x128 (![0, 1, 2, 3] : Fin 4 → Fin S16x256x128x128.rank)
  bcast_S1x256x1x1_S16x256x1x1_0_1_2_3 : S1x256x1x1.BroadcastsInDim S16x256x1x1 (![0, 1, 2, 3] : Fin 4 → Fin S16x256x1x1.rank)
  bcast_S16x256x1x1_S16x256x128x128_0_1_2_3 : S16x256x1x1.BroadcastsInDim S16x256x128x128 (![0, 1, 2, 3] : Fin 4 → Fin S16x256x128x128.rank)
  dot_S16x256_S256x72_S16x72_1_0_0_1_n_n_wf : DotDims.WF S16x256 S256x72 S16x72 [1] [0] [0] [1] [] []

variable [Facts₀]

def dot_S16x256_S256x72_S16x72_1_0_0_1_n_n : DotDims S16x256 S256x72 S16x72 where
  lhsContracting := [1]
  rhsContracting := [0]
  lhsNonContracting := [0]
  rhsNonContracting := [1]
  lhsBatch := []
  rhsBatch := []
  wf := dot_S16x256_S256x72_S16x72_1_0_0_1_n_n_wf

class Facts : Prop extends Facts₀ where

variable [Facts]
-- ==== Proof.KRun.lean ====
/-
  The idealized kernel's run with its result named. The program is two pipelined regions with a stretch of host
  operations between them; the contents of the TensorCore's buffers at the three boundaries are the fold
  W0 (launch) -> W1 (after the pooled-mean region) -> W2 (after the host operations) -> W3 (after the filter
  region). Every weakly fair execution terminates, nothing faulting, with every unscoped buffer at W3: so the
  result buffer ends at W3's value there and each argument at its launch contents (no host operation and no
  region writes an argument, so the fold at an argument's buffer walks back to the launch memory).
-/
import proofs.«138818_j16441134809583_1_alg».proof.Proof.Gen.KernelIdeal.Frame

set_option maxRecDepth 16384

noncomputable section

namespace Cert.Fam.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v26) = W3 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v26 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c)⟩)

end Cert.Fam.KRun

end
-- ==== Proof.Spec.lean ====
/-
  The specification both programs are read against: a per-image, per-channel 3x3 local filter over the
  reflect-padded image plane, followed by the frequency gating.

  For one channel with image plane X [128, 128], pooled mean g, nine taps fl and gates al, ah, ai, at pixel (h, w):
    low  = 0 + sum over t = 3*dy + dx (in that order) of X[mir (h + dy), mir (w + dx)] * fl[t]
    out  = (low * (ai + 1) - ai * g) * (al + 1) + (X[h, w] - low) * (ah + 1)
  where mir sends a coordinate of the padded axis (extent 130) to the source coordinate it mirrors
  (0 to 1, a to a - 1 for 1 <= a <= 128, 129 to 126).
  For the whole arrays: channel c of image n has plane x[n, c, ., .], pooled mean p[n, c], taps f[n, c / 32, .]
  (32 consecutive channels share a group's taps) and gates ll[c], lh[c], ia[c]. The pooled mean p [16, 256] and
  the predicted taps f [16, 8, 9] are parameters here: both programs compute them by the same operations from
  the same pooled mean.
  The nine products are added left to right from the zero word, exactly as both programs do, so no
  algebraic law of the extended reals is used anywhere.
-/
import Idealize.ShloMosaic.PureOps.Ideal
import Idealize.ShloMosaic.Lib.ValueIdx

noncomputable section

namespace Cert.Fam

open Idealize.ShloMosaic Idealize.ShloMosaic.ValueIdx

/-- The image array [16, 256, 128, 128]. -/
abbrev SX : Shape := ⟨4, ![16, 256, 128, 128]⟩
/-- The pooled mean [16, 256]. -/
abbrev SP : Shape := ⟨2, ![16, 256]⟩
/-- The predicted taps [16, 8, 9]. -/
abbrev SF : Shape := ⟨3, ![16, 8, 9]⟩
/-- A per-channel gate [256]. -/
abbrev SC : Shape := ⟨1, ![256]⟩

/-- The source coordinate a padded coordinate mirrors (reflection without repeating the edge, pad 1). -/
def mir (a : Nat) : Nat := if a = 0 then 1 else if a = 129 then 126 else a - 1

theorem mir_lt {a : Nat} (h : a < 130) : mir a < 128 := by
  unfold mir; split_ifs <;> omega

/-- The words of 0.0 and 1.0. -/
abbrev zeroW : EReal := Ideal.ofBits .f32 0x00000000#32
abbrev oneW : EReal := Ideal.ofBits .f32 0x3F800000#32

/-- The padded plane at window offset (dy, dx) of pixel (h, w). -/
def tapCh (X : Fin 128 → Fin 128 → EReal) (h w : Fin 128) (dy dx : Fin 3) : EReal :=
  X ⟨mir (h.val + dy.val), mir_lt (by omega)⟩ ⟨mir (w.val + dx.val), mir_lt (by omega)⟩

/-- The local filter's response: the nine products added left to right from the zero word. -/
def lowCh (X : Fin 128 → Fin 128 → EReal) (fl : Fin 9 → EReal) (h w : Fin 128) : EReal :=
  zeroW + tapCh X h w 0 0 * fl 0 + tapCh X h w 0 1 * fl 1 + tapCh X h w 0 2 * fl 2
    + tapCh X h w 1 0 * fl 3 + tapCh X h w 1 1 * fl 4 + tapCh X h w 1 2 * fl 5
    + tapCh X h w 2 0 * fl 6 + tapCh X h w 2 1 * fl 7 + tapCh X h w 2 2 * fl 8

/-- One channel's gated output at pixel (h, w). -/
def outCh (X : Fin 128 → Fin 128 → EReal) (g : EReal) (fl : Fin 9 → EReal) (al ah ai : EReal) (h w : Fin 128) : EReal :=
  (lowCh X fl h w * (ai + oneW) - ai * g) * (al + oneW) + (X h w - lowCh X fl h w) * (ah + oneW)

/-- The gated output of the whole arrays at explicit coordinates. -/
def outAt (x : SX.Idx → EReal) (p : SP.Idx → EReal) (f : SF.Idx → EReal) (ll lh ia : SC.Idx → EReal)
    (n : Fin 16) (c : Fin 256) (h w : Fin 128) : EReal :=
  outCh (fun a b => x (ix4 n c a b)) (p (ix2 n c)) (fun t => f (ix3 n ⟨c.val / 32, by omega⟩ t))
    (ll (ix1 c)) (lh (ix1 c)) (ia (ix1 c)) h w

/-- The whole output array. -/
def G (x : SX.Idx → EReal) (p : SP.Idx → EReal) (f : SF.Idx → EReal) (ll lh ia : SC.Idx → EReal) : SX.Idx → EReal :=
  fun i => outAt x p f ll lh ia (i 0) (i 1) (i 2) (i 3)

theorem G_ix4 (x : SX.Idx → EReal) (p : SP.Idx → EReal) (f : SF.Idx → EReal) (ll lh ia : SC.Idx → EReal)
    (n : Fin 16) (c : Fin 256) (h w : Fin 128) :
    G x p f ll lh ia (ix4 n c h w) = outAt x p f ll lh ia n c h w := rfl

end Cert.Fam

end
-- ==== Proof.KBody0.lean ====
/-
  The pooled-mean kernel body read at an index: its one block [1, 256, 128, 128] goes to [1, 256, 1, 1], and the value
  stored at (0, c, 0, 0) is the sum over the plane of channel c (the reduction kept folded here) divided by the word
  of 16384.0.
-/
import proofs.«138818_j16441134809583_1_alg».proof.Proof.Gen.KernelIdeal.Frame
import proofs.«138818_j16441134809583_1_alg».proof.Proof.Spec
import Idealize.ShloMosaic.Lib.Pipeline.Value
import Idealize.ShloMosaic.Lib.ValueIdx
import Idealize.ShloMosaic.Lib.ValueLayout

noncomputable section

namespace Cert.Fam.KBody

open Cert.KernelIdeal Cert.KernelIdeal.Gen Idealize.ShloMosaic Idealize.ShloMosaic.ValueIdx Cert.Fam

/-- The four literal zero offsets are the zero function. -/
theorem zero4 : (![0, 0, 0, 0] : Fin 4 → Nat) = fun _ => 0 := by
  funext a
  match a with
  | ⟨0, _⟩ => rfl
  | ⟨1, _⟩ => rfl
  | ⟨2, _⟩ => rfl
  | ⟨3, _⟩ => rfl

/-- The pooled-mean body at (0, c, 0, 0): the folded plane sum of channel c over the word of 16384.0. -/
theorem out0_1_apply (x0 : Vec Ideal S1x256x128x128 .f32) (c : Fin 256) :
    out0_1 (F := Ideal) x0 (ix4 (0 : Fin 1) c (0 : Fin 1) (0 : Fin 1))
      = Ideal.div (multiReduction (F := Ideal) .add [1, 2] S256 (shapeCast S256x128x128 x0 shapeCasts_S1x256x128x128_S256x128x128) 0x00000000#32 reduces_S256x128x128_S256 (.inl rfl) rfl (ix1 c))
                  (Ideal.ofBits .f32 0x46800000#32) := by
  unfold out0_1
  rw [View.canon_unit_zero zero4, View.ld_unit_zero (S := S1x256x128x128) zero4]
  unfold k0_pay1
  refine (shapeCast_apply _ shapeCasts_S256_S1x256x1x1 (ix4 (0 : Fin 1) c (0 : Fin 1) (0 : Fin 1)) (ix1 c) ?_).trans ?_
  · rw [Shape.rowMajor_val_one, Shape.rowMajor_val_four]
    show c.val = ((0 * 256 + c.val) * 1 + 0) * 1 + 0
    omega
  · rfl

end Cert.Fam.KBody

end
-- ==== Proof.KGeom.lean ====
/-
  The geometry of the idealized kernel's two pipelined regions.
  Region 0 (the pooled mean) has 16 grid points; point t reads image t of the input [16, 256, 128, 128] as one block
  [1, 256, 128, 128] and writes block t of the mean array [16, 256, 1, 1].
  Region 1 (the local filter) has 16 x 4 grid points in row-major order; point t handles image t / 4 and the 64
  channels 64 * (t % 4) ... 64 * (t % 4) + 63: its image, pooled-mean and output blocks are at block index
  (t / 4, t % 4, 0, 0), its taps block [1, 9, 64, 1, 1] at (t / 4, 0, t % 4, 0, 0), its three gate blocks at
  (0, t % 4, 0, 0). The printed index maps are decided once over the grids; a block's coordinate on an axis is
  always block index * block extent + the coordinate inside the block.
-/
import proofs.«138818_j16441134809583_1_alg».proof.Proof.Gen.KernelIdeal.Frame
import Idealize.ShloMosaic.Lib.Pipeline.Value
import Idealize.ShloMosaic.Lib.ValueIdx

set_option maxRecDepth 16384

noncomputable section

namespace Cert.Fam.KGeom

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The index maps of region 0 at every grid point. -/
theorem idx0 : ∀ t : Fin cfg0.N, win0_0.index t = ![t.val, 0, 0, 0] ∧ win0_1.index t = ![t.val, 0, 0, 0] :=
  (by decide +kernel : ∀ t : Fin grid0.N, _)

/-- The index maps of region 1 at every grid point. -/
theorem idx1 : ∀ t : Fin cfg1.N,
    win1_0.index t = ![t.val / 4, t.val % 4, 0, 0] ∧ win1_1.index t = ![t.val / 4, t.val % 4, 0, 0]
    ∧ win1_2.index t = ![t.val / 4, 0, t.val % 4, 0, 0]
    ∧ win1_3.index t = ![0, t.val % 4, 0, 0] ∧ win1_4.index t = ![0, t.val % 4, 0, 0] ∧ win1_5.index t = ![0, t.val % 4, 0, 0]
    ∧ win1_6.index t = ![t.val / 4, t.val % 4, 0, 0] :=
  (by decide +kernel : ∀ t : Fin grid1.N, _)

theorem lt0 (t : Fin cfg0.N) : t.val < 16 := lt_of_lt_of_eq t.isLt N_0
theorem lt1 (t : Fin cfg1.N) : t.val < 64 := lt_of_lt_of_eq t.isLt N_1

/-- The image a point of region 1 handles, and its block of 64 channels. -/
def img (t : Fin cfg1.N) : Fin 16 := ⟨t.val / 4, by have := lt1 t; omega⟩
def chan (t : Fin cfg1.N) (q : Fin 64) : Fin 256 := ⟨t.val % 4 * 64 + q.val, by have := q.isLt; omega⟩
def img0 (t : Fin cfg0.N) : Fin 16 := ⟨t.val, lt0 t⟩

section Reads
variable {F : FTy → Type} [FloatOps F]
variable (V : (c : Dev nD) → (b : Ref sig .tc) → Buf (Elt F) ((c : Thread nD τ).loc b))

/-! ### Region 0's blocks -/

theorem iblk0_0_apply (c : Dev nD) (t : Fin cfg0.N) (q : Fin 256) (a b : Fin 128) :
    iblk0 V c 0 t (ix4 0 q a b) = V c main_arg0 (ix4 (img0 t) q a b) := by
  show V c main_arg0 (((cfg0.win 0).blk t).view.emb (ix4 0 q a b)) = _
  refine congrArg _ (funext fun d => Fin.ext ?_)
  have e := (idx0 t).1
  match d with
  | ⟨0, _⟩ => show win0_0.index t (0 : Fin 4) * 1 + 1 * 0 = t.val; rw [e]; simp
  | ⟨1, _⟩ => show win0_0.index t (1 : Fin 4) * 256 + 1 * q.val = q.val; rw [e]; simp
  | ⟨2, _⟩ => show win0_0.index t (2 : Fin 4) * 128 + 1 * a.val = a.val; rw [e]; simp
  | ⟨3, _⟩ => show win0_0.index t (3 : Fin 4) * 128 + 1 * b.val = b.val; rw [e]; simp

/-- The array index of entry (0, q, 0, 0) of point t's output block. -/
theorem emb0_1 (t : Fin cfg0.N) (q : Fin 256) :
    ((cfg0.win 1).blk t).view.emb (ix4 0 q 0 0) = (ix4 (img0 t) q 0 0 : S16x256x1x1.Idx) := by
  refine funext fun d => Fin.ext ?_
  have e := (idx0 t).2
  match d with
  | ⟨0, _⟩ => show win0_1.index t (0 : Fin 4) * 1 + 1 * 0 = t.val; rw [e]; simp
  | ⟨1, _⟩ => show win0_1.index t (1 : Fin 4) * 256 + 1 * q.val = q.val; rw [e]; simp
  | ⟨2, _⟩ => show win0_1.index t (2 : Fin 4) * 1 + 1 * 0 = 0; rw [e]; simp
  | ⟨3, _⟩ => show win0_1.index t (3 : Fin 4) * 1 + 1 * 0 = 0; rw [e]; simp

/-! ### Region 1's blocks -/

theorem iblk1_0_apply (c : Dev nD) (t : Fin cfg1.N) (q : Fin 64) (a b : Fin 128) :
    iblk1 V c 0 t (ix4 0 q a b) = V c main_arg0 (ix4 (img t) (chan t q) a b) := by
  show V c main_arg0 (((cfg1.win 0).blk t).view.emb (ix4 0 q a b)) = _
  refine congrArg _ (funext fun d => Fin.ext ?_)
  have e := (idx1 t).1
  match d with
  | ⟨0, _⟩ => show win1_0.index t (0 : Fin 4) * 1 + 1 * 0 = t.val / 4; rw [e]; simp
  | ⟨1, _⟩ => show win1_0.index t (1 : Fin 4) * 64 + 1 * q.val = t.val % 4 * 64 + q.val; rw [e]; simp
  | ⟨2, _⟩ => show win1_0.index t (2 : Fin 4) * 128 + 1 * a.val = a.val; rw [e]; simp
  | ⟨3, _⟩ => show win1_0.index t (3 : Fin 4) * 128 + 1 * b.val = b.val; rw [e]; simp

theorem iblk1_1_apply (c : Dev nD) (t : Fin cfg1.N) (q : Fin 64) :
    iblk1 V c 1 t (ix4 0 q 0 0) = V c main_v0 (ix4 (img t) (chan t q) 0 0) := by
  show V c main_v0 (((cfg1.win 1).blk t).view.emb (ix4 0 q 0 0)) = _
  refine congrArg _ (funext fun d => Fin.ext ?_)
  have e := (idx1 t).2.1
  match d with
  | ⟨0, _⟩ => show win1_1.index t (0 : Fin 4) * 1 + 1 * 0 = t.val / 4; rw [e]; simp
  | ⟨1, _⟩ => show win1_1.index t (1 : Fin 4) * 64 + 1 * q.val = t.val % 4 * 64 + q.val; rw [e]; simp
  | ⟨2, _⟩ => show win1_1.index t (2 : Fin 4) * 1 + 1 * 0 = 0; rw [e]; simp
  | ⟨3, _⟩ => show win1_1.index t (3 : Fin 4) * 1 + 1 * 0 = 0; rw [e]; simp

theorem iblk1_2_apply (c : Dev nD) (t : Fin cfg1.N) (k : Fin 9) (q : Fin 64) :
    iblk1 V c 2 t (ix5 0 k q 0 0) = V c main_v22 (ix5 (img t) k (chan t q) 0 0) := by
  show V c main_v22 (((cfg1.win 2).blk t).view.emb (ix5 0 k q 0 0)) = _
  refine congrArg _ (funext fun d => Fin.ext ?_)
  have e := (idx1 t).2.2.1
  match d with
  | ⟨0, _⟩ => show win1_2.index t (0 : Fin 5) * 1 + 1 * 0 = t.val / 4; rw [e]; simp
  | ⟨1, _⟩ => show win1_2.index t (1 : Fin 5) * 9 + 1 * k.val = k.val; rw [e]; simp
  | ⟨2, _⟩ => show win1_2.index t (2 : Fin 5) * 64 + 1 * q.val = t.val % 4 * 64 + q.val; rw [e]; simp
  | ⟨3, _⟩ => show win1_2.index t (3 : Fin 5) * 1 + 1 * 0 = 0; rw [e]; simp
  | ⟨4, _⟩ => show win1_2.index t (4 : Fin 5) * 1 + 1 * 0 = 0; rw [e]; simp

theorem iblk1_3_apply (c : Dev nD) (t : Fin cfg1.N) (q : Fin 64) :
    iblk1 V c 3 t (ix4 0 q 0 0) = V c main_v23 (ix4 0 (chan t q) 0 0) := by
  show V c main_v23 (((cfg1.win 3).blk t).view.emb (ix4 0 q 0 0)) = _
  refine congrArg _ (funext fun d => Fin.ext ?_)
  have e := (idx1 t).2.2.2.1
  match d with
  | ⟨0, _⟩ => show win1_3.index t (0 : Fin 4) * 1 + 1 * 0 = 0; rw [e]; simp
  | ⟨1, _⟩ => show win1_3.index t (1 : Fin 4) * 64 + 1 * q.val = t.val % 4 * 64 + q.val; rw [e]; simp
  | ⟨2, _⟩ => show win1_3.index t (2 : Fin 4) * 1 + 1 * 0 = 0; rw [e]; simp
  | ⟨3, _⟩ => show win1_3.index t (3 : Fin 4) * 1 + 1 * 0 = 0; rw [e]; simp

theorem iblk1_4_apply (c : Dev nD) (t : Fin cfg1.N) (q : Fin 64) :
    iblk1 V c 4 t (ix4 0 q 0 0) = V c main_v24 (ix4 0 (chan t q) 0 0) := by
  show V c main_v24 (((cfg1.win 4).blk t).view.emb (ix4 0 q 0 0)) = _
  refine congrArg _ (funext fun d => Fin.ext ?_)
  have e := (idx1 t).2.2.2.2.1
  match d with
  | ⟨0, _⟩ => show win1_4.index t (0 : Fin 4) * 1 + 1 * 0 = 0; rw [e]; simp
  | ⟨1, _⟩ => show win1_4.index t (1 : Fin 4) * 64 + 1 * q.val = t.val % 4 * 64 + q.val; rw [e]; simp
  | ⟨2, _⟩ => show win1_4.index t (2 : Fin 4) * 1 + 1 * 0 = 0; rw [e]; simp
  | ⟨3, _⟩ => show win1_4.index t (3 : Fin 4) * 1 + 1 * 0 = 0; rw [e]; simp

theorem iblk1_5_apply (c : Dev nD) (t : Fin cfg1.N) (q : Fin 64) :
    iblk1 V c 5 t (ix4 0 q 0 0) = V c main_v25 (ix4 0 (chan t q) 0 0) := by
  show V c main_v25 (((cfg1.win 5).blk t).view.emb (ix4 0 q 0 0)) = _
  refine congrArg _ (funext fun d => Fin.ext ?_)
  have e := (idx1 t).2.2.2.2.2.1
  match d with
  | ⟨0, _⟩ => show win1_5.index t (0 : Fin 4) * 1 + 1 * 0 = 0; rw [e]; simp
  | ⟨1, _⟩ => show win1_5.index t (1 : Fin 4) * 64 + 1 * q.val = t.val % 4 * 64 + q.val; rw [e]; simp
  | ⟨2, _⟩ => show win1_5.index t (2 : Fin 4) * 1 + 1 * 0 = 0; rw [e]; simp
  | ⟨3, _⟩ => show win1_5.index t (3 : Fin 4) * 1 + 1 * 0 = 0; rw [e]; simp

/-- The array index of entry (0, q, h, w) of point t's output block. -/
theorem emb1_6 (t : Fin cfg1.N) (q : Fin 64) (a b : Fin 128) :
    ((cfg1.win 6).blk t).view.emb (ix4 0 q a b) = (ix4 (img t) (chan t q) a b : S16x256x128x128.Idx) := by
  refine funext fun d => Fin.ext ?_
  have e := (idx1 t).2.2.2.2.2.2
  match d with
  | ⟨0, _⟩ => show win1_6.index t (0 : Fin 4) * 1 + 1 * 0 = t.val / 4; rw [e]; simp
  | ⟨1, _⟩ => show win1_6.index t (1 : Fin 4) * 64 + 1 * q.val = t.val % 4 * 64 + q.val; rw [e]; simp
  | ⟨2, _⟩ => show win1_6.index t (2 : Fin 4) * 128 + 1 * a.val = a.val; rw [e]; simp
  | ⟨3, _⟩ => show win1_6.index t (3 : Fin 4) * 128 + 1 * b.val = b.val; rw [e]; simp

end Reads

/-! ### The output blocks tile their arrays -/

theorem mem_blk0_1 (t : Fin cfg0.N) (i : S16x256x1x1.Idx) :
    i ∈ ((cfg0.win 1).blk t).view.set ↔ ∀ a : Fin 4, win0_1.index t a * S1x256x1x1.size a ≤ (i a).val ∧ (i a).val < win0_1.index t a * S1x256x1x1.size a + S1x256x1x1.size a := by
  show i ∈ ((View.whole main_v0).slice (win0_1.rect t)).set ↔ _
  rw [View.set_slice_whole, Rect.mem_set_unit]
  exact Iff.rfl

/-- Every entry of the mean array is in the block of the point of its image. -/
theorem cover0_1 (i : S16x256x1x1.Idx) : ∃ t : Fin cfg0.N, (cfg0.win 1).flush t = true ∧ i ∈ ((cfg0.win 1).blk t).view.set := by
  have h0 : (i 0).val < 16 := (i 0).isLt
  have h1 : (i 1).val < 256 := (i 1).isLt
  have h2 : (i 2).val < 1 := (i 2).isLt
  have h3 : (i 3).val < 1 := (i 3).isLt
  refine ⟨⟨(i 0).val, by rw [show cfg0.N = 16 from N_0]; exact h0⟩, flush0_1 _, ?_⟩
  rw [mem_blk0_1]
  have e := (idx0 ⟨(i 0).val, by rw [show cfg0.N = 16 from N_0]; exact h0⟩).2
  intro a
  match a with
  | ⟨0, _⟩ => show win0_1.index _ (0 : Fin 4) * 1 ≤ (i 0).val ∧ (i 0).val < win0_1.index _ (0 : Fin 4) * 1 + 1; rw [e]; simp
  | ⟨1, _⟩ => show win0_1.index _ (1 : Fin 4) * 256 ≤ (i 1).val ∧ (i 1).val < win0_1.index _ (1 : Fin 4) * 256 + 256; rw [e]; simp; omega
  | ⟨2, _⟩ => show win0_1.index _ (2 : Fin 4) * 1 ≤ (i 2).val ∧ (i 2).val < win0_1.index _ (2 : Fin 4) * 1 + 1; rw [e]; simp; omega
  | ⟨3, _⟩ => show win0_1.index _ (3 : Fin 4) * 1 ≤ (i 3).val ∧ (i 3).val < win0_1.index _ (3 : Fin 4) * 1 + 1; rw [e]; simp; omega

theorem mem_blk1_6 (t : Fin cfg1.N) (i : S16x256x128x128.Idx) :
    i ∈ ((cfg1.win 6).blk t).view.set ↔ ∀ a : Fin 4, win1_6.index t a * S1x64x128x128.size a ≤ (i a).val ∧ (i a).val < win1_6.index t a * S1x64x128x128.size a + S1x64x128x128.size a := by
  show i ∈ ((View.whole main_v26).slice (win1_6.rect t)).set ↔ _
  rw [View.set_slice_whole, Rect.mem_set_unit]
  exact Iff.rfl

/-- Every entry of the output array is in the block of the point of its image and channel block. -/
theorem cover1_6 (i : S16x256x128x128.Idx) : ∃ t : Fin cfg1.N, (cfg1.win 6).flush t = true ∧ i ∈ ((cfg1.win 6).blk t).view.set := by
  have h0 : (i 0).val < 16 := (i 0).isLt
  have h1 : (i 1).val < 256 := (i 1).isLt
  have h2 : (i 2).val < 128 := (i 2).isLt
  have h3 : (i 3).val < 128 := (i 3).isLt
  have hN : (i 0).val * 4 + (i 1).val / 64 < cfg1.N := by rw [show cfg1.N = 64 from N_1]; omega
  refine ⟨⟨(i 0).val * 4 + (i 1).val / 64, hN⟩, flush1_6 _, ?_⟩
  rw [mem_blk1_6]
  have e := (idx1 ⟨(i 0).val * 4 + (i 1).val / 64, hN⟩).2.2.2.2.2.2
  have d1 : ((i 0).val * 4 + (i 1).val / 64) / 4 = (i 0).val := by omega
  have d2 : ((i 0).val * 4 + (i 1).val / 64) % 4 = (i 1).val / 64 := by omega
  intro a
  match a with
  | ⟨0, _⟩ => show win1_6.index _ (0 : Fin 4) * 1 ≤ (i 0).val ∧ (i 0).val < win1_6.index _ (0 : Fin 4) * 1 + 1; rw [e]; simp [d1]
  | ⟨1, _⟩ => show win1_6.index _ (1 : Fin 4) * 64 ≤ (i 1).val ∧ (i 1).val < win1_6.index _ (1 : Fin 4) * 64 + 64; rw [e]; simp [d2]; omega
  | ⟨2, _⟩ => show win1_6.index _ (2 : Fin 4) * 128 ≤ (i 2).val ∧ (i 2).val < win1_6.index _ (2 : Fin 4) * 128 + 128; rw [e]; simp; omega
  | ⟨3, _⟩ => show win1_6.index _ (3 : Fin 4) * 128 ≤ (i 3).val ∧ (i 3).val < win1_6.index _ (3 : Fin 4) * 128 + 128; rw [e]; simp; omega

end Cert.Fam.KGeom

end
-- ==== Proof.KPooled.lean ====
/-
  The pooled sum, two ways. The kernel sums one image's block [256, 128, 128] over its two plane axes, at channel c;
  the reference sums the whole array [16, 256, 128, 128] over its last two axes, at (n, c). Both are the sum of
  x[n, c, a, b] over the plane: the indices (c', a, b) of the block with c' = c correspond one to one to the
  indices (n', c', a, b) of the array with (n', c') = (n, c).
-/
import Idealize.ShloMosaic.PureOps.Ideal.Laws
import Idealize.ShloMosaic.Lib.ValueIdx
import proofs.«138818_j16441134809583_1_alg».proof.Proof.Spec

noncomputable section

namespace Cert.Fam.KPooled

open Idealize.ShloMosaic Idealize.ShloMosaic.ValueIdx Cert.Fam

/-- One image's block [256, 128, 128] and the vector of its channel sums [256]. -/
abbrev SB : Shape := ⟨3, ![256, 128, 128]⟩
abbrev SV : Shape := ⟨1, ![256]⟩

/-- Image n of the array as a [256, 128, 128] array. -/
def image (x : SX.Idx → EReal) (n : Fin 16) : SB.Idx → EReal :=
  fun i => x (ix4 (n0 := 16) (n1 := 256) (n2 := 128) (n3 := 128) n (i 0) (i 1) (i 2))

theorem image_ix3 (x : SX.Idx → EReal) (n : Fin 16) (c : Fin 256) (a b : Fin 128) :
    image x n (ix3 c a b) = x (ix4 n c a b) := rfl

/-- The block's sum at channel c is the array's sum at (n, c). -/
theorem sum_image (x : SX.Idx → EReal) (n : Fin 16) (c : Fin 256) (h : SB.Reduces [1, 2] SV) (h' : SX.ReducesTo [2, 3] SP) :
    Ideal.reduceAdd h (image x n) (ix1 c) = ∑ i ∈ Finset.univ.filter (fun i => h'.drop i = ix2 n c), x i := by
  unfold Ideal.reduceAdd
  refine Finset.sum_bij (fun i _ => (ix4 (n0 := 16) (n1 := 256) (n2 := 128) (n3 := 128) n (i 0) (i 1) (i 2) : SX.Idx)) ?_ ?_ ?_ ?_
  · intro i hi
    rw [Finset.mem_filter] at hi ⊢
    refine ⟨Finset.mem_univ _, ?_⟩
    have e : (i 0).val = c.val := by
      have e1 := congrArg Fin.val (congrFun hi.2 0)
      rw [h.drop_apply_val_of_eq i 0 0] at e1
      exact e1
    funext b; apply Fin.ext
    match b with
    | ⟨0, _⟩ => exact h'.drop_apply_val_of_eq _ 0 0
    | ⟨1, _⟩ => exact (h'.drop_apply_val_of_eq _ 1 1).trans e
  · intro i _ j _ hij
    funext d; apply Fin.ext
    match d with
    | ⟨0, _⟩ => exact congrArg Fin.val (congrFun hij 1)
    | ⟨1, _⟩ => exact congrArg Fin.val (congrFun hij 2)
    | ⟨2, _⟩ => exact congrArg Fin.val (congrFun hij 3)
  · intro j hj
    rw [Finset.mem_filter] at hj
    have e0 : (j 0).val = n.val := by
      have e1 := congrArg Fin.val (congrFun hj.2 0)
      rw [h'.drop_apply_val_of_eq j 0 0] at e1
      exact e1
    have e1 : (j 1).val = c.val := by
      have e1 := congrArg Fin.val (congrFun hj.2 1)
      rw [h'.drop_apply_val_of_eq j 1 1] at e1
      exact e1
    refine ⟨ix3 (n0 := 256) (n1 := 128) (n2 := 128) (j 1) (j 2) (j 3), ?_, ?_⟩
    · rw [Finset.mem_filter]
      refine ⟨Finset.mem_univ _, ?_⟩
      funext b; apply Fin.ext
      match b with
      | ⟨0, _⟩ => exact (h.drop_apply_val_of_eq _ 0 0).trans e1
    · funext d; apply Fin.ext
      match d with
      | ⟨0, _⟩ => exact e0.symm
      | ⟨1, _⟩ => rfl
      | ⟨2, _⟩ => rfl
      | ⟨3, _⟩ => rfl
  · intro i _
    rfl

end Cert.Fam.KPooled

end
-- ==== Proof.KVal0.lean ====
/-
  What the pooled-mean region leaves in its array [16, 256, 1, 1]: at (n, c, 0, 0) the sum of image n's plane of
  channel c divided by the word of 16384.0. Point t of the region reads image t whole, and its body stores, at
  (0, c, 0, 0) of its block, the plane sum of channel c over that word; the 16 blocks tile the array.
-/
import proofs.«138818_j16441134809583_1_alg».proof.Proof.Gen.KernelIdeal.Frame
import proofs.«138818_j16441134809583_1_alg».proof.Proof.Spec
import proofs.«138818_j16441134809583_1_alg».proof.Proof.KBody0
import proofs.«138818_j16441134809583_1_alg».proof.Proof.KGeom
import proofs.«138818_j16441134809583_1_alg».proof.Proof.KPooled
import Idealize.ShloMosaic.Lib.Pipeline.Value
import Idealize.ShloMosaic.Lib.ValueIdx
import Idealize.ShloMosaic.Lib.ValueLayout

set_option maxRecDepth 16384

noncomputable section

namespace Cert.Fam.KVal0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Fam Cert.Fam.KGeom

/-- The mean array: at (n, c, _, _) image n's plane sum of channel c over the word of 16384.0. -/
def meanK (x : SX.Idx → EReal) : S16x256x1x1.Idx → EReal := fun i =>
  Ideal.div (Ideal.reduceAdd reduces_S256x128x128_S256 (KPooled.image x (i 0)) (ix1 (i 1))) (Ideal.ofBits .f32 0x46800000#32)

theorem meanK_ix4 (x : SX.Idx → EReal) (n : Fin 16) (c : Fin 256) (a b : Fin 1) :
    meanK x (ix4 n c a b)
      = Ideal.div (Ideal.reduceAdd reduces_S256x128x128_S256 (KPooled.image x n) (ix1 c)) (Ideal.ofBits .f32 0x46800000#32) := rfl

variable (V : (c : Dev nD) → (b : Ref sig .tc) → Buf (Elt Ideal) ((c : Thread nD τ).loc b))

/-- A point's input block, its leading unit axis dropped, is its image. -/
theorem block_image (c : Dev nD) (t : Fin cfg0.N) :
    shapeCast S256x128x128 (iblk0 V c 0 t) shapeCasts_S1x256x128x128_S256x128x128 = KPooled.image (V c main_arg0) (img0 t) := by
  funext i
  obtain ⟨k, a, b, rfl⟩ : ∃ (k : Fin 256) (a b : Fin 128), i = ix3 k a b := ⟨i 0, i 1, i 2, eq_ix3 i⟩
  rw [shapeCast_1abc_abc_apply, iblk0_0_apply]
  rfl

/-- What point t writes back is block t of the mean array. -/
theorem flushed0 (c : Dev nD) (t : Fin cfg0.N) :
    (dat0 V c).flushed 1 t = ((cfg0.win 1).blk t).view.read (Elt Ideal) (meanK (V c main_arg0)) := by
  show (cfg0.win 1).cut (grid0.coords t) ((dat0 V c).after 1 t) = _
  rw [after0_1]
  funext j
  obtain ⟨q, rfl⟩ : ∃ q : Fin 256, j = ix4 (0 : Fin 1) q (0 : Fin 1) (0 : Fin 1) := by
    refine ⟨j 1, ?_⟩
    funext d; apply Fin.ext
    match d with
    | ⟨0, _⟩ => have hj : (j 0).val < 1 := (j 0).isLt; show (j 0).val = 0; omega
    | ⟨1, _⟩ => rfl
    | ⟨2, _⟩ => have hj : (j 2).val < 1 := (j 2).isLt; show (j 2).val = 0; omega
    | ⟨3, _⟩ => have hj : (j 3).val < 1 := (j 3).isLt; show (j 3).val = 0; omega
  show out0_1 (iblk0 V c 0 t) (ix4 (0 : Fin 1) q (0 : Fin 1) (0 : Fin 1)) = meanK (V c main_arg0) (((cfg0.win 1).blk t).view.emb (ix4 (0 : Fin 1) q (0 : Fin 1) (0 : Fin 1)))
  rw [KBody.out0_1_apply, emb0_1, meanK_ix4]
  show Ideal.div (Ideal.reduceAdd reduces_S256x128x128_S256 (shapeCast S256x128x128 (iblk0 V c 0 t) shapeCasts_S1x256x128x128_S256x128x128) (ix1 q)) _ = _
  rw [block_image]

/-- The mean array after the region. -/
theorem final0 (c : Dev nD) : (dat0 V c).arrAt 1 cfg0.N = meanK (V c main_arg0) :=
  (dat0 V c).arrAt_eq_of_cover 1 (meanK (V c main_arg0)) (fun t _ => flushed0 V c t) cover0_1

end Cert.Fam.KVal0

end
-- ==== Proof.KBody1.lean ====
/-
  The local-filter kernel body read at an index. One block of 64 channels: the body pads the image block [64, 128, 128]
  by reflection to [64, 130, 130] (row 1, the block, row 126 along the rows; then column 1, that, column 126 along the
  columns), so the padded block at (q, a, b) is the image at (q, mir a, mir b); each of the nine windows is a unit-stride
  slice of the padded block at offset (0, dy, dx); tap t's factor is row t of the taps [9, 64] at channel q, spread over
  the plane; the nine products are added left to right from the zero word; then the gating. Every step is a layout
  operation read at an index: no law of the extended reals is used.
-/
import proofs.«138818_j16441134809583_1_alg».proof.Proof.Gen.KernelIdeal.Frame
import proofs.«138818_j16441134809583_1_alg».proof.Proof.Spec
import proofs.«138818_j16441134809583_1_alg».proof.Proof.KBody0
import Idealize.ShloMosaic.Lib.Pipeline.Value
import Idealize.ShloMosaic.Lib.ValueIdx
import Idealize.ShloMosaic.Lib.ValueLayout

noncomputable section

namespace Cert.Fam.KBody

open Cert.KernelIdeal Cert.KernelIdeal.Gen Idealize.ShloMosaic Idealize.ShloMosaic.ValueIdx Cert.Fam

/-! ## The reflect-padded block -/

section Pad
variable {α : Type}

/-- Row 1, the block, row 126 laid along the rows: at padded row a the result reads the block at row mir a. -/
theorem padRows_apply (X : S64x128x128.Idx → α) (q : Fin 64) (a : Fin 130) (b : Fin 128) (k : Fin 128)
    (hk : k.val = mir a.val) :
    concatenate S64x130x128 1
        [⟨S64x1x128, extractStridedSlice S64x1x128 ![0, 1, 0] X slices_S64x128x128_o0_1_0_S64x1x128⟩,
         ⟨S64x128x128, X⟩,
         ⟨S64x1x128, extractStridedSlice S64x1x128 ![0, 126, 0] X slices_S64x128x128_o0_126_0_S64x1x128⟩]
        concatenates_S64x1x128_S64x128x128_S64x1x128_S64x130x128_d1 (ix3 q a b)
      = X (ix3 q k b) := by
  by_cases h0 : a.val = 0
  · have hk1 : k.val = 1 + (0 : Fin 1).val := by rw [hk]; unfold mir; rw [if_pos h0]; rfl
    refine (concatenate_apply_piece (t := S64x130x128) (1 : Fin 3)
      [⟨S64x1x128, extractStridedSlice S64x1x128 ![0, 1, 0] X slices_S64x128x128_o0_1_0_S64x1x128⟩,
         ⟨S64x128x128, X⟩,
         ⟨S64x1x128, extractStridedSlice S64x1x128 ![0, 126, 0] X slices_S64x128x128_o0_126_0_S64x1x128⟩]
      concatenates_S64x1x128_S64x128x128_S64x1x128_S64x130x128_d1 (ix3 q a b)
      0 (by show (0 : Nat) < 3; omega) S64x1x128 _ rfl rfl 0 rfl (ix3 q (0 : Fin 1) b) ?_ ?_).trans ?_
    · intro c hc
      match c with
      | ⟨0, _⟩ => rfl
      | ⟨1, _⟩ => exact absurd rfl hc
      | ⟨2, _⟩ => rfl
    · show 0 + 0 = a.val
      omega
    · exact slice3_axis1_apply 1 X slices_S64x128x128_o0_1_0_S64x1x128 q (0 : Fin 1) b k hk1
  · by_cases h129 : a.val = 129
    · have hk1 : k.val = 126 + (0 : Fin 1).val := by rw [hk]; unfold mir; rw [if_neg h0, if_pos h129]; rfl
      refine (concatenate_apply_piece (t := S64x130x128) (1 : Fin 3)
        [⟨S64x1x128, extractStridedSlice S64x1x128 ![0, 1, 0] X slices_S64x128x128_o0_1_0_S64x1x128⟩,
         ⟨S64x128x128, X⟩,
         ⟨S64x1x128, extractStridedSlice S64x1x128 ![0, 126, 0] X slices_S64x128x128_o0_126_0_S64x1x128⟩]
        concatenates_S64x1x128_S64x128x128_S64x1x128_S64x130x128_d1 (ix3 q a b)
        2 (by show (2 : Nat) < 3; omega) S64x1x128 _ rfl rfl 129 rfl (ix3 q (0 : Fin 1) b) ?_ ?_).trans ?_
      · intro c hc
        match c with
        | ⟨0, _⟩ => rfl
        | ⟨1, _⟩ => exact absurd rfl hc
        | ⟨2, _⟩ => rfl
      · show 129 + 0 = a.val
        omega
      · exact slice3_axis1_apply 126 X slices_S64x128x128_o0_126_0_S64x1x128 q (0 : Fin 1) b k hk1
    · have hk1 : k.val = a.val - 1 := by rw [hk]; unfold mir; rw [if_neg h0, if_neg h129]
      refine concatenate_apply_piece (t := S64x130x128) (1 : Fin 3)
        [⟨S64x1x128, extractStridedSlice S64x1x128 ![0, 1, 0] X slices_S64x128x128_o0_1_0_S64x1x128⟩,
         ⟨S64x128x128, X⟩,
         ⟨S64x1x128, extractStridedSlice S64x1x128 ![0, 126, 0] X slices_S64x128x128_o0_126_0_S64x1x128⟩]
        concatenates_S64x1x128_S64x128x128_S64x1x128_S64x130x128_d1 (ix3 q a b)
        1 (by show (1 : Nat) < 3; omega) S64x128x128 X rfl rfl 1 rfl (ix3 q k b) ?_ ?_
      · intro c hc
        match c with
        | ⟨0, _⟩ => rfl
        | ⟨1, _⟩ => exact absurd rfl hc
        | ⟨2, _⟩ => rfl
      · show 1 + k.val = a.val
        omega

end Pad

section PadCols
variable {α : Type}

/-- Column 1, the row-padded block, column 126 laid along the columns: at padded column b the result reads the
    row-padded block at column mir b. -/
theorem padCols_apply (Y : S64x130x128.Idx → α) (q : Fin 64) (a : Fin 130) (b : Fin 130) (k : Fin 128)
    (hk : k.val = mir b.val) :
    concatenate S64x130x130 2
        [⟨S64x130x1, extractStridedSlice S64x130x1 ![0, 0, 1] Y slices_S64x130x128_o0_0_1_S64x130x1⟩,
         ⟨S64x130x128, Y⟩,
         ⟨S64x130x1, extractStridedSlice S64x130x1 ![0, 0, 126] Y slices_S64x130x128_o0_0_126_S64x130x1⟩]
        concatenates_S64x130x1_S64x130x128_S64x130x1_S64x130x130_d2 (ix3 q a b)
      = Y (ix3 q a k) := by
  by_cases h0 : b.val = 0
  · have hk1 : k.val = 1 := by rw [hk]; unfold mir; rw [if_pos h0]
    refine (concatenate_apply_piece (t := S64x130x130) (2 : Fin 3)
      [⟨S64x130x1, extractStridedSlice S64x130x1 ![0, 0, 1] Y slices_S64x130x128_o0_0_1_S64x130x1⟩,
         ⟨S64x130x128, Y⟩,
         ⟨S64x130x1, extractStridedSlice S64x130x1 ![0, 0, 126] Y slices_S64x130x128_o0_0_126_S64x130x1⟩]
      concatenates_S64x130x1_S64x130x128_S64x130x1_S64x130x130_d2 (ix3 q a b)
      0 (by show (0 : Nat) < 3; omega) S64x130x1 _ rfl rfl 0 rfl (ix3 q a (0 : Fin 1)) ?_ ?_).trans ?_
    · intro c hc
      match c with
      | ⟨0, _⟩ => rfl
      | ⟨1, _⟩ => rfl
      | ⟨2, _⟩ => exact absurd rfl hc
    · show 0 + 0 = b.val
      omega
    · refine extractStridedSlice_apply _ Y slices_S64x130x128_o0_0_1_S64x130x1 (ix3 q a (0 : Fin 1)) (ix3 q a k) fun ax => ?_
      match ax with
      | ⟨0, _⟩ => exact (Nat.zero_add _).symm
      | ⟨1, _⟩ => exact (Nat.zero_add _).symm
      | ⟨2, _⟩ => exact hk1
  · by_cases h129 : b.val = 129
    · have hk1 : k.val = 126 := by rw [hk]; unfold mir; rw [if_neg h0, if_pos h129]
      refine (concatenate_apply_piece (t := S64x130x130) (2 : Fin 3)
        [⟨S64x130x1, extractStridedSlice S64x130x1 ![0, 0, 1] Y slices_S64x130x128_o0_0_1_S64x130x1⟩,
         ⟨S64x130x128, Y⟩,
         ⟨S64x130x1, extractStridedSlice S64x130x1 ![0, 0, 126] Y slices_S64x130x128_o0_0_126_S64x130x1⟩]
        concatenates_S64x130x1_S64x130x128_S64x130x1_S64x130x130_d2 (ix3 q a b)
        2 (by show (2 : Nat) < 3; omega) S64x130x1 _ rfl rfl 129 rfl (ix3 q a (0 : Fin 1)) ?_ ?_).trans ?_
      · intro c hc
        match c with
        | ⟨0, _⟩ => rfl
        | ⟨1, _⟩ => rfl
        | ⟨2, _⟩ => exact absurd rfl hc
      · show 129 + 0 = b.val
        omega
      · refine extractStridedSlice_apply _ Y slices_S64x130x128_o0_0_126_S64x130x1 (ix3 q a (0 : Fin 1)) (ix3 q a k) fun ax => ?_
        match ax with
        | ⟨0, _⟩ => exact (Nat.zero_add _).symm
        | ⟨1, _⟩ => exact (Nat.zero_add _).symm
        | ⟨2, _⟩ => exact hk1
    · have hk1 : k.val = b.val - 1 := by rw [hk]; unfold mir; rw [if_neg h0, if_neg h129]
      refine concatenate_apply_piece (t := S64x130x130) (2 : Fin 3)
        [⟨S64x130x1, extractStridedSlice S64x130x1 ![0, 0, 1] Y slices_S64x130x128_o0_0_1_S64x130x1⟩,
         ⟨S64x130x128, Y⟩,
         ⟨S64x130x1, extractStridedSlice S64x130x1 ![0, 0, 126] Y slices_S64x130x128_o0_0_126_S64x130x1⟩]
        concatenates_S64x130x1_S64x130x128_S64x130x1_S64x130x130_d2 (ix3 q a b)
        1 (by show (1 : Nat) < 3; omega) S64x130x128 Y rfl rfl 1 rfl (ix3 q a k) ?_ ?_
      · intro c hc
        match c with
        | ⟨0, _⟩ => rfl
        | ⟨1, _⟩ => rfl
        | ⟨2, _⟩ => exact absurd rfl hc
      · show 1 + k.val = b.val
        omega

end PadCols

/-! ## The padded block, a window and a tap's factor at an index -/

/-- The padded block at (q, a, b) is the image block at (0, q, mir a, mir b). -/
theorem pay3_apply (v0 : Vec Ideal S1x64x128x128 .f32) (q : Fin 64) (a b : Fin 130) (ka kb : Fin 128)
    (hka : ka.val = mir a.val) (hkb : kb.val = mir b.val) :
    k1_pay3 (F := Ideal) v0 (ix3 q a b) = v0 (ix4 (0 : Fin 1) q ka kb) := by
  unfold k1_pay3 k1_pay2
  refine (padCols_apply _ q a b kb hkb).trans ?_
  refine (padRows_apply _ q a kb ka hka).trans ?_
  exact shapeCast_1abc_abc_apply v0 shapeCasts_S1x64x128x128_S64x128x128 q ka kb

/-- The window at offset (dy, dx) of the padded block, at pixel (h, w), is the specification's tap of channel q. -/
theorem tap_apply (v0 : Vec Ideal S1x64x128x128 .f32) (dy dx : Nat) (hdy : dy < 3) (hdx : dx < 3)
    (hs : S64x130x130.Slices ![0, dy, dx] S64x128x128) (q : Fin 64) (h w : Fin 128) :
    extractStridedSlice S64x128x128 ![0, dy, dx] (k1_pay3 (F := Ideal) v0) hs (ix3 q h w)
      = tapCh (fun a b => v0 (ix4 (0 : Fin 1) q a b)) h w ⟨dy, hdy⟩ ⟨dx, hdx⟩ := by
  refine (extractStridedSlice_apply _ _ hs (ix3 q h w)
    (ix3 q (⟨dy + h.val, by omega⟩ : Fin 130) (⟨dx + w.val, by omega⟩ : Fin 130)) fun ax => ?_).trans ?_
  · match ax with
    | ⟨0, _⟩ => exact (Nat.zero_add _).symm
    | ⟨1, _⟩ => rfl
    | ⟨2, _⟩ => rfl
  · unfold tapCh
    refine pay3_apply v0 q _ _ _ _ ?_ ?_
    · show mir (h.val + dy) = mir (dy + h.val)
      rw [Nat.add_comm]
    · show mir (w.val + dx) = mir (dx + w.val)
      rw [Nat.add_comm]

section Cols
variable {α : Type}

/-- A per-channel column [64, 1, 1] spread over the plane reads, at (q, h, w), the column at q. -/
theorem spread_apply (z : S64x1x1.Idx → α) (q : Fin 64) (h w : Fin 128) :
    broadcastTo S64x128x128 z broadcasts_S64x1x1_S64x128x128 (ix3 q h w) = z (ix3 q (0 : Fin 1) (0 : Fin 1)) := by
  refine broadcastTo_apply z broadcasts_S64x1x1_S64x128x128 (ix3 q h w) (ix3 q (0 : Fin 1) (0 : Fin 1)) fun ax => ?_
  match ax with
  | ⟨0, _⟩ => rfl
  | ⟨1, _⟩ => rfl
  | ⟨2, _⟩ => rfl

/-- A vector [64] viewed as a column [64, 1, 1] reads, at (q, 0, 0), the vector at q. -/
theorem column_apply (y : S64.Idx → α) (q : Fin 64) :
    shapeCast S64x1x1 y shapeCasts_S64_S64x1x1 (ix3 q (0 : Fin 1) (0 : Fin 1)) = y (ix1 q) := by
  refine shapeCast_apply y shapeCasts_S64_S64x1x1 _ _ ?_
  rw [Shape.rowMajor_val_one, Shape.rowMajor_val_three]
  show q.val = (q.val * 1 + 0) * 1 + 0
  omega

/-- A gate's block [1, 64, 1, 1] viewed as a vector [64] reads, at q, the block at (0, q, 0, 0). -/
theorem gate_apply (u : S1x64x1x1.Idx → α) (q : Fin 64) :
    shapeCast S64 u shapeCasts_S1x64x1x1_S64 (ix1 q) = u (ix4 (0 : Fin 1) q (0 : Fin 1) (0 : Fin 1)) := by
  refine shapeCast_apply u shapeCasts_S1x64x1x1_S64 _ _ ?_
  rw [Shape.rowMajor_val_one, Shape.rowMajor_val_four]
  show ((0 * 64 + q.val) * 1 + 0) * 1 + 0 = q.val
  omega

/-- The taps' block [1, 9, 64, 1, 1] viewed as [9, 64] reads, at (t, q), the block at (0, t, q, 0, 0). -/
theorem taps_apply (v8 : S1x9x64x1x1.Idx → α) (t : Fin 9) (q : Fin 64) :
    shapeCast S9x64 v8 shapeCasts_S1x9x64x1x1_S9x64 (ix2 t q)
      = v8 (ix5 (0 : Fin 1) t q (0 : Fin 1) (0 : Fin 1)) := by
  refine shapeCast_apply v8 shapeCasts_S1x9x64x1x1_S9x64 _ _ ?_
  rw [Shape.rowMajor_val_two, Shape.rowMajor_val_five]
  show (((0 * 9 + t.val) * 64 + q.val) * 1 + 0) * 1 + 0 = t.val * 64 + q.val
  omega

/-- Row t of the taps [9, 64], as a column spread over the plane, reads at (q, h, w) the taps at (t, q). -/
theorem factor_apply (Y : S9x64.Idx → α) (t : Nat) (ht : t < 9) (hs : S9x64.Slices ![t, 0] S1x64)
    (q : Fin 64) (h w : Fin 128) :
    broadcastTo S64x128x128
        (shapeCast S64x1x1 (shapeCast S64 (extractStridedSlice S1x64 ![t, 0] Y hs) shapeCasts_S1x64_S64)
          shapeCasts_S64_S64x1x1)
        broadcasts_S64x1x1_S64x128x128 (ix3 q h w)
      = Y (ix2 (⟨t, ht⟩ : Fin 9) q) := by
  refine (spread_apply _ q h w).trans ?_
  refine (column_apply _ q).trans ?_
  refine (shapeCast_1a_a_apply _ shapeCasts_S1x64_S64 q).trans ?_
  exact slice2_axis0_apply t Y hs (0 : Fin 1) q ⟨t, ht⟩ rfl

end Cols

/-! ## The accumulated response -/

/-- Row t of the taps' block, as a column spread over the plane, reads at (q, h, w) the block at (0, t, q, 0, 0). -/
theorem fac_apply (v8 : Vec Ideal S1x9x64x1x1 .f32) (t : Nat) (ht : t < 9) (hs : S9x64.Slices ![t, 0] S1x64)
    (q : Fin 64) (h w : Fin 128) :
    broadcastTo S64x128x128
        (shapeCast S64x1x1 (shapeCast S64 (extractStridedSlice S1x64 ![t, 0] (k1_pay4 (F := Ideal) v8) hs)
          shapeCasts_S1x64_S64) shapeCasts_S64_S64x1x1)
        broadcasts_S64x1x1_S64x128x128 (ix3 q h w)
      = v8 (ix5 (0 : Fin 1) (⟨t, ht⟩ : Fin 9) q (0 : Fin 1) (0 : Fin 1)) :=
  (factor_apply (k1_pay4 (F := Ideal) v8) t ht hs q h w).trans (taps_apply v8 ⟨t, ht⟩ q)

/-- The nine products added left to right from the zero word, at (q, h, w): the specification's response of channel q. -/
theorem low_apply (v0 : Vec Ideal S1x64x128x128 .f32) (v8 : Vec Ideal S1x9x64x1x1 .f32) (q : Fin 64) (h w : Fin 128) :
    k1_pay8 (F := Ideal) (k1_pay3 v0) (k1_pay4 v8) (k1_pay5 v0 v8) (k1_pay6 v0) (k1_pay7 v8) (ix3 q h w)
      = lowCh (fun a b => v0 (ix4 (0 : Fin 1) q a b))
          (fun t => v8 (ix5 (0 : Fin 1) t q (0 : Fin 1) (0 : Fin 1))) h w := by
  unfold k1_pay8 k1_pay5 k1_pay6 k1_pay7
  simp only [addf_apply, mulf_apply, broadcast_apply]
  rw [tap_apply v0 0 0 (by omega) (by omega) slices_S64x130x130_o0_0_0_S64x128x128 q h w,
    tap_apply v0 0 1 (by omega) (by omega) slices_S64x130x130_o0_0_1_S64x128x128 q h w,
    tap_apply v0 0 2 (by omega) (by omega) slices_S64x130x130_o0_0_2_S64x128x128 q h w,
    tap_apply v0 1 0 (by omega) (by omega) slices_S64x130x130_o0_1_0_S64x128x128 q h w,
    tap_apply v0 1 1 (by omega) (by omega) slices_S64x130x130_o0_1_1_S64x128x128 q h w,
    tap_apply v0 1 2 (by omega) (by omega) slices_S64x130x130_o0_1_2_S64x128x128 q h w,
    tap_apply v0 2 0 (by omega) (by omega) slices_S64x130x130_o0_2_0_S64x128x128 q h w,
    tap_apply v0 2 1 (by omega) (by omega) slices_S64x130x130_o0_2_1_S64x128x128 q h w,
    tap_apply v0 2 2 (by omega) (by omega) slices_S64x130x130_o0_2_2_S64x128x128 q h w,
    fac_apply v8 0 (by omega) slices_S9x64_o0_0_S1x64 q h w,
    fac_apply v8 1 (by omega) slices_S9x64_o1_0_S1x64 q h w,
    fac_apply v8 2 (by omega) slices_S9x64_o2_0_S1x64 q h w,
    fac_apply v8 3 (by omega) slices_S9x64_o3_0_S1x64 q h w,
    fac_apply v8 4 (by omega) slices_S9x64_o4_0_S1x64 q h w,
    fac_apply v8 5 (by omega) slices_S9x64_o5_0_S1x64 q h w,
    fac_apply v8 6 (by omega) slices_S9x64_o6_0_S1x64 q h w,
    fac_apply v8 7 (by omega) slices_S9x64_o7_0_S1x64 q h w,
    fac_apply v8 8 (by omega) slices_S9x64_o8_0_S1x64 q h w]
  unfold lowCh
  rfl

/-! ## The gated output -/

/-- The five literal zero offsets are the zero function. -/
theorem zero5 : (![0, 0, 0, 0, 0] : Fin 5 → Nat) = fun _ => 0 := by
  funext a
  match a with
  | ⟨0, _⟩ => rfl
  | ⟨1, _⟩ => rfl
  | ⟨2, _⟩ => rfl
  | ⟨3, _⟩ => rfl
  | ⟨4, _⟩ => rfl

/-- The local-filter body at (0, q, h, w): the specification's gated output of channel q of the block, from the image
    block x0, the pooled mean's block x1, the taps' block x2 and the blocks of the three gates x3, x4, x5. -/
theorem out1_6_apply (x0 : Vec Ideal S1x64x128x128 .f32) (x1 : Vec Ideal S1x64x1x1 .f32)
    (x2 : Vec Ideal S1x9x64x1x1 .f32) (x3 x4 x5 : Vec Ideal S1x64x1x1 .f32)
    (q : Fin 64) (h w : Fin 128) :
    out1_6 (F := Ideal) x0 x1 x2 x3 x4 x5 (ix4 (0 : Fin 1) q h w)
      = outCh (fun a b => x0 (ix4 (0 : Fin 1) q a b)) (x1 (ix4 (0 : Fin 1) q (0 : Fin 1) (0 : Fin 1)))
          (fun t => x2 (ix5 (0 : Fin 1) t q (0 : Fin 1) (0 : Fin 1)))
          (x3 (ix4 (0 : Fin 1) q (0 : Fin 1) (0 : Fin 1))) (x4 (ix4 (0 : Fin 1) q (0 : Fin 1) (0 : Fin 1)))
          (x5 (ix4 (0 : Fin 1) q (0 : Fin 1) (0 : Fin 1))) h w := by
  unfold out1_6
  rw [View.canon_unit_zero zero4]
  simp only [View.ld_unit_zero (S := S1x64x128x128) zero4, View.ld_unit_zero (S := S1x9x64x1x1) zero5,
    View.ld_unit_zero (S := S1x64x1x1) zero4]
  unfold k1_pay1
  refine (shapeCast_abc_1abc_apply _ shapeCasts_S64x128x128_S1x64x128x128 (0 : Fin 1) q h w).trans ?_
  unfold k1_pay11 k1_pay9 k1_pay10 k1_pay2
  simp only [addf_apply, mulf_apply, subf_apply, broadcast_apply, spread_apply, column_apply, gate_apply, low_apply,
    shapeCast_1abc_abc_apply]
  unfold outCh
  rfl

end Cert.Fam.KBody

end
-- ==== Proof.KVal1.lean ====
/-
  What the local-filter region leaves in the output array [16, 256, 128, 128], as one function of the arrays the
  region finds at its seven windows. Point t handles image t / 4 and 64 channels; its body computes, at (0, q, h, w)
  of its block, the gated filter response of channel 64 * (t % 4) + q from that channel's image plane, pooled mean,
  nine taps and three gates; the 64 blocks tile the array.
-/
import proofs.«138818_j16441134809583_1_alg».proof.Proof.Gen.KernelIdeal.Frame
import proofs.«138818_j16441134809583_1_alg».proof.Proof.Spec
import proofs.«138818_j16441134809583_1_alg».proof.Proof.KBody1
import proofs.«138818_j16441134809583_1_alg».proof.Proof.KGeom
import Idealize.ShloMosaic.Lib.Pipeline.Value
import Idealize.ShloMosaic.Lib.ValueIdx

set_option maxRecDepth 16384

noncomputable section

namespace Cert.Fam.KVal1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Fam Cert.Fam.KGeom

/-- The output array from the seven windows' arrays: the image x, the mean array A [16, 256, 1, 1], the laid-out
    taps T [16, 9, 256, 1, 1] and the reshaped gates [1, 256, 1, 1]. -/
def GK (x : SX.Idx → EReal) (A : S16x256x1x1.Idx → EReal) (T : S16x9x256x1x1.Idx → EReal)
    (L H I : S1x256x1x1.Idx → EReal) : SX.Idx → EReal := fun i =>
  outCh (fun a b => x (ix4 (n0 := 16) (n1 := 256) (i 0) (i 1) a b)) (A (ix4 (n0 := 16) (n1 := 256) (i 0) (i 1) (0 : Fin 1) (0 : Fin 1)))
    (fun k => T (ix5 (n0 := 16) (n2 := 256) (i 0) k (i 1) (0 : Fin 1) (0 : Fin 1)))
    (L (ix4 (n1 := 256) (0 : Fin 1) (i 1) (0 : Fin 1) (0 : Fin 1))) (H (ix4 (n1 := 256) (0 : Fin 1) (i 1) (0 : Fin 1) (0 : Fin 1)))
    (I (ix4 (n1 := 256) (0 : Fin 1) (i 1) (0 : Fin 1) (0 : Fin 1))) (i 2) (i 3)

theorem GK_ix4 (x : SX.Idx → EReal) (A : S16x256x1x1.Idx → EReal) (T : S16x9x256x1x1.Idx → EReal)
    (L H I : S1x256x1x1.Idx → EReal) (n : Fin 16) (c : Fin 256) (h w : Fin 128) :
    GK x A T L H I (ix4 n c h w)
      = outCh (fun a b => x (ix4 n c a b)) (A (ix4 n c (0 : Fin 1) (0 : Fin 1))) (fun k => T (ix5 n k c (0 : Fin 1) (0 : Fin 1)))
          (L (ix4 (0 : Fin 1) c (0 : Fin 1) (0 : Fin 1))) (H (ix4 (0 : Fin 1) c (0 : Fin 1) (0 : Fin 1)))
          (I (ix4 (0 : Fin 1) c (0 : Fin 1) (0 : Fin 1))) h w := rfl

variable (V : (c : Dev nD) → (b : Ref sig .tc) → Buf (Elt Ideal) ((c : Thread nD τ).loc b))

/-- What point t writes back is block t of that function of the windows' arrays. -/
theorem flushed1 (c : Dev nD) (t : Fin cfg1.N) :
    (dat1 V c).flushed 6 t = ((cfg1.win 6).blk t).view.read (Elt Ideal)
      (GK (V c main_arg0) (V c main_v0) (V c main_v22) (V c main_v23) (V c main_v24) (V c main_v25)) := by
  show (cfg1.win 6).cut (grid1.coords t) ((dat1 V c).after 6 t) = _
  rw [after1_6]
  funext j
  obtain ⟨q, h, w, rfl⟩ : ∃ (q : Fin 64) (h w : Fin 128), j = ix4 (0 : Fin 1) q h w := by
    refine ⟨j 1, j 2, j 3, ?_⟩
    funext d; apply Fin.ext
    match d with
    | ⟨0, _⟩ => have hj : (j 0).val < 1 := (j 0).isLt; show (j 0).val = 0; omega
    | ⟨1, _⟩ => rfl
    | ⟨2, _⟩ => rfl
    | ⟨3, _⟩ => rfl
  show out1_6 (iblk1 V c 0 t) (iblk1 V c 1 t) (iblk1 V c 2 t) (iblk1 V c 3 t) (iblk1 V c 4 t) (iblk1 V c 5 t) (ix4 (0 : Fin 1) q h w)
    = GK (V c main_arg0) (V c main_v0) (V c main_v22) (V c main_v23) (V c main_v24) (V c main_v25) (((cfg1.win 6).blk t).view.emb (ix4 (0 : Fin 1) q h w))
  rw [KBody.out1_6_apply, emb1_6, GK_ix4]
  have e0 : (fun a b => iblk1 V c 0 t (ix4 (0 : Fin 1) q a b)) = fun a b => V c main_arg0 (ix4 (img t) (chan t q) a b) :=
    funext fun a => funext fun b => iblk1_0_apply V c t q a b
  have e2 : (fun k => iblk1 V c 2 t (ix5 (0 : Fin 1) k q (0 : Fin 1) (0 : Fin 1))) = fun k => V c main_v22 (ix5 (img t) k (chan t q) (0 : Fin 1) (0 : Fin 1)) :=
    funext fun k => iblk1_2_apply V c t k q
  rw [e0, e2, iblk1_1_apply, iblk1_3_apply, iblk1_4_apply, iblk1_5_apply]

/-- The output array after the region. -/
theorem final1 (c : Dev nD) : (dat1 V c).arrAt 6 cfg1.N
    = GK (V c main_arg0) (V c main_v0) (V c main_v22) (V c main_v23) (V c main_v24) (V c main_v25) :=
  (dat1 V c).arrAt_eq_of_cover 6 _ (fun t _ => flushed1 V c t) cover1_6

end Cert.Fam.KVal1

end
-- ==== Proof.KHost.lean ====
/-
  The host operations between the two regions, read where the filter region's windows look.
  From the contents W at the pooled-mean region's exit, the 26 operations compute: the pooled mean reshaped to
  [16, 256]; the predicted taps [16, 8, 9] (contraction with the transposed weight, the inference batch-norm
  arithmetic, tanh, reshape); the taps laid out per channel as [16, 9, 256, 1, 1] (each group's taps repeated over
  its 32 channels, then the channel and tap axes exchanged); and the three gates reshaped to [1, 256, 1, 1].
  Read at an index: the laid-out taps at (n, t, c, 0, 0) are the predicted taps at (n, c / 32, t), and a reshaped
  gate at (0, c, 0, 0) is the gate at c.
-/
import proofs.«138818_j16441134809583_1_alg».proof.Proof.Gen.KernelIdeal.Frame
import proofs.«138818_j16441134809583_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.Fam.KHost

open Cert.KernelIdeal Cert.KernelIdeal.Gen
open Idealize.ShloMosaic Idealize.ShloMosaic.TcCoe Idealize.ShloMosaic.ValueIdx Idealize.SL.Sem Idealize.ShloMosaic.StableHlo

/-- The predicted taps from the pooled mean [16, 256]: the program's own operations, in its order. -/
def filtK (p : FVec Ideal S16x256 .f32) (cw : FVec Ideal S72x256 .f32) (g b mu var : FVec Ideal S72 .f32) :
    FVec Ideal S16x8x9 .f32 :=
  shapeCast S16x8x9
    (Host.tanh (F := Ideal)
      (addf (F := Ideal)
        (mulf (F := Ideal)
          (subf (F := Ideal)
            (Host.dotGeneral (F := Ideal) dot_S16x256_S256x72_S16x72_1_0_0_1_n_n none p
              (transpose S256x72 [1, 0] cw transposes_S72x256_S256x72_1_0))
            (broadcastInDim S16x72 ![0, 1] bcast_S1x72_S16x72_0_1 (broadcastInDim S1x72 ![1] bcast_S72_S1x72_1 mu)))
          (broadcastInDim S16x72 ![0, 1] bcast_S1x72_S16x72_0_1
            (broadcastInDim S1x72 ![1] bcast_S72_S1x72_1
              (Host.divf (F := Ideal) g
                (Host.sqrt (F := Ideal)
                  (addf (F := Ideal) var
                    (broadcastInDim S72 ![] bcast_S_S72 (constant (F := Ideal) S_ .f32 0x3727C5AC#32))))))))
        (broadcastInDim S16x72 ![0, 1] bcast_S1x72_S16x72_0_1 (broadcastInDim S1x72 ![1] bcast_S72_S1x72_1 b))))
    shapeCasts_S16x72_S16x8x9

/-- The taps laid out per channel, [16, 9, 256, 1, 1]. -/
def tapsK (f : FVec Ideal S16x8x9 .f32) : FVec Ideal S16x9x256x1x1 .f32 :=
  broadcastInDim S16x9x256x1x1 ![0, 1, 2] bcast_S16x9x256_S16x9x256x1x1_0_1_2
    (transpose S16x9x256 [0, 2, 1]
      (shapeCast S16x256x9 (broadcastInDim S16x8x32x9 ![0, 1, 3] bcast_S16x8x9_S16x8x32x9_0_1_3 f) shapeCasts_S16x8x32x9_S16x256x9)
      transposes_S16x256x9_S16x9x256_0_2_1)

/-- A gate reshaped to [1, 256, 1, 1]. -/
def gateK (v : FVec Ideal S256 .f32) : FVec Ideal S1x256x1x1 .f32 := shapeCast S1x256x1x1 v shapeCasts_S256_S1x256x1x1

variable (W : Valuation τ sig (Elt Ideal))

set_option maxHeartbeats 2000000 in
theorem after_v22 : after (hostOps1 (F := Ideal)) W (Proc.devRef .tc main_v22)
    = tapsK (filtK (shapeCast S16x256 (W (main_v0 : DevRef τ sig)) shapeCasts_S16x256x1x1_S16x256) (W (main_arg1 : DevRef τ sig))
        (W (main_arg2 : DevRef τ sig)) (W (main_arg3 : DevRef τ sig)) (W (main_arg4 : DevRef τ sig)) (W (main_arg5 : DevRef τ sig))) := by
  after_results_simp
  rfl

theorem after_v23 : after (hostOps1 (F := Ideal)) W (Proc.devRef .tc main_v23) = gateK (W (main_arg6 : DevRef τ sig)) := by
  after_results_simp
  rfl

theorem after_v24 : after (hostOps1 (F := Ideal)) W (Proc.devRef .tc main_v24) = gateK (W (main_arg7 : DevRef τ sig)) := by
  after_results_simp
  rfl

theorem after_v25 : after (hostOps1 (F := Ideal)) W (Proc.devRef .tc main_v25) = gateK (W (main_arg8 : DevRef τ sig)) := by
  after_results_simp
  rfl

theorem after_v0 : after (hostOps1 (F := Ideal)) W (Proc.devRef .tc main_v0) = W (main_v0 : DevRef τ sig) := by
  after_results_simp

theorem after_arg0 : after (hostOps1 (F := Ideal)) W (Proc.devRef .tc main_arg0) = W (main_arg0 : DevRef τ sig) := by
  after_results_simp

/-- The laid-out taps at (n, t, c, 0, 0) are the predicted taps of c's group. -/
theorem tapsK_apply (f : FVec Ideal S16x8x9 .f32) (n : Fin 16) (k : Fin 9) (c : Fin 256) :
    tapsK f (ix5 n k c (0 : Fin 1) (0 : Fin 1)) = f (ix3 n ⟨c.val / 32, by omega⟩ k) := by
  unfold tapsK
  refine (broadcastInDim_apply _ _ _ _ (ix3 n k c) ?_).trans ?_
  · intro a
    match a with
    | ⟨0, _⟩ => rfl
    | ⟨1, _⟩ => rfl
    | ⟨2, _⟩ => rfl
  refine (transpose_apply _ _ _ _ (ix3 n c k) ?_).trans ?_
  · intro b
    match b with
    | ⟨0, _⟩ => rfl
    | ⟨1, _⟩ => rfl
    | ⟨2, _⟩ => rfl
  refine (shapeCast_apply _ _ _ (ix4 n (⟨c.val / 32, by omega⟩ : Fin 8) (⟨c.val % 32, by omega⟩ : Fin 32) k) ?_).trans ?_
  · rw [Shape.rowMajor_val_four, Shape.rowMajor_val_three]
    show ((n.val * 8 + c.val / 32) * 32 + c.val % 32) * 9 + k.val = (n.val * 256 + c.val) * 9 + k.val
    omega
  refine (broadcastInDim_apply _ _ _ _ (ix3 n (⟨c.val / 32, by omega⟩ : Fin 8) k) ?_).trans rfl
  intro a
  match a with
  | ⟨0, _⟩ => rfl
  | ⟨1, _⟩ => rfl
  | ⟨2, _⟩ => rfl

/-- A reshaped gate at (0, c, 0, 0) is the gate at c. -/
theorem gateK_apply (v : FVec Ideal S256 .f32) (c : Fin 256) :
    gateK v (ix4 (0 : Fin 1) c (0 : Fin 1) (0 : Fin 1)) = v (ix1 c) := by
  unfold gateK
  refine shapeCast_apply _ _ _ (ix1 c) ?_
  rw [Shape.rowMajor_val_one, Shape.rowMajor_val_four]
  show c.val = ((0 * 256 + c.val) * 1 + 0) * 1 + 0
  omega

/-- The pooled mean reshaped to [16, 256], at (n, c). -/
theorem pooled_apply (A : FVec Ideal S16x256x1x1 .f32) (n : Fin 16) (c : Fin 256) :
    shapeCast S16x256 A shapeCasts_S16x256x1x1_S16x256 (ix2 n c) = A (ix4 n c (0 : Fin 1) (0 : Fin 1)) := by
  refine shapeCast_apply _ _ _ (ix4 n c (0 : Fin 1) (0 : Fin 1)) ?_
  rw [Shape.rowMajor_val_four, Shape.rowMajor_val_two]
  show ((n.val * 256 + c.val) * 1 + 0) * 1 + 0 = n.val * 256 + c.val
  omega

end Cert.Fam.KHost

end
-- ==== Proof.KFinal.lean ====
/-
  The idealized kernel's result as the specification's function of its arguments.
  The result buffer ends at what the filter region leaves in its output array (KVal1), a function of the arrays the
  region finds at its windows. Those are read back through the host operations (KHost) and the pooled-mean region
  (KVal0): the image is the argument as launched; the mean array is the plane sums over the word of 16384.0; the
  laid-out taps are the predicted taps of the reshaped mean, read per channel; the gates are the arguments reshaped.
  Index by index this is the specification G at the kernel's own pooled mean and predicted taps.
-/
import proofs.«138818_j16441134809583_1_alg».proof.Proof.KRun
import proofs.«138818_j16441134809583_1_alg».proof.Proof.KVal0
import proofs.«138818_j16441134809583_1_alg».proof.Proof.KVal1
import proofs.«138818_j16441134809583_1_alg».proof.Proof.KHost

set_option maxRecDepth 16384

noncomputable section

namespace Cert.Fam.KFinal

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Fam

variable (m : (ℓ : Loc nD τ sig) → Buf (Elt Ideal) ℓ) (ρ : Dev nD → PrngReg)

/-! ### The filter region's windows' arrays, read back to the launch -/

theorem V2_arg0 (c : Dev nD) : V2 m ρ c main_arg0 = m ((c : Thread nD τ).loc main_arg0) :=
  calc V2 m ρ c main_arg0
    _ = W1 m ρ c (Proc.devRef .tc main_arg0) := KHost.after_arg0 (W1 m ρ c)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W1_v0 (c : Dev nD) : W1 m ρ c (Proc.devRef .tc main_v0) = KVal0.meanK (m ((c : Thread nD τ).loc main_arg0)) :=
  (W1_arr m ρ c 1).trans (KVal0.final0 (V0 m ρ) c)

theorem V2_v0 (c : Dev nD) : V2 m ρ c main_v0 = KVal0.meanK (m ((c : Thread nD τ).loc main_arg0)) :=
  (KHost.after_v0 (W1 m ρ c)).trans (W1_v0 m ρ c)

theorem V2_v22 (c : Dev nD) : V2 m ρ c main_v22
    = KHost.tapsK (KHost.filtK (shapeCast S16x256 (KVal0.meanK (m ((c : Thread nD τ).loc main_arg0))) shapeCasts_S16x256x1x1_S16x256)
        (m ((c : Thread nD τ).loc main_arg1)) (m ((c : Thread nD τ).loc main_arg2)) (m ((c : Thread nD τ).loc main_arg3))
        (m ((c : Thread nD τ).loc main_arg4)) (m ((c : Thread nD τ).loc main_arg5))) := by
  refine (KHost.after_v22 (W1 m ρ c)).trans ?_
  rw [W1_v0 m ρ c, W1_of_ne m ρ c main_arg1 (by decide), W1_of_ne m ρ c main_arg2 (by decide), W1_of_ne m ρ c main_arg3 (by decide),
    W1_of_ne m ρ c main_arg4 (by decide), W1_of_ne m ρ c main_arg5 (by decide)]

theorem V2_v23 (c : Dev nD) : V2 m ρ c main_v23 = KHost.gateK (m ((c : Thread nD τ).loc main_arg6)) := by
  refine (KHost.after_v23 (W1 m ρ c)).trans ?_
  rw [W1_of_ne m ρ c main_arg6 (by decide)]

theorem V2_v24 (c : Dev nD) : V2 m ρ c main_v24 = KHost.gateK (m ((c : Thread nD τ).loc main_arg7)) := by
  refine (KHost.after_v24 (W1 m ρ c)).trans ?_
  rw [W1_of_ne m ρ c main_arg7 (by decide)]

theorem V2_v25 (c : Dev nD) : V2 m ρ c main_v25 = KHost.gateK (m ((c : Thread nD τ).loc main_arg8)) := by
  refine (KHost.after_v25 (W1 m ρ c)).trans ?_
  rw [W1_of_ne m ρ c main_arg8 (by decide)]

/-! ### The result array -/

/-- The kernel's own pooled mean [16, 256] and predicted taps [16, 8, 9] of an image array. -/
def pooledK (x : SX.Idx → EReal) : FVec Ideal S16x256 .f32 := shapeCast S16x256 (KVal0.meanK x) shapeCasts_S16x256x1x1_S16x256

/-- The windows' arrays put together are the specification at the kernel's pooled mean and taps. -/
theorem GK_eq_G (x : SX.Idx → EReal) (cw : FVec Ideal S72x256 .f32) (g b mu var : FVec Ideal S72 .f32) (ll lh ia : FVec Ideal S256 .f32) :
    KVal1.GK x (KVal0.meanK x) (KHost.tapsK (KHost.filtK (pooledK x) cw g b mu var)) (KHost.gateK ll) (KHost.gateK lh) (KHost.gateK ia)
      = G x (pooledK x) (KHost.filtK (pooledK x) cw g b mu var) ll lh ia := by
  funext i
  obtain ⟨n, c, h, w, rfl⟩ : ∃ (n : Fin 16) (c : Fin 256) (h w : Fin 128), i = ix4 n c h w := ⟨i 0, i 1, i 2, i 3, eq_ix4 i⟩
  rw [KVal1.GK_ix4, G_ix4]
  unfold outAt
  have e2 : (fun k => KHost.tapsK (KHost.filtK (pooledK x) cw g b mu var) (ix5 n k c (0 : Fin 1) (0 : Fin 1)))
      = fun k => KHost.filtK (pooledK x) cw g b mu var (ix3 n ⟨c.val / 32, by omega⟩ k) :=
    funext fun k => KHost.tapsK_apply _ n k c
  rw [e2, KHost.gateK_apply, KHost.gateK_apply, KHost.gateK_apply]
  unfold pooledK
  rw [KHost.pooled_apply]

/-- The result buffer's final contents, from the launch memory. -/
theorem W3_v26 (c : Dev nD) : W3 m ρ c (Proc.devRef .tc main_v26)
    = G (m ((c : Thread nD τ).loc main_arg0)) (pooledK (m ((c : Thread nD τ).loc main_arg0)))
        (KHost.filtK (pooledK (m ((c : Thread nD τ).loc main_arg0))) (m ((c : Thread nD τ).loc main_arg1)) (m ((c : Thread nD τ).loc main_arg2))
          (m ((c : Thread nD τ).loc main_arg3)) (m ((c : Thread nD τ).loc main_arg4)) (m ((c : Thread nD τ).loc main_arg5)))
        (m ((c : Thread nD τ).loc main_arg6)) (m ((c : Thread nD τ).loc main_arg7)) (m ((c : Thread nD τ).loc main_arg8)) := by
  refine (W3_arr m ρ c 6).trans ((KVal1.final1 (V2 m ρ) c).trans ?_)
  rw [V2_arg0, V2_v0, V2_v22, V2_v23, V2_v24, V2_v25]
  exact GK_eq_G _ _ _ _ _ _ _ _ _

end Cert.Fam.KFinal

end
-- ==== Proof.RefTerm.lean ====
/-
  The reference program's result as a pure term of its arguments: each stage composes the program's own
  operations in the program's order, with the program's shape facts, at the ideal instance (arrays of
  extended reals). Nothing is proved here; the stages are read index by index in the RefValue modules.

  Stages: the pooled mean [16, 256]; the predicted taps [16, 8, 9] (transpose, contraction, the inference
  batch-norm arithmetic, tanh, reshape); the reflect padding to [16, 256, 130, 130] (one row or column
  sliced, reversed along its unit axis and concatenated, on each of the four sides); one tap's product in
  the grouped view [16, 8, 32, 128, 128]; the nine products added from the zero array and reshaped back;
  the keepdims mean [16, 256, 1, 1]; and the gating.
-/
import proofs.«138818_j16441134809583_1_alg».proof.ReferenceIdeal
import proofs.«138818_j16441134809583_1_alg».proof.Proof.Spec

noncomputable section

namespace Cert.Fam.Ref

open Idealize.ShloMosaic Cert.ReferenceIdeal Cert.ReferenceIdeal.Facts₀

variable [Facts₀]

/-- The pooled mean: the sum over the two image axes divided by the word of 16384.0. -/
def pooledR (x : FVec Ideal S16x256x128x128 .f32) : FVec Ideal S16x256 .f32 :=
  Host.divf (F := Ideal)
    (Host.reduceAdd (F := Ideal) x (constant (F := Ideal) S_ .f32 0x00000000#32) reducesTo_S16x256x128x128_S16x256_d2_3 h_S_)
    (broadcastInDim S16x256 ![] bcast_S_S16x256 (constant (F := Ideal) S_ .f32 0x46800000#32))

/-- The predicted taps from the pooled mean: the 1x1 convolution as a contraction with the transposed weight,
    the inference batch-norm arithmetic, tanh, and the reshape to [16, 8, 9]. -/
def filtR (p : FVec Ideal S16x256 .f32) (cw : FVec Ideal S72x256 .f32) (g b mu var : FVec Ideal S72 .f32) :
    FVec Ideal S16x8x9 .f32 :=
  shapeCast S16x8x9
    (Host.tanh (F := Ideal)
      (addf (F := Ideal)
        (mulf (F := Ideal)
          (subf (F := Ideal)
            (Host.dotGeneral (F := Ideal) dot_S16x256_S256x72_S16x72_1_0_0_1_n_n none p
              (transpose S256x72 [1, 0] cw transposes_S72x256_S256x72_1_0))
            (broadcastInDim S16x72 ![0, 1] bcast_S1x72_S16x72_0_1 (broadcastInDim S1x72 ![1] bcast_S72_S1x72_1 mu)))
          (broadcastInDim S16x72 ![0, 1] bcast_S1x72_S16x72_0_1
            (broadcastInDim S1x72 ![1] bcast_S72_S1x72_1
              (Host.divf (F := Ideal) g
                (Host.sqrt (F := Ideal)
                  (addf (F := Ideal) var
                    (broadcastInDim S72 ![] bcast_S_S72 (constant (F := Ideal) S_ .f32 0x3727C5AC#32))))))))
        (broadcastInDim S16x72 ![0, 1] bcast_S1x72_S16x72_0_1 (broadcastInDim S1x72 ![1] bcast_S72_S1x72_1 b))))
    shapeCasts_S16x72_S16x8x9

/-- Padding, first side: row 1 reversed along its unit axis, placed before the image (extent 129 on axis 2). -/
def padTopR (x : FVec Ideal S16x256x128x128 .f32) : FVec Ideal S16x256x129x128 .f32 :=
  concatenate S16x256x129x128 2
    [⟨S16x256x1x128, Host.reverse [2]
        (extractStridedSlice S16x256x1x128 ![0, 0, 1, 0] x slices_S16x256x128x128_S16x256x1x128_0_0_1_0)⟩,
     ⟨S16x256x128x128, x⟩]
    concatenates_S16x256x1x128_S16x256x128x128_S16x256x129x128_d2

/-- Padding, second side: row 127 of the 129-row array reversed along its unit axis, placed after it (extent 130). -/
def padRowsR (x : FVec Ideal S16x256x128x128 .f32) : FVec Ideal S16x256x130x128 .f32 :=
  concatenate S16x256x130x128 2
    [⟨S16x256x129x128, padTopR x⟩,
     ⟨S16x256x1x128, Host.reverse [2]
        (extractStridedSlice S16x256x1x128 ![0, 0, 127, 0] (padTopR x) slices_S16x256x129x128_S16x256x1x128_0_0_127_0)⟩]
    concatenates_S16x256x129x128_S16x256x1x128_S16x256x130x128_d2

/-- Padding, third side: column 1 reversed along its unit axis, placed before the rows-padded array (extent 129 on axis 3). -/
def padLeftR (x : FVec Ideal S16x256x128x128 .f32) : FVec Ideal S16x256x130x129 .f32 :=
  concatenate S16x256x130x129 3
    [⟨S16x256x130x1, Host.reverse [3]
        (extractStridedSlice S16x256x130x1 ![0, 0, 0, 1] (padRowsR x) slices_S16x256x130x128_S16x256x130x1_0_0_0_1)⟩,
     ⟨S16x256x130x128, padRowsR x⟩]
    concatenates_S16x256x130x1_S16x256x130x128_S16x256x130x129_d3

/-- The reflect-padded array [16, 256, 130, 130]: column 127 of the 129-column array reversed along its unit axis,
    placed after it. -/
def padR (x : FVec Ideal S16x256x128x128 .f32) : FVec Ideal S16x256x130x130 .f32 :=
  concatenate S16x256x130x130 3
    [⟨S16x256x130x129, padLeftR x⟩,
     ⟨S16x256x130x1, Host.reverse [3]
        (extractStridedSlice S16x256x130x1 ![0, 0, 0, 127] (padLeftR x) slices_S16x256x130x129_S16x256x130x1_0_0_0_127)⟩]
    concatenates_S16x256x130x129_S16x256x130x1_S16x256x130x130_d3

/-- One tap's product in the grouped view: the window of the padded array at the tap's offset, reshaped to
    [16, 8, 32, 128, 128], times the tap's coefficient broadcast over the group's channels and the plane. -/
def tapR (xp : FVec Ideal S16x256x130x130 .f32) (f : FVec Ideal S16x8x9 .f32)
    (offx : Fin S16x256x130x130.rank → Nat) (hx : S16x256x130x130.Slices offx S16x256x128x128)
    (offf : Fin S16x8x9.rank → Nat) (hf : S16x8x9.Slices offf S16x8x1) : FVec Ideal S16x8x32x128x128 .f32 :=
  mulf (F := Ideal)
    (shapeCast S16x8x32x128x128 (extractStridedSlice S16x256x128x128 offx xp hx) shapeCasts_S16x256x128x128_S16x8x32x128x128)
    (broadcastInDim S16x8x32x128x128 ![0, 1, 2, 3, 4] bcast_S16x8x1x1x1_S16x8x32x128x128_0_1_2_3_4
      (broadcastInDim S16x8x1x1x1 ![0, 1] bcast_S16x8_S16x8x1x1x1_0_1
        (shapeCast S16x8 (extractStridedSlice S16x8x1 offf f hf) shapeCasts_S16x8x1_S16x8)))

/-- The nine products added left to right from the zero array, in the grouped view. -/
def low5R (xp : FVec Ideal S16x256x130x130 .f32) (f : FVec Ideal S16x8x9 .f32) : FVec Ideal S16x8x32x128x128 .f32 :=
  (addf (F := Ideal) (addf (F := Ideal) (addf (F := Ideal) (addf (F := Ideal) (addf (F := Ideal) (addf (F := Ideal) (addf (F := Ideal) (addf (F := Ideal) (addf (F := Ideal) (broadcastInDim S16x8x32x128x128 ![] bcast_S_S16x8x32x128x128 (constant (F := Ideal) S_ .f32 0x00000000#32))
    (tapR xp f ![0, 0, 0, 0] slices_S16x256x130x130_S16x256x128x128_0_0_0_0 ![0, 0, 0] slices_S16x8x9_S16x8x1_0_0_0))
    (tapR xp f ![0, 0, 0, 1] slices_S16x256x130x130_S16x256x128x128_0_0_0_1 ![0, 0, 1] slices_S16x8x9_S16x8x1_0_0_1))
    (tapR xp f ![0, 0, 0, 2] slices_S16x256x130x130_S16x256x128x128_0_0_0_2 ![0, 0, 2] slices_S16x8x9_S16x8x1_0_0_2))
    (tapR xp f ![0, 0, 1, 0] slices_S16x256x130x130_S16x256x128x128_0_0_1_0 ![0, 0, 3] slices_S16x8x9_S16x8x1_0_0_3))
    (tapR xp f ![0, 0, 1, 1] slices_S16x256x130x130_S16x256x128x128_0_0_1_1 ![0, 0, 4] slices_S16x8x9_S16x8x1_0_0_4))
    (tapR xp f ![0, 0, 1, 2] slices_S16x256x130x130_S16x256x128x128_0_0_1_2 ![0, 0, 5] slices_S16x8x9_S16x8x1_0_0_5))
    (tapR xp f ![0, 0, 2, 0] slices_S16x256x130x130_S16x256x128x128_0_0_2_0 ![0, 0, 6] slices_S16x8x9_S16x8x1_0_0_6))
    (tapR xp f ![0, 0, 2, 1] slices_S16x256x130x130_S16x256x128x128_0_0_2_1 ![0, 0, 7] slices_S16x8x9_S16x8x1_0_0_7))
    (tapR xp f ![0, 0, 2, 2] slices_S16x256x130x130_S16x256x128x128_0_0_2_2 ![0, 0, 8] slices_S16x8x9_S16x8x1_0_0_8))

/-- The local filter's response, reshaped back to [16, 256, 128, 128]. -/
def lowR (xp : FVec Ideal S16x256x130x130 .f32) (f : FVec Ideal S16x8x9 .f32) : FVec Ideal S16x256x128x128 .f32 :=
  shapeCast S16x256x128x128 (low5R xp f) shapeCasts_S16x8x32x128x128_S16x256x128x128

/-- The keepdims mean [16, 256, 1, 1]: the same sum, broadcast to the unit axes, divided by the word of 16384.0. -/
def gapR (x : FVec Ideal S16x256x128x128 .f32) : FVec Ideal S16x256x1x1 .f32 :=
  Host.divf (F := Ideal)
    (broadcastInDim S16x256x1x1 ![0, 1] bcast_S16x256_S16x256x1x1_0_1
      (Host.reduceAdd (F := Ideal) x (constant (F := Ideal) S_ .f32 0x00000000#32) reducesTo_S16x256x128x128_S16x256_d2_3 h_S_))
    (broadcastInDim S16x256x1x1 ![] bcast_S_S16x256x1x1 (constant (F := Ideal) S_ .f32 0x46800000#32))

/-- A per-channel gate on the channel axis of [1, 256, 1, 1]. -/
def chanR (a : FVec Ideal S256 .f32) : FVec Ideal S1x256x1x1 .f32 :=
  broadcastInDim S1x256x1x1 ![1] bcast_S256_S1x256x1x1_1 a

/-- A per-channel gate plus the word of 1.0, broadcast to the whole array. -/
def gateR (a : FVec Ideal S256 .f32) : FVec Ideal S16x256x128x128 .f32 :=
  broadcastInDim S16x256x128x128 ![0, 1, 2, 3] bcast_S1x256x1x1_S16x256x128x128_0_1_2_3
    (addf (F := Ideal) (chanR a)
      (broadcastInDim S1x256x1x1 ![] bcast_S_S1x256x1x1 (constant (F := Ideal) S_ .f32 0x3F800000#32)))

/-- The gating of a response array low and a keepdims mean gap against the image x. -/
def gatedR (x low : FVec Ideal S16x256x128x128 .f32) (gap : FVec Ideal S16x256x1x1 .f32)
    (ll lh ia : FVec Ideal S256 .f32) : FVec Ideal S16x256x128x128 .f32 :=
  addf (F := Ideal)
    (mulf (F := Ideal)
      (subf (F := Ideal)
        (mulf (F := Ideal) low (gateR ia))
        (broadcastInDim S16x256x128x128 ![0, 1, 2, 3] bcast_S16x256x1x1_S16x256x128x128_0_1_2_3
          (mulf (F := Ideal)
            (broadcastInDim S16x256x1x1 ![0, 1, 2, 3] bcast_S1x256x1x1_S16x256x1x1_0_1_2_3 (chanR ia))
            gap)))
      (gateR ll))
    (mulf (F := Ideal) (subf (F := Ideal) x low) (gateR lh))

/-- The reference's result of its nine arguments. -/
def refOut (x : FVec Ideal S16x256x128x128 .f32) (cw : FVec Ideal S72x256 .f32) (g b mu var : FVec Ideal S72 .f32)
    (ll lh ia : FVec Ideal S256 .f32) : FVec Ideal S16x256x128x128 .f32 :=
  gatedR x (lowR (padR x) (filtR (pooledR x) cw g b mu var)) (gapR x) ll lh ia

end Cert.Fam.Ref

end
-- ==== Proof.Bridge.lean ====
/-
  The kernel side's pooled mean and filter chain are the reference's.
  The pooled mean: the kernel side holds, at (n, c, 0, 0), the plane sum of image n's channel c over the word of
  16384.0; the reference holds, at (n, c), the zero word plus the sum of the whole array over its last two axes at
  (n, c), over the same word. The zero word is 0, and the two sums are one sum re-indexed. Reshaped to [16, 256] the
  kernel side's array is therefore the reference's. The filter chains are the same operations in the same order:
  they differ only in the proofs of their shape facts and in two records with the same fields.
-/
import proofs.«138818_j16441134809583_1_alg».proof.Proof.KVal0
import proofs.«138818_j16441134809583_1_alg».proof.Proof.KPooled
import proofs.«138818_j16441134809583_1_alg».proof.Proof.KHost
import proofs.«138818_j16441134809583_1_alg».proof.Proof.RefTerm
import Idealize.ShloMosaic.PureOps.Ideal.Laws
import Idealize.ShloMosaic.Lib.Pipeline.Value
import Idealize.ShloMosaic.Lib.ValueIdx

noncomputable section

namespace Cert.Fam.Bridge

open Idealize.ShloMosaic Idealize.ShloMosaic.ValueIdx Cert.Fam

variable [Cert.ReferenceIdeal.Facts₀]

/-- The kernel side's mean at (n, c, 0, 0) is the reference's pooled mean at (n, c). -/
theorem meanK_eq_pooledR (x : SX.Idx → EReal) (n : Fin 16) (c : Fin 256) :
    KVal0.meanK x (ix4 n c (0 : Fin 1) (0 : Fin 1)) = Ref.pooledR x (ix2 n c) := by
  rw [KVal0.meanK_ix4,
    KPooled.sum_image x n c Cert.KernelIdeal.Gen.reduces_S256x128x128_S256
      Cert.ReferenceIdeal.Facts₀.reducesTo_S16x256x128x128_S16x256_d2_3]
  show _ = Ideal.div
    (Ideal.hostReduceAdd Cert.ReferenceIdeal.Facts₀.reducesTo_S16x256x128x128_S16x256_d2_3 x
      (Ideal.ofBits .f32 0x00000000#32) (ix2 n c))
    (Ideal.ofBits .f32 0x46800000#32)
  unfold Ideal.hostReduceAdd
  rw [Ideal.ofBits_zero_f32, zero_add]

/-- The kernel side's mean array reshaped to [16, 256] is the reference's pooled mean. -/
theorem pooledK_eq (x : SX.Idx → EReal) :
    shapeCast Cert.KernelIdeal.S16x256 (KVal0.meanK x) Cert.KernelIdeal.Gen.shapeCasts_S16x256x1x1_S16x256
      = Ref.pooledR x := by
  funext j
  obtain ⟨n, c, rfl⟩ : ∃ (n : Fin 16) (c : Fin 256), j = ix2 n c := ⟨j 0, j 1, eq_ix2 j⟩
  refine (KHost.pooled_apply (KVal0.meanK x) n c).trans ?_
  exact meanK_eq_pooledR x n c

/-- The two programs' contraction records have the same fields. -/
theorem dot_eq :
    Cert.KernelIdeal.dot_S16x256_S256x72_S16x72_1_0_0_1_n_n = Cert.ReferenceIdeal.dot_S16x256_S256x72_S16x72_1_0_0_1_n_n :=
  rfl

/-- The kernel program's filter chain is the reference's. -/
theorem filtK_eq_filtR (p : FVec Ideal Cert.KernelIdeal.S16x256 .f32) (cw : FVec Ideal Cert.KernelIdeal.S72x256 .f32)
    (g b mu var : FVec Ideal Cert.KernelIdeal.S72 .f32) :
    KHost.filtK p cw g b mu var = Ref.filtR p cw g b mu var := by
  unfold KHost.filtK Ref.filtR
  rw [dot_eq]

end Cert.Fam.Bridge

end
-- ==== Proof.RefRunOps.lean ====
/-
  The reference program as one straight line: the 145 operations of @main in program order, the call of the
  padding function replaced by that function's own operations over the call's buffers, and each of its four
  calls of the two flips by the flip's single reversal. Every entry is the operation the printed program runs
  at that position, so the line computes what the program computes.
-/
import proofs.«138818_j16441134809583_1_alg».proof.Proof.Gen.ReferenceIdeal
import Idealize.ShloMosaic.Lib.StableHlo.Run

noncomputable section

namespace Cert.Fam.RefRun

open Cert.ReferenceIdeal Cert.ReferenceIdeal.Gen Idealize.ShloMosaic Idealize.ShloMosaic.TcCoe Idealize.SL.Sem Idealize.ShloMosaic.StableHlo

variable {F : FTy → Type} [FloatOps F]

/-- The 145 operations, in order. -/
abbrev ops : List (HloOp τ sig (Elt F)) :=
  [ StableHlo.nullary main_cst (constant S_ .f32 0x00000000#32),
    StableHlo.binary main_arg0 main_cst main_v0 ((fun x v => Host.reduceAdd x v reducesTo_S16x256x128x128_S16x256_d2_3 h_S_) : (⟨S16x256x128x128, .f32⟩ : BufTy).Contents (Elt F) → (⟨S_, .f32⟩ : BufTy).Contents (Elt F) → (⟨S16x256, .f32⟩ : BufTy).Contents (Elt F)),
    StableHlo.nullary main_cst_0 (constant S_ .f32 0x46800000#32),
    StableHlo.unary main_cst_0 main_v1 (broadcastInDim S16x256 ![] bcast_S_S16x256 : (⟨S_, .f32⟩ : BufTy).Contents (Elt F) → (⟨S16x256, .f32⟩ : BufTy).Contents (Elt F)),
    StableHlo.binary main_v0 main_v1 main_v2 (Host.divf : (⟨S16x256, .f32⟩ : BufTy).Contents (Elt F) → (⟨S16x256, .f32⟩ : BufTy).Contents (Elt F) → (⟨S16x256, .f32⟩ : BufTy).Contents (Elt F)),
    StableHlo.unary main_arg1 main_v3 ((transpose S256x72 [1, 0] · transposes_S72x256_S256x72_1_0) : (⟨S72x256, .f32⟩ : BufTy).Contents (Elt F) → (⟨S256x72, .f32⟩ : BufTy).Contents (Elt F)),
    StableHlo.binary main_v2 main_v3 main_v4 ((fun l r => Host.dotGeneral dot_S16x256_S256x72_S16x72_1_0_0_1_n_n none l r) : (⟨S16x256, .f32⟩ : BufTy).Contents (Elt F) → (⟨S256x72, .f32⟩ : BufTy).Contents (Elt F) → (⟨S16x72, .f32⟩ : BufTy).Contents (Elt F)),
    StableHlo.unary main_arg4 main_v5 (broadcastInDim S1x72 ![1] bcast_S72_S1x72_1 : (⟨S72, .f32⟩ : BufTy).Contents (Elt F) → (⟨S1x72, .f32⟩ : BufTy).Contents (Elt F)),
    StableHlo.unary main_v5 main_v6 (broadcastInDim S16x72 ![0, 1] bcast_S1x72_S16x72_0_1 : (⟨S1x72, .f32⟩ : BufTy).Contents (Elt F) → (⟨S16x72, .f32⟩ : BufTy).Contents (Elt F)),
    StableHlo.binary main_v4 main_v6 main_v7 (subf : (⟨S16x72, .f32⟩ : BufTy).Contents (Elt F) → (⟨S16x72, .f32⟩ : BufTy).Contents (Elt F) → (⟨S16x72, .f32⟩ : BufTy).Contents (Elt F)),
    StableHlo.nullary main_cst_1 (constant S_ .f32 0x3727C5AC#32),
    StableHlo.unary main_cst_1 main_v8 (broadcastInDim S72 ![] bcast_S_S72 : (⟨S_, .f32⟩ : BufTy).Contents (Elt F) → (⟨S72, .f32⟩ : BufTy).Contents (Elt F)),
    StableHlo.binary main_arg5 main_v8 main_v9 (addf : (⟨S72, .f32⟩ : BufTy).Contents (Elt F) → (⟨S72, .f32⟩ : BufTy).Contents (Elt F) → (⟨S72, .f32⟩ : BufTy).Contents (Elt F)),
    StableHlo.unary main_v9 main_v10 (Host.sqrt : (⟨S72, .f32⟩ : BufTy).Contents (Elt F) → (⟨S72, .f32⟩ : BufTy).Contents (Elt F)),
    StableHlo.binary main_arg2 main_v10 main_v11 (Host.divf : (⟨S72, .f32⟩ : BufTy).Contents (Elt F) → (⟨S72, .f32⟩ : BufTy).Contents (Elt F) → (⟨S72, .f32⟩ : BufTy).Contents (Elt F)),
    StableHlo.unary main_v11 main_v12 (broadcastInDim S1x72 ![1] bcast_S72_S1x72_1 : (⟨S72, .f32⟩ : BufTy).Contents (Elt F) → (⟨S1x72, .f32⟩ : BufTy).Contents (Elt F)),
    StableHlo.unary main_v12 main_v13 (broadcastInDim S16x72 ![0, 1] bcast_S1x72_S16x72_0_1 : (⟨S1x72, .f32⟩ : BufTy).Contents (Elt F) → (⟨S16x72, .f32⟩ : BufTy).Contents (Elt F)),
    StableHlo.binary main_v7 main_v13 main_v14 (mulf : (⟨S16x72, .f32⟩ : BufTy).Contents (Elt F) → (⟨S16x72, .f32⟩ : BufTy).Contents (Elt F) → (⟨S16x72, .f32⟩ : BufTy).Contents (Elt F)),
    StableHlo.unary main_arg3 main_v15 (broadcastInDim S1x72 ![1] bcast_S72_S1x72_1 : (⟨S72, .f32⟩ : BufTy).Contents (Elt F) → (⟨S1x72, .f32⟩ : BufTy).Contents (Elt F)),
    StableHlo.unary main_v15 main_v16 (broadcastInDim S16x72 ![0, 1] bcast_S1x72_S16x72_0_1 : (⟨S1x72, .f32⟩ : BufTy).Contents (Elt F) → (⟨S16x72, .f32⟩ : BufTy).Contents (Elt F)),
    StableHlo.binary main_v14 main_v16 main_v17 (addf : (⟨S16x72, .f32⟩ : BufTy).Contents (Elt F) → (⟨S16x72, .f32⟩ : BufTy).Contents (Elt F) → (⟨S16x72, .f32⟩ : BufTy).Contents (Elt F)),
    StableHlo.unary main_v17 main_v18 (Host.tanh : (⟨S16x72, .f32⟩ : BufTy).Contents (Elt F) → (⟨S16x72, .f32⟩ : BufTy).Contents (Elt F)),
    StableHlo.reshape main_v18 main_v19 rfl shapeCasts_S16x72_S16x8x9,
    StableHlo.nullary main_c (constantI S_ 32 0#32),
    StableHlo.TRef.unary ((.of main_arg0) : StableHlo.TRef sig ⟨S16x256x128x128, .f32⟩) main_call0.v0 (extractStridedSlice S16x256x1x128 ![0, 0, 0, 0] · slices_S16x256x128x128_S16x256x1x128_0_0_0_0),
    StableHlo.TRef.unary ((.of main_arg0) : StableHlo.TRef sig ⟨S16x256x128x128, .f32⟩) main_call0.v1 (extractStridedSlice S16x256x1x128 ![0, 0, 1, 0] · slices_S16x256x128x128_S16x256x1x128_0_0_1_0),
    StableHlo.TRef.unary (main_call0.v1 : StableHlo.TRef sig ⟨S16x256x1x128, .f32⟩) main_call0.call0.v0 (Host.reverse [2]),
    StableHlo.TRef.binary main_call0.call0.v0 ((.of main_arg0) : StableHlo.TRef sig ⟨S16x256x128x128, .f32⟩) main_call0.v3 (fun a b => concatenate S16x256x129x128 2 [⟨S16x256x1x128, a⟩, ⟨S16x256x128x128, b⟩] concatenates_S16x256x1x128_S16x256x128x128_S16x256x129x128_d2),
    StableHlo.TRef.unary main_call0.v3 main_call0.v4 (extractStridedSlice S16x256x1x128 ![0, 0, 128, 0] · slices_S16x256x129x128_S16x256x1x128_0_0_128_0),
    StableHlo.TRef.unary main_call0.v3 main_call0.v5 (extractStridedSlice S16x256x1x128 ![0, 0, 127, 0] · slices_S16x256x129x128_S16x256x1x128_0_0_127_0),
    StableHlo.TRef.unary (main_call0.v5 : StableHlo.TRef sig ⟨S16x256x1x128, .f32⟩) main_call0.call1.v0 (Host.reverse [2]),
    StableHlo.TRef.binary main_call0.v3 main_call0.call1.v0 main_call0.v7 (fun a b => concatenate S16x256x130x128 2 [⟨S16x256x129x128, a⟩, ⟨S16x256x1x128, b⟩] concatenates_S16x256x129x128_S16x256x1x128_S16x256x130x128_d2),
    StableHlo.TRef.unary main_call0.v7 main_call0.v8 (extractStridedSlice S16x256x130x1 ![0, 0, 0, 0] · slices_S16x256x130x128_S16x256x130x1_0_0_0_0),
    StableHlo.TRef.unary main_call0.v7 main_call0.v9 (extractStridedSlice S16x256x130x1 ![0, 0, 0, 1] · slices_S16x256x130x128_S16x256x130x1_0_0_0_1),
    StableHlo.TRef.unary (main_call0.v9 : StableHlo.TRef sig ⟨S16x256x130x1, .f32⟩) main_call0.call2.v0 (Host.reverse [3]),
    StableHlo.TRef.binary main_call0.call2.v0 main_call0.v7 main_call0.v11 (fun a b => concatenate S16x256x130x129 3 [⟨S16x256x130x1, a⟩, ⟨S16x256x130x128, b⟩] concatenates_S16x256x130x1_S16x256x130x128_S16x256x130x129_d3),
    StableHlo.TRef.unary main_call0.v11 main_call0.v12 (extractStridedSlice S16x256x130x1 ![0, 0, 0, 128] · slices_S16x256x130x129_S16x256x130x1_0_0_0_128),
    StableHlo.TRef.unary main_call0.v11 main_call0.v13 (extractStridedSlice S16x256x130x1 ![0, 0, 0, 127] · slices_S16x256x130x129_S16x256x130x1_0_0_0_127),
    StableHlo.TRef.unary (main_call0.v13 : StableHlo.TRef sig ⟨S16x256x130x1, .f32⟩) main_call0.call3.v0 (Host.reverse [3]),
    StableHlo.TRef.binary main_call0.v11 main_call0.call3.v0 main_call0.v15 (fun a b => concatenate S16x256x130x130 3 [⟨S16x256x130x129, a⟩, ⟨S16x256x130x1, b⟩] concatenates_S16x256x130x129_S16x256x130x1_S16x256x130x130_d3),
    StableHlo.nullary main_cst_2 (constant S_ .f32 0x00000000#32),
    StableHlo.unary main_cst_2 main_v21 (broadcastInDim S16x8x32x128x128 ![] bcast_S_S16x8x32x128x128 : (⟨S_, .f32⟩ : BufTy).Contents (Elt F) → (⟨S16x8x32x128x128, .f32⟩ : BufTy).Contents (Elt F)),
    StableHlo.unary main_v20 main_v22 ((extractStridedSlice S16x256x128x128 ![0, 0, 0, 0] · slices_S16x256x130x130_S16x256x128x128_0_0_0_0) : (⟨S16x256x130x130, .f32⟩ : BufTy).Contents (Elt F) → (⟨S16x256x128x128, .f32⟩ : BufTy).Contents (Elt F)),
    StableHlo.reshape main_v22 main_v23 rfl shapeCasts_S16x256x128x128_S16x8x32x128x128,
    StableHlo.unary main_v19 main_v24 ((extractStridedSlice S16x8x1 ![0, 0, 0] · slices_S16x8x9_S16x8x1_0_0_0) : (⟨S16x8x9, .f32⟩ : BufTy).Contents (Elt F) → (⟨S16x8x1, .f32⟩ : BufTy).Contents (Elt F)),
    StableHlo.reshape main_v24 main_v25 rfl shapeCasts_S16x8x1_S16x8,
    StableHlo.unary main_v25 main_v26 (broadcastInDim S16x8x1x1x1 ![0, 1] bcast_S16x8_S16x8x1x1x1_0_1 : (⟨S16x8, .f32⟩ : BufTy).Contents (Elt F) → (⟨S16x8x1x1x1, .f32⟩ : BufTy).Contents (Elt F)),
    StableHlo.unary main_v26 main_v27 (broadcastInDim S16x8x32x128x128 ![0, 1, 2, 3, 4] bcast_S16x8x1x1x1_S16x8x32x128x128_0_1_2_3_4 : (⟨S16x8x1x1x1, .f32⟩ : BufTy).Contents (Elt F) → (⟨S16x8x32x128x128, .f32⟩ : BufTy).Contents (Elt F)),
    StableHlo.binary main_v23 main_v27 main_v28 (mulf : (⟨S16x8x32x128x128, .f32⟩ : BufTy).Contents (Elt F) → (⟨S16x8x32x128x128, .f32⟩ : BufTy).Contents (Elt F) → (⟨S16x8x32x128x128, .f32⟩ : BufTy).Contents (Elt F)),
    StableHlo.binary main_v21 main_v28 main_v29 (addf : (⟨S16x8x32x128x128, .f32⟩ : BufTy).Contents (Elt F) → (⟨S16x8x32x128x128, .f32⟩ : BufTy).Contents (Elt F) → (⟨S16x8x32x128x128, .f32⟩ : BufTy).Contents (Elt F)),
    StableHlo.unary main_v20 main_v30 ((extractStridedSlice S16x256x128x128 ![0, 0, 0, 1] · slices_S16x256x130x130_S16x256x128x128_0_0_0_1) : (⟨S16x256x130x130, .f32⟩ : BufTy).Contents (Elt F) → (⟨S16x256x128x128, .f32⟩ : BufTy).Contents (Elt F)),
    StableHlo.reshape main_v30 main_v31 rfl shapeCasts_S16x256x128x128_S16x8x32x128x128,
    StableHlo.unary main_v19 main_v32 ((extractStridedSlice S16x8x1 ![0, 0, 1] · slices_S16x8x9_S16x8x1_0_0_1) : (⟨S16x8x9, .f32⟩ : BufTy).Contents (Elt F) → (⟨S16x8x1, .f32⟩ : BufTy).Contents (Elt F)),
    StableHlo.reshape main_v32 main_v33 rfl shapeCasts_S16x8x1_S16x8,
    StableHlo.unary main_v33 main_v34 (broadcastInDim S16x8x1x1x1 ![0, 1] bcast_S16x8_S16x8x1x1x1_0_1 : (⟨S16x8, .f32⟩ : BufTy).Contents (Elt F) → (⟨S16x8x1x1x1, .f32⟩ : BufTy).Contents (Elt F)),
    StableHlo.unary main_v34 main_v35 (broadcastInDim S16x8x32x128x128 ![0, 1, 2, 3, 4] bcast_S16x8x1x1x1_S16x8x32x128x128_0_1_2_3_4 : (⟨S16x8x1x1x1, .f32⟩ : BufTy).Contents (Elt F) → (⟨S16x8x32x128x128, .f32⟩ : BufTy).Contents (Elt F)),
    StableHlo.binary main_v31 main_v35 main_v36 (mulf : (⟨S16x8x32x128x128, .f32⟩ : BufTy).Contents (Elt F) → (⟨S16x8x32x128x128, .f32⟩ : BufTy).Contents (Elt F) → (⟨S16x8x32x128x128, .f32⟩ : BufTy).Contents (Elt F)),
    StableHlo.binary main_v29 main_v36 main_v37 (addf : (⟨S16x8x32x128x128, .f32⟩ : BufTy).Contents (Elt F) → (⟨S16x8x32x128x128, .f32⟩ : BufTy).Contents (Elt F) → (⟨S16x8x32x128x128, .f32⟩ : BufTy).Contents (Elt F)),
    StableHlo.unary main_v20 main_v38 ((extractStridedSlice S16x256x128x128 ![0, 0, 0, 2] · slices_S16x256x130x130_S16x256x128x128_0_0_0_2) : (⟨S16x256x130x130, .f32⟩ : BufTy).Contents (Elt F) → (⟨S16x256x128x128, .f32⟩ : BufTy).Contents (Elt F)),
    StableHlo.reshape main_v38 main_v39 rfl shapeCasts_S16x256x128x128_S16x8x32x128x128,
    StableHlo.unary main_v19 main_v40 ((extractStridedSlice S16x8x1 ![0, 0, 2] · slices_S16x8x9_S16x8x1_0_0_2) : (⟨S16x8x9, .f32⟩ : BufTy).Contents (Elt F) → (⟨S16x8x1, .f32⟩ : BufTy).Contents (Elt F)),
    StableHlo.reshape main_v40 main_v41 rfl shapeCasts_S16x8x1_S16x8,
    StableHlo.unary main_v41 main_v42 (broadcastInDim S16x8x1x1x1 ![0, 1] bcast_S16x8_S16x8x1x1x1_0_1 : (⟨S16x8, .f32⟩ : BufTy).Contents (Elt F) → (⟨S16x8x1x1x1, .f32⟩ : BufTy).Contents (Elt F)),
    StableHlo.unary main_v42 main_v43 (broadcastInDim S16x8x32x128x128 ![0, 1, 2, 3, 4] bcast_S16x8x1x1x1_S16x8x32x128x128_0_1_2_3_4 : (⟨S16x8x1x1x1, .f32⟩ : BufTy).Contents (Elt F) → (⟨S16x8x32x128x128, .f32⟩ : BufTy).Contents (Elt F)),
    StableHlo.binary main_v39 main_v43 main_v44 (mulf : (⟨S16x8x32x128x128, .f32⟩ : BufTy).Contents (Elt F) → (⟨S16x8x32x128x128, .f32⟩ : BufTy).Contents (Elt F) → (⟨S16x8x32x128x128, .f32⟩ : BufTy).Contents (Elt F)),
    StableHlo.binary main_v37 main_v44 main_v45 (addf : (⟨S16x8x32x128x128, .f32⟩ : BufTy).Contents (Elt F) → (⟨S16x8x32x128x128, .f32⟩ : BufTy).Contents (Elt F) → (⟨S16x8x32x128x128, .f32⟩ : BufTy).Contents (Elt F)),
    StableHlo.unary main_v20 main_v46 ((extractStridedSlice S16x256x128x128 ![0, 0, 1, 0] · slices_S16x256x130x130_S16x256x128x128_0_0_1_0) : (⟨S16x256x130x130, .f32⟩ : BufTy).Contents (Elt F) → (⟨S16x256x128x128, .f32⟩ : BufTy).Contents (Elt F)),
    StableHlo.reshape main_v46 main_v47 rfl shapeCasts_S16x256x128x128_S16x8x32x128x128,
    StableHlo.unary main_v19 main_v48 ((extractStridedSlice S16x8x1 ![0, 0, 3] · slices_S16x8x9_S16x8x1_0_0_3) : (⟨S16x8x9, .f32⟩ : BufTy).Contents (Elt F) → (⟨S16x8x1, .f32⟩ : BufTy).Contents (Elt F)),
    StableHlo.reshape main_v48 main_v49 rfl shapeCasts_S16x8x1_S16x8,
    StableHlo.unary main_v49 main_v50 (broadcastInDim S16x8x1x1x1 ![0, 1] bcast_S16x8_S16x8x1x1x1_0_1 : (⟨S16x8, .f32⟩ : BufTy).Contents (Elt F) → (⟨S16x8x1x1x1, .f32⟩ : BufTy).Contents (Elt F)),
    StableHlo.unary main_v50 main_v51 (broadcastInDim S16x8x32x128x128 ![0, 1, 2, 3, 4] bcast_S16x8x1x1x1_S16x8x32x128x128_0_1_2_3_4 : (⟨S16x8x1x1x1, .f32⟩ : BufTy).Contents (Elt F) → (⟨S16x8x32x128x128, .f32⟩ : BufTy).Contents (Elt F)),
    StableHlo.binary main_v47 main_v51 main_v52 (mulf : (⟨S16x8x32x128x128, .f32⟩ : BufTy).Contents (Elt F) → (⟨S16x8x32x128x128, .f32⟩ : BufTy).Contents (Elt F) → (⟨S16x8x32x128x128, .f32⟩ : BufTy).Contents (Elt F)),
    StableHlo.binary main_v45 main_v52 main_v53 (addf : (⟨S16x8x32x128x128, .f32⟩ : BufTy).Contents (Elt F) → (⟨S16x8x32x128x128, .f32⟩ : BufTy).Contents (Elt F) → (⟨S16x8x32x128x128, .f32⟩ : BufTy).Contents (Elt F)),
    StableHlo.unary main_v20 main_v54 ((extractStridedSlice S16x256x128x128 ![0, 0, 1, 1] · slices_S16x256x130x130_S16x256x128x128_0_0_1_1) : (⟨S16x256x130x130, .f32⟩ : BufTy).Contents (Elt F) → (⟨S16x256x128x128, .f32⟩ : BufTy).Contents (Elt F)),
    StableHlo.reshape main_v54 main_v55 rfl shapeCasts_S16x256x128x128_S16x8x32x128x128,
    StableHlo.unary main_v19 main_v56 ((extractStridedSlice S16x8x1 ![0, 0, 4] · slices_S16x8x9_S16x8x1_0_0_4) : (⟨S16x8x9, .f32⟩ : BufTy).Contents (Elt F) → (⟨S16x8x1, .f32⟩ : BufTy).Contents (Elt F)),
    StableHlo.reshape main_v56 main_v57 rfl shapeCasts_S16x8x1_S16x8,
    StableHlo.unary main_v57 main_v58 (broadcastInDim S16x8x1x1x1 ![0, 1] bcast_S16x8_S16x8x1x1x1_0_1 : (⟨S16x8, .f32⟩ : BufTy).Contents (Elt F) → (⟨S16x8x1x1x1, .f32⟩ : BufTy).Contents (Elt F)),
    StableHlo.unary main_v58 main_v59 (broadcastInDim S16x8x32x128x128 ![0, 1, 2, 3, 4] bcast_S16x8x1x1x1_S16x8x32x128x128_0_1_2_3_4 : (⟨S16x8x1x1x1, .f32⟩ : BufTy).Contents (Elt F) → (⟨S16x8x32x128x128, .f32⟩ : BufTy).Contents (Elt F)),
    StableHlo.binary main_v55 main_v59 main_v60 (mulf : (⟨S16x8x32x128x128, .f32⟩ : BufTy).Contents (Elt F) → (⟨S16x8x32x128x128, .f32⟩ : BufTy).Contents (Elt F) → (⟨S16x8x32x128x128, .f32⟩ : BufTy).Contents (Elt F)),
    StableHlo.binary main_v53 main_v60 main_v61 (addf : (⟨S16x8x32x128x128, .f32⟩ : BufTy).Contents (Elt F) → (⟨S16x8x32x128x128, .f32⟩ : BufTy).Contents (Elt F) → (⟨S16x8x32x128x128, .f32⟩ : BufTy).Contents (Elt F)),
    StableHlo.unary main_v20 main_v62 ((extractStridedSlice S16x256x128x128 ![0, 0, 1, 2] · slices_S16x256x130x130_S16x256x128x128_0_0_1_2) : (⟨S16x256x130x130, .f32⟩ : BufTy).Contents (Elt F) → (⟨S16x256x128x128, .f32⟩ : BufTy).Contents (Elt F)),
    StableHlo.reshape main_v62 main_v63 rfl shapeCasts_S16x256x128x128_S16x8x32x128x128,
    StableHlo.unary main_v19 main_v64 ((extractStridedSlice S16x8x1 ![0, 0, 5] · slices_S16x8x9_S16x8x1_0_0_5) : (⟨S16x8x9, .f32⟩ : BufTy).Contents (Elt F) → (⟨S16x8x1, .f32⟩ : BufTy).Contents (Elt F)),
    StableHlo.reshape main_v64 main_v65 rfl shapeCasts_S16x8x1_S16x8,
    StableHlo.unary main_v65 main_v66 (broadcastInDim S16x8x1x1x1 ![0, 1] bcast_S16x8_S16x8x1x1x1_0_1 : (⟨S16x8, .f32⟩ : BufTy).Contents (Elt F) → (⟨S16x8x1x1x1, .f32⟩ : BufTy).Contents (Elt F)),
    StableHlo.unary main_v66 main_v67 (broadcastInDim S16x8x32x128x128 ![0, 1, 2, 3, 4] bcast_S16x8x1x1x1_S16x8x32x128x128_0_1_2_3_4 : (⟨S16x8x1x1x1, .f32⟩ : BufTy).Contents (Elt F) → (⟨S16x8x32x128x128, .f32⟩ : BufTy).Contents (Elt F)),
    StableHlo.binary main_v63 main_v67 main_v68 (mulf : (⟨S16x8x32x128x128, .f32⟩ : BufTy).Contents (Elt F) → (⟨S16x8x32x128x128, .f32⟩ : BufTy).Contents (Elt F) → (⟨S16x8x32x128x128, .f32⟩ : BufTy).Contents (Elt F)),
    StableHlo.binary main_v61 main_v68 main_v69 (addf : (⟨S16x8x32x128x128, .f32⟩ : BufTy).Contents (Elt F) → (⟨S16x8x32x128x128, .f32⟩ : BufTy).Contents (Elt F) → (⟨S16x8x32x128x128, .f32⟩ : BufTy).Contents (Elt F)),
    StableHlo.unary main_v20 main_v70 ((extractStridedSlice S16x256x128x128 ![0, 0, 2, 0] · slices_S16x256x130x130_S16x256x128x128_0_0_2_0) : (⟨S16x256x130x130, .f32⟩ : BufTy).Contents (Elt F) → (⟨S16x256x128x128, .f32⟩ : BufTy).Contents (Elt F)),
    StableHlo.reshape main_v70 main_v71 rfl shapeCasts_S16x256x128x128_S16x8x32x128x128,
    StableHlo.unary main_v19 main_v72 ((extractStridedSlice S16x8x1 ![0, 0, 6] · slices_S16x8x9_S16x8x1_0_0_6) : (⟨S16x8x9, .f32⟩ : BufTy).Contents (Elt F) → (⟨S16x8x1, .f32⟩ : BufTy).Contents (Elt F)),
    StableHlo.reshape main_v72 main_v73 rfl shapeCasts_S16x8x1_S16x8,
    StableHlo.unary main_v73 main_v74 (broadcastInDim S16x8x1x1x1 ![0, 1] bcast_S16x8_S16x8x1x1x1_0_1 : (⟨S16x8, .f32⟩ : BufTy).Contents (Elt F) → (⟨S16x8x1x1x1, .f32⟩ : BufTy).Contents (Elt F)),
    StableHlo.unary main_v74 main_v75 (broadcastInDim S16x8x32x128x128 ![0, 1, 2, 3, 4] bcast_S16x8x1x1x1_S16x8x32x128x128_0_1_2_3_4 : (⟨S16x8x1x1x1, .f32⟩ : BufTy).Contents (Elt F) → (⟨S16x8x32x128x128, .f32⟩ : BufTy).Contents (Elt F)),
    StableHlo.binary main_v71 main_v75 main_v76 (mulf : (⟨S16x8x32x128x128, .f32⟩ : BufTy).Contents (Elt F) → (⟨S16x8x32x128x128, .f32⟩ : BufTy).Contents (Elt F) → (⟨S16x8x32x128x128, .f32⟩ : BufTy).Contents (Elt F)),
    StableHlo.binary main_v69 main_v76 main_v77 (addf : (⟨S16x8x32x128x128, .f32⟩ : BufTy).Contents (Elt F) → (⟨S16x8x32x128x128, .f32⟩ : BufTy).Contents (Elt F) → (⟨S16x8x32x128x128, .f32⟩ : BufTy).Contents (Elt F)),
    StableHlo.unary main_v20 main_v78 ((extractStridedSlice S16x256x128x128 ![0, 0, 2, 1] · slices_S16x256x130x130_S16x256x128x128_0_0_2_1) : (⟨S16x256x130x130, .f32⟩ : BufTy).Contents (Elt F) → (⟨S16x256x128x128, .f32⟩ : BufTy).Contents (Elt F)),
    StableHlo.reshape main_v78 main_v79 rfl shapeCasts_S16x256x128x128_S16x8x32x128x128,
    StableHlo.unary main_v19 main_v80 ((extractStridedSlice S16x8x1 ![0, 0, 7] · slices_S16x8x9_S16x8x1_0_0_7) : (⟨S16x8x9, .f32⟩ : BufTy).Contents (Elt F) → (⟨S16x8x1, .f32⟩ : BufTy).Contents (Elt F)),
    StableHlo.reshape main_v80 main_v81 rfl shapeCasts_S16x8x1_S16x8,
    StableHlo.unary main_v81 main_v82 (broadcastInDim S16x8x1x1x1 ![0, 1] bcast_S16x8_S16x8x1x1x1_0_1 : (⟨S16x8, .f32⟩ : BufTy).Contents (Elt F) → (⟨S16x8x1x1x1, .f32⟩ : BufTy).Contents (Elt F)),
    StableHlo.unary main_v82 main_v83 (broadcastInDim S16x8x32x128x128 ![0, 1, 2, 3, 4] bcast_S16x8x1x1x1_S16x8x32x128x128_0_1_2_3_4 : (⟨S16x8x1x1x1, .f32⟩ : BufTy).Contents (Elt F) → (⟨S16x8x32x128x128, .f32⟩ : BufTy).Contents (Elt F)),
    StableHlo.binary main_v79 main_v83 main_v84 (mulf : (⟨S16x8x32x128x128, .f32⟩ : BufTy).Contents (Elt F) → (⟨S16x8x32x128x128, .f32⟩ : BufTy).Contents (Elt F) → (⟨S16x8x32x128x128, .f32⟩ : BufTy).Contents (Elt F)),
    StableHlo.binary main_v77 main_v84 main_v85 (addf : (⟨S16x8x32x128x128, .f32⟩ : BufTy).Contents (Elt F) → (⟨S16x8x32x128x128, .f32⟩ : BufTy).Contents (Elt F) → (⟨S16x8x32x128x128, .f32⟩ : BufTy).Contents (Elt F)),
    StableHlo.unary main_v20 main_v86 ((extractStridedSlice S16x256x128x128 ![0, 0, 2, 2] · slices_S16x256x130x130_S16x256x128x128_0_0_2_2) : (⟨S16x256x130x130, .f32⟩ : BufTy).Contents (Elt F) → (⟨S16x256x128x128, .f32⟩ : BufTy).Contents (Elt F)),
    StableHlo.reshape main_v86 main_v87 rfl shapeCasts_S16x256x128x128_S16x8x32x128x128,
    StableHlo.unary main_v19 main_v88 ((extractStridedSlice S16x8x1 ![0, 0, 8] · slices_S16x8x9_S16x8x1_0_0_8) : (⟨S16x8x9, .f32⟩ : BufTy).Contents (Elt F) → (⟨S16x8x1, .f32⟩ : BufTy).Contents (Elt F)),
    StableHlo.reshape main_v88 main_v89 rfl shapeCasts_S16x8x1_S16x8,
    StableHlo.unary main_v89 main_v90 (broadcastInDim S16x8x1x1x1 ![0, 1] bcast_S16x8_S16x8x1x1x1_0_1 : (⟨S16x8, .f32⟩ : BufTy).Contents (Elt F) → (⟨S16x8x1x1x1, .f32⟩ : BufTy).Contents (Elt F)),
    StableHlo.unary main_v90 main_v91 (broadcastInDim S16x8x32x128x128 ![0, 1, 2, 3, 4] bcast_S16x8x1x1x1_S16x8x32x128x128_0_1_2_3_4 : (⟨S16x8x1x1x1, .f32⟩ : BufTy).Contents (Elt F) → (⟨S16x8x32x128x128, .f32⟩ : BufTy).Contents (Elt F)),
    StableHlo.binary main_v87 main_v91 main_v92 (mulf : (⟨S16x8x32x128x128, .f32⟩ : BufTy).Contents (Elt F) → (⟨S16x8x32x128x128, .f32⟩ : BufTy).Contents (Elt F) → (⟨S16x8x32x128x128, .f32⟩ : BufTy).Contents (Elt F)),
    StableHlo.binary main_v85 main_v92 main_v93 (addf : (⟨S16x8x32x128x128, .f32⟩ : BufTy).Contents (Elt F) → (⟨S16x8x32x128x128, .f32⟩ : BufTy).Contents (Elt F) → (⟨S16x8x32x128x128, .f32⟩ : BufTy).Contents (Elt F)),
    StableHlo.reshape main_v93 main_v94 rfl shapeCasts_S16x8x32x128x128_S16x256x128x128,
    StableHlo.nullary main_cst_3 (constant S_ .f32 0x00000000#32),
    StableHlo.binary main_arg0 main_cst_3 main_v95 ((fun x v => Host.reduceAdd x v reducesTo_S16x256x128x128_S16x256_d2_3 h_S_) : (⟨S16x256x128x128, .f32⟩ : BufTy).Contents (Elt F) → (⟨S_, .f32⟩ : BufTy).Contents (Elt F) → (⟨S16x256, .f32⟩ : BufTy).Contents (Elt F)),
    StableHlo.unary main_v95 main_v96 (broadcastInDim S16x256x1x1 ![0, 1] bcast_S16x256_S16x256x1x1_0_1 : (⟨S16x256, .f32⟩ : BufTy).Contents (Elt F) → (⟨S16x256x1x1, .f32⟩ : BufTy).Contents (Elt F)),
    StableHlo.nullary main_cst_4 (constant S_ .f32 0x46800000#32),
    StableHlo.unary main_cst_4 main_v97 (broadcastInDim S16x256x1x1 ![] bcast_S_S16x256x1x1 : (⟨S_, .f32⟩ : BufTy).Contents (Elt F) → (⟨S16x256x1x1, .f32⟩ : BufTy).Contents (Elt F)),
    StableHlo.binary main_v96 main_v97 main_v98 (Host.divf : (⟨S16x256x1x1, .f32⟩ : BufTy).Contents (Elt F) → (⟨S16x256x1x1, .f32⟩ : BufTy).Contents (Elt F) → (⟨S16x256x1x1, .f32⟩ : BufTy).Contents (Elt F)),
    StableHlo.unary main_arg8 main_v99 (broadcastInDim S1x256x1x1 ![1] bcast_S256_S1x256x1x1_1 : (⟨S256, .f32⟩ : BufTy).Contents (Elt F) → (⟨S1x256x1x1, .f32⟩ : BufTy).Contents (Elt F)),
    StableHlo.nullary main_cst_5 (constant S_ .f32 0x3F800000#32),
    StableHlo.unary main_cst_5 main_v100 (broadcastInDim S1x256x1x1 ![] bcast_S_S1x256x1x1 : (⟨S_, .f32⟩ : BufTy).Contents (Elt F) → (⟨S1x256x1x1, .f32⟩ : BufTy).Contents (Elt F)),
    StableHlo.binary main_v99 main_v100 main_v101 (addf : (⟨S1x256x1x1, .f32⟩ : BufTy).Contents (Elt F) → (⟨S1x256x1x1, .f32⟩ : BufTy).Contents (Elt F) → (⟨S1x256x1x1, .f32⟩ : BufTy).Contents (Elt F)),
    StableHlo.unary main_v101 main_v102 (broadcastInDim S16x256x128x128 ![0, 1, 2, 3] bcast_S1x256x1x1_S16x256x128x128_0_1_2_3 : (⟨S1x256x1x1, .f32⟩ : BufTy).Contents (Elt F) → (⟨S16x256x128x128, .f32⟩ : BufTy).Contents (Elt F)),
    StableHlo.binary main_v94 main_v102 main_v103 (mulf : (⟨S16x256x128x128, .f32⟩ : BufTy).Contents (Elt F) → (⟨S16x256x128x128, .f32⟩ : BufTy).Contents (Elt F) → (⟨S16x256x128x128, .f32⟩ : BufTy).Contents (Elt F)),
    StableHlo.unary main_v99 main_v104 (broadcastInDim S16x256x1x1 ![0, 1, 2, 3] bcast_S1x256x1x1_S16x256x1x1_0_1_2_3 : (⟨S1x256x1x1, .f32⟩ : BufTy).Contents (Elt F) → (⟨S16x256x1x1, .f32⟩ : BufTy).Contents (Elt F)),
    StableHlo.binary main_v104 main_v98 main_v105 (mulf : (⟨S16x256x1x1, .f32⟩ : BufTy).Contents (Elt F) → (⟨S16x256x1x1, .f32⟩ : BufTy).Contents (Elt F) → (⟨S16x256x1x1, .f32⟩ : BufTy).Contents (Elt F)),
    StableHlo.unary main_v105 main_v106 (broadcastInDim S16x256x128x128 ![0, 1, 2, 3] bcast_S16x256x1x1_S16x256x128x128_0_1_2_3 : (⟨S16x256x1x1, .f32⟩ : BufTy).Contents (Elt F) → (⟨S16x256x128x128, .f32⟩ : BufTy).Contents (Elt F)),
    StableHlo.binary main_v103 main_v106 main_v107 (subf : (⟨S16x256x128x128, .f32⟩ : BufTy).Contents (Elt F) → (⟨S16x256x128x128, .f32⟩ : BufTy).Contents (Elt F) → (⟨S16x256x128x128, .f32⟩ : BufTy).Contents (Elt F)),
    StableHlo.unary main_arg6 main_v108 (broadcastInDim S1x256x1x1 ![1] bcast_S256_S1x256x1x1_1 : (⟨S256, .f32⟩ : BufTy).Contents (Elt F) → (⟨S1x256x1x1, .f32⟩ : BufTy).Contents (Elt F)),
    StableHlo.nullary main_cst_6 (constant S_ .f32 0x3F800000#32),
    StableHlo.unary main_cst_6 main_v109 (broadcastInDim S1x256x1x1 ![] bcast_S_S1x256x1x1 : (⟨S_, .f32⟩ : BufTy).Contents (Elt F) → (⟨S1x256x1x1, .f32⟩ : BufTy).Contents (Elt F)),
    StableHlo.binary main_v108 main_v109 main_v110 (addf : (⟨S1x256x1x1, .f32⟩ : BufTy).Contents (Elt F) → (⟨S1x256x1x1, .f32⟩ : BufTy).Contents (Elt F) → (⟨S1x256x1x1, .f32⟩ : BufTy).Contents (Elt F)),
    StableHlo.unary main_v110 main_v111 (broadcastInDim S16x256x128x128 ![0, 1, 2, 3] bcast_S1x256x1x1_S16x256x128x128_0_1_2_3 : (⟨S1x256x1x1, .f32⟩ : BufTy).Contents (Elt F) → (⟨S16x256x128x128, .f32⟩ : BufTy).Contents (Elt F)),
    StableHlo.binary main_v107 main_v111 main_v112 (mulf : (⟨S16x256x128x128, .f32⟩ : BufTy).Contents (Elt F) → (⟨S16x256x128x128, .f32⟩ : BufTy).Contents (Elt F) → (⟨S16x256x128x128, .f32⟩ : BufTy).Contents (Elt F)),
    StableHlo.binary main_arg0 main_v94 main_v113 (subf : (⟨S16x256x128x128, .f32⟩ : BufTy).Contents (Elt F) → (⟨S16x256x128x128, .f32⟩ : BufTy).Contents (Elt F) → (⟨S16x256x128x128, .f32⟩ : BufTy).Contents (Elt F)),
    StableHlo.unary main_arg7 main_v114 (broadcastInDim S1x256x1x1 ![1] bcast_S256_S1x256x1x1_1 : (⟨S256, .f32⟩ : BufTy).Contents (Elt F) → (⟨S1x256x1x1, .f32⟩ : BufTy).Contents (Elt F)),
    StableHlo.nullary main_cst_7 (constant S_ .f32 0x3F800000#32),
    StableHlo.unary main_cst_7 main_v115 (broadcastInDim S1x256x1x1 ![] bcast_S_S1x256x1x1 : (⟨S_, .f32⟩ : BufTy).Contents (Elt F) → (⟨S1x256x1x1, .f32⟩ : BufTy).Contents (Elt F)),
    StableHlo.binary main_v114 main_v115 main_v116 (addf : (⟨S1x256x1x1, .f32⟩ : BufTy).Contents (Elt F) → (⟨S1x256x1x1, .f32⟩ : BufTy).Contents (Elt F) → (⟨S1x256x1x1, .f32⟩ : BufTy).Contents (Elt F)),
    StableHlo.unary main_v116 main_v117 (broadcastInDim S16x256x128x128 ![0, 1, 2, 3] bcast_S1x256x1x1_S16x256x128x128_0_1_2_3 : (⟨S1x256x1x1, .f32⟩ : BufTy).Contents (Elt F) → (⟨S16x256x128x128, .f32⟩ : BufTy).Contents (Elt F)),
    StableHlo.binary main_v113 main_v117 main_v118 (mulf : (⟨S16x256x128x128, .f32⟩ : BufTy).Contents (Elt F) → (⟨S16x256x128x128, .f32⟩ : BufTy).Contents (Elt F) → (⟨S16x256x128x128, .f32⟩ : BufTy).Contents (Elt F)),
    StableHlo.binary main_v112 main_v118 main_v119 (addf : (⟨S16x256x128x128, .f32⟩ : BufTy).Contents (Elt F) → (⟨S16x256x128x128, .f32⟩ : BufTy).Contents (Elt F) → (⟨S16x256x128x128, .f32⟩ : BufTy).Contents (Elt F)) ]

/-- Every operation touches TensorCore buffers only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    unary_bufs_sub .., unary_bufs_sub .., binary_bufs_sub .., unary_bufs_sub .., reshape_bufs_sub .., nullary_bufs_sub ..,
    unary_bufs_sub .., unary_bufs_sub .., unary_bufs_sub .., binary_bufs_sub .., unary_bufs_sub .., unary_bufs_sub ..,
    unary_bufs_sub .., binary_bufs_sub .., unary_bufs_sub .., unary_bufs_sub .., unary_bufs_sub .., binary_bufs_sub ..,
    unary_bufs_sub .., unary_bufs_sub .., unary_bufs_sub .., binary_bufs_sub .., nullary_bufs_sub .., unary_bufs_sub ..,
    unary_bufs_sub .., reshape_bufs_sub .., unary_bufs_sub .., reshape_bufs_sub .., unary_bufs_sub .., unary_bufs_sub ..,
    binary_bufs_sub .., binary_bufs_sub .., unary_bufs_sub .., reshape_bufs_sub .., unary_bufs_sub .., reshape_bufs_sub ..,
    unary_bufs_sub .., unary_bufs_sub .., binary_bufs_sub .., binary_bufs_sub .., unary_bufs_sub .., reshape_bufs_sub ..,
    unary_bufs_sub .., reshape_bufs_sub .., unary_bufs_sub .., unary_bufs_sub .., binary_bufs_sub .., binary_bufs_sub ..,
    unary_bufs_sub .., reshape_bufs_sub .., unary_bufs_sub .., reshape_bufs_sub .., unary_bufs_sub .., unary_bufs_sub ..,
    binary_bufs_sub .., binary_bufs_sub .., unary_bufs_sub .., reshape_bufs_sub .., unary_bufs_sub .., reshape_bufs_sub ..,
    unary_bufs_sub .., unary_bufs_sub .., binary_bufs_sub .., binary_bufs_sub .., unary_bufs_sub .., reshape_bufs_sub ..,
    unary_bufs_sub .., reshape_bufs_sub .., unary_bufs_sub .., unary_bufs_sub .., binary_bufs_sub .., binary_bufs_sub ..,
    unary_bufs_sub .., reshape_bufs_sub .., unary_bufs_sub .., reshape_bufs_sub .., unary_bufs_sub .., unary_bufs_sub ..,
    binary_bufs_sub .., binary_bufs_sub .., unary_bufs_sub .., reshape_bufs_sub .., unary_bufs_sub .., reshape_bufs_sub ..,
    unary_bufs_sub .., unary_bufs_sub .., binary_bufs_sub .., binary_bufs_sub .., unary_bufs_sub .., reshape_bufs_sub ..,
    unary_bufs_sub .., reshape_bufs_sub .., unary_bufs_sub .., unary_bufs_sub .., binary_bufs_sub .., binary_bufs_sub ..,
    reshape_bufs_sub .., nullary_bufs_sub .., binary_bufs_sub .., unary_bufs_sub .., nullary_bufs_sub .., unary_bufs_sub ..,
    binary_bufs_sub .., unary_bufs_sub .., nullary_bufs_sub .., unary_bufs_sub .., binary_bufs_sub .., unary_bufs_sub ..,
    binary_bufs_sub .., unary_bufs_sub .., binary_bufs_sub .., unary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., unary_bufs_sub .., binary_bufs_sub .., unary_bufs_sub .., binary_bufs_sub ..,
    binary_bufs_sub ..⟩

end Cert.Fam.RefRun

end
-- ==== Proof.RefRun.lean ====
/-
  The run of the reference program: its straight line of operations, the fold of their results, and what every
  weakly fair execution ends with at the output buffer and at the nine argument buffers.
-/
import proofs.«138818_j16441134809583_1_alg».proof.Proof.RefRunOps
import proofs.«138818_j16441134809583_1_alg».proof.Proof.RefTerm

noncomputable section

namespace Cert.Fam.RefRun

open Cert.ReferenceIdeal Cert.ReferenceIdeal.Gen Idealize.ShloMosaic Idealize.ShloMosaic.TcCoe Idealize.SL.Sem Idealize.ShloMosaic.StableHlo

variable {F : FTy → Type} [FloatOps F]

-- one bind per operation is re-associated: the rewrite under the chain recurses once per statement
set_option maxRecDepth 65536 in
set_option maxHeartbeats 4000000 in
/-- @main is that straight line: its three windows in order, the padding function and the two flips unfolded at
    their calls and the call records at their fields; both sides are then one chain of steps once sequencing
    is re-associated. -/
theorem main_eq (c : Dev nD) : main (F := F) c = seq ops := by
  simp only [main, main_part0, main_part1, main_part2, fn_pad.body, fn_flip.body, fn_flip_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- On the compiled mesh, for any float values, from any memory with zero counters: every weakly fair execution
    of @main terminates, and every final state has each TensorCore buffer at the fold of the operations'
    results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! No operation writes an argument buffer: the fold leaves each at its launch contents. -/

set_option maxRecDepth 65536
set_option maxHeartbeats 4000000

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

/-! The output buffer: the fold, unrolled operation by operation, is the composed term of the nine arguments. -/

attribute [local irreducible] Host.reduceAdd Host.reverse concatenate extractStridedSlice transpose shapeCast in
/-- At the output buffer the fold is the reference's composed pure term of the arguments' contents: each
    operation's result at its own buffer is its function of its operands' contents, and every other buffer keeps
    what it held; what is left is that term, stage by stage. The sums, the reversals and the layout operations are
    kept folded meanwhile: the equation never looks inside them. -/
theorem out_eq (V : Valuation τ sig (Elt Ideal)) :
    after ops V (main_v119 : DevRef τ sig)
      = Cert.Fam.Ref.refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  after_results_simp
  rfl

/-- On the compiled mesh, at the ideal instance, from any memory with zero counters: every weakly fair execution of
    @main terminates with the output buffer at the composed term of the arguments' launch contents and the nine
    argument buffers unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v119)
          = Cert.Fam.Ref.refOut (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v119).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_main m ρ)

end Cert.Fam.RefRun

end
-- ==== Proof.RefValuePad.lean ====
/-
  The reflect padding read at an index: the padded array at (n, c, a, b) is the image at the mirrored
  coordinates (n, c, mir a, mir b). Each of the four steps concatenates one reversed unit slice before or
  after the array along one axis, so a coordinate either falls in the slice (and reads the one row or column
  it was cut from) or in the array (and reads it shifted).
-/
import proofs.«138818_j16441134809583_1_alg».proof.Proof.RefTerm
import Idealize.ShloMosaic.Lib.Pipeline.Value
import Idealize.ShloMosaic.Lib.ValueIdx

noncomputable section

namespace Cert.Fam.Ref

open Idealize.ShloMosaic Idealize.ShloMosaic.ValueIdx Cert.ReferenceIdeal Cert.ReferenceIdeal.Facts₀

variable [Facts₀]

/-- Reversing along axes of extent one is the identity: the reversed coordinate of the only position is itself. -/
theorem reverse_unit {α : Type} {s : Shape} (axes : List (Fin s.rank)) (h : ∀ a ∈ axes, s.size a = 1) (x : s.Idx → α) :
    Host.reverse axes x = x := by
  funext j
  unfold Host.reverse
  refine congrArg x (funext fun a => ?_)
  by_cases ha : a ∈ axes
  · rw [if_pos ha]
    apply Fin.ext
    have h1 := h a ha
    have hlt := (j a).isLt
    rw [Fin.val_rev]
    omega
  · rw [if_neg ha]

/-- The first padding step at row a of 129: row 0 is source row 1, row a is source row a - 1. -/
theorem padTopR_apply (x : FVec Ideal S16x256x128x128 .f32) (n : Fin 16) (c : Fin 256) (a : Fin 129) (w : Fin 128)
    (r : Fin 128) (hr : r.val = mir a.val) :
    padTopR x (ix4 n c a w) = x (ix4 n c r w) := by
  have ha := a.isLt
  unfold padTopR
  by_cases h0 : a.val = 0
  · have hr1 : r.val = 1 := by rw [hr, h0]; rfl
    refine (concatenate_pair_apply_left (t := S16x256x129x128) (s₁ := S16x256x1x128) (s₂ := S16x256x128x128)
      _ _ _ _ (ix4 n c a w) rfl (ix4 n c (0 : Fin 1) w) ?_).trans ?_
    · intro b
      match b with
      | ⟨0, _⟩ => rfl
      | ⟨1, _⟩ => rfl
      | ⟨2, _⟩ => exact h0.symm
      | ⟨3, _⟩ => rfl
    · refine (congrFun (reverse_unit _ ?_ _) _).trans ?_
      · intro b hb
        rw [List.mem_singleton] at hb
        subst hb
        rfl
      · refine extractStridedSlice_apply _ x _ _ (ix4 n c r w) ?_
        intro b
        match b with
        | ⟨0, _⟩ => exact (Nat.zero_add _).symm
        | ⟨1, _⟩ => exact (Nat.zero_add _).symm
        | ⟨2, _⟩ => show r.val = 1 + 0; omega
        | ⟨3, _⟩ => exact (Nat.zero_add _).symm
  · have hr1 : r.val + 1 = a.val := by
      rw [hr]; unfold mir; rw [if_neg h0, if_neg (by omega)]; omega
    refine concatenate_pair_apply_right (t := S16x256x129x128) (s₁ := S16x256x1x128) (s₂ := S16x256x128x128)
      _ _ _ _ (ix4 n c a w) rfl rfl (ix4 n c r w) ?_ ?_
    · intro b
      match b with
      | ⟨0, _⟩ => exact fun _ => rfl
      | ⟨1, _⟩ => exact fun _ => rfl
      | ⟨2, _⟩ => exact fun h => absurd rfl h
      | ⟨3, _⟩ => exact fun _ => rfl
    · exact hr1

/-- The rows-padded array at row a of 130 is the image at row mir a. -/
theorem padRowsR_apply (x : FVec Ideal S16x256x128x128 .f32) (n : Fin 16) (c : Fin 256) (a : Fin 130) (w : Fin 128)
    (r : Fin 128) (hr : r.val = mir a.val) :
    padRowsR x (ix4 n c a w) = x (ix4 n c r w) := by
  have ha := a.isLt
  unfold padRowsR
  by_cases h : a.val < 129
  · refine (concatenate_pair_apply_left (t := S16x256x130x128) (s₁ := S16x256x129x128) (s₂ := S16x256x1x128)
      _ _ _ _ (ix4 n c a w) rfl (ix4 n c (⟨a.val, h⟩ : Fin 129) w) ?_).trans (padTopR_apply x n c _ w r hr)
    intro b
    match b with
    | ⟨0, _⟩ => rfl
    | ⟨1, _⟩ => rfl
    | ⟨2, _⟩ => rfl
    | ⟨3, _⟩ => rfl
  · have h129 : a.val = 129 := by omega
    refine (concatenate_pair_apply_right (t := S16x256x130x128) (s₁ := S16x256x129x128) (s₂ := S16x256x1x128)
      _ _ _ _ (ix4 n c a w) rfl rfl (ix4 n c (0 : Fin 1) w) ?_ ?_).trans ?_
    · intro b
      match b with
      | ⟨0, _⟩ => exact fun _ => rfl
      | ⟨1, _⟩ => exact fun _ => rfl
      | ⟨2, _⟩ => exact fun h => absurd rfl h
      | ⟨3, _⟩ => exact fun _ => rfl
    · show 0 + 129 = a.val
      omega
    · refine (congrFun (reverse_unit _ ?_ _) _).trans ?_
      · intro b hb
        rw [List.mem_singleton] at hb
        subst hb
        rfl
      · refine (extractStridedSlice_apply _ (padTopR x) _ _ (ix4 n c (127 : Fin 129) w) ?_).trans
          (padTopR_apply x n c 127 w r ?_)
        · intro b
          match b with
          | ⟨0, _⟩ => exact (Nat.zero_add _).symm
          | ⟨1, _⟩ => exact (Nat.zero_add _).symm
          | ⟨2, _⟩ => rfl
          | ⟨3, _⟩ => exact (Nat.zero_add _).symm
        · rw [hr, h129]; rfl

/-- The third padding step at column b of 129: column 0 is column 1 of the rows-padded array, column b is column b - 1. -/
theorem padLeftR_apply (x : FVec Ideal S16x256x128x128 .f32) (n : Fin 16) (c : Fin 256) (a : Fin 130) (b' : Fin 129)
    (r q : Fin 128) (hr : r.val = mir a.val) (hq : q.val = mir b'.val) :
    padLeftR x (ix4 n c a b') = x (ix4 n c r q) := by
  have hb' := b'.isLt
  unfold padLeftR
  by_cases h0 : b'.val = 0
  · have hq1 : q.val = 1 := by rw [hq, h0]; rfl
    refine (concatenate_pair_apply_left (t := S16x256x130x129) (s₁ := S16x256x130x1) (s₂ := S16x256x130x128)
      _ _ _ _ (ix4 n c a b') rfl (ix4 n c a (0 : Fin 1)) ?_).trans ?_
    · intro b
      match b with
      | ⟨0, _⟩ => rfl
      | ⟨1, _⟩ => rfl
      | ⟨2, _⟩ => rfl
      | ⟨3, _⟩ => exact h0.symm
    · refine (congrFun (reverse_unit _ ?_ _) _).trans ?_
      · intro b hb
        rw [List.mem_singleton] at hb
        subst hb
        rfl
      · refine (extractStridedSlice_apply _ (padRowsR x) _ _ (ix4 n c a q) ?_).trans (padRowsR_apply x n c a q r hr)
        intro b
        match b with
        | ⟨0, _⟩ => exact (Nat.zero_add _).symm
        | ⟨1, _⟩ => exact (Nat.zero_add _).symm
        | ⟨2, _⟩ => exact (Nat.zero_add _).symm
        | ⟨3, _⟩ => show q.val = 1 + 0; omega
  · have hq1 : q.val + 1 = b'.val := by
      rw [hq]; unfold mir; rw [if_neg h0, if_neg (by omega)]; omega
    refine (concatenate_pair_apply_right (t := S16x256x130x129) (s₁ := S16x256x130x1) (s₂ := S16x256x130x128)
      _ _ _ _ (ix4 n c a b') rfl rfl (ix4 n c a q) ?_ ?_).trans (padRowsR_apply x n c a q r hr)
    · intro b
      match b with
      | ⟨0, _⟩ => exact fun _ => rfl
      | ⟨1, _⟩ => exact fun _ => rfl
      | ⟨2, _⟩ => exact fun _ => rfl
      | ⟨3, _⟩ => exact fun h => absurd rfl h
    · exact hq1

/-- The reflect-padded array at (a, b') of 130 x 130 is the image at (mir a, mir b'). -/
theorem padR_apply (x : FVec Ideal S16x256x128x128 .f32) (n : Fin 16) (c : Fin 256) (a b' : Fin 130)
    (r q : Fin 128) (hr : r.val = mir a.val) (hq : q.val = mir b'.val) :
    padR x (ix4 n c a b') = x (ix4 n c r q) := by
  have hb' := b'.isLt
  unfold padR
  by_cases h : b'.val < 129
  · refine (concatenate_pair_apply_left (t := S16x256x130x130) (s₁ := S16x256x130x129) (s₂ := S16x256x130x1)
      _ _ _ _ (ix4 n c a b') rfl (ix4 n c a (⟨b'.val, h⟩ : Fin 129)) ?_).trans (padLeftR_apply x n c a _ r q hr hq)
    intro b
    match b with
    | ⟨0, _⟩ => rfl
    | ⟨1, _⟩ => rfl
    | ⟨2, _⟩ => rfl
    | ⟨3, _⟩ => rfl
  · have h129 : b'.val = 129 := by omega
    refine (concatenate_pair_apply_right (t := S16x256x130x130) (s₁ := S16x256x130x129) (s₂ := S16x256x130x1)
      _ _ _ _ (ix4 n c a b') rfl rfl (ix4 n c a (0 : Fin 1)) ?_ ?_).trans ?_
    · intro b
      match b with
      | ⟨0, _⟩ => exact fun _ => rfl
      | ⟨1, _⟩ => exact fun _ => rfl
      | ⟨2, _⟩ => exact fun _ => rfl
      | ⟨3, _⟩ => exact fun h => absurd rfl h
    · show 0 + 129 = b'.val
      omega
    · refine (congrFun (reverse_unit _ ?_ _) _).trans ?_
      · intro b hb
        rw [List.mem_singleton] at hb
        subst hb
        rfl
      · refine (extractStridedSlice_apply _ (padLeftR x) _ _ (ix4 n c a (127 : Fin 129)) ?_).trans
          (padLeftR_apply x n c a 127 r q hr ?_)
        · intro b
          match b with
          | ⟨0, _⟩ => exact (Nat.zero_add _).symm
          | ⟨1, _⟩ => exact (Nat.zero_add _).symm
          | ⟨2, _⟩ => exact (Nat.zero_add _).symm
          | ⟨3, _⟩ => rfl
        · rw [hq, h129]; rfl

end Cert.Fam.Ref

end
-- ==== Proof.RefValueTap.lean ====
/-
  One tap's product read at an index. In the grouped view [16, 8, 32, 128, 128] at (n, q, r, h, w) it is the
  padded array at channel 32 q + r and window position (dy + h, dx + w), which the padding lemma reads as the
  image at the mirrored coordinates, times the tap's coefficient f[n, q, t] (sliced, reshaped and broadcast
  over the group's channels and the plane).
-/
import proofs.«138818_j16441134809583_1_alg».proof.Proof.RefValuePad

noncomputable section

namespace Cert.Fam.Ref

open Idealize.ShloMosaic Idealize.ShloMosaic.ValueIdx Cert.ReferenceIdeal Cert.ReferenceIdeal.Facts₀

variable [Facts₀]

/-- One tap's product at a grouped index, over the padded image. -/
theorem tapPad_apply (x : FVec Ideal S16x256x128x128 .f32) (f : FVec Ideal S16x8x9 .f32) (dy dx t : Nat)
    (hx : S16x256x130x130.Slices ![0, 0, dy, dx] S16x256x128x128) (hf : S16x8x9.Slices ![0, 0, t] S16x8x1)
    (n : Fin 16) (q : Fin 8) (r : Fin 32) (h w : Fin 128) (hdy : dy ≤ 2) (hdx : dx ≤ 2)
    (c : Fin 256) (hc : c.val = q.val * 32 + r.val)
    (a b' : Fin 128) (ha : a.val = mir (h.val + dy)) (hb' : b'.val = mir (w.val + dx))
    (tt : Fin 9) (htt : tt.val = t) :
    tapR (padR x) f ![0, 0, dy, dx] hx ![0, 0, t] hf (ix5 n q r h w) = x (ix4 n c a b') * f (ix3 n q tt) := by
  have hh := h.isLt
  have hw := w.isLt
  unfold tapR
  refine (mulf_apply _ _ _).trans ?_
  refine congrArg₂ (· * ·) ?_ ?_
  · refine (shapeCast_apply _ _ (ix5 n q r h w) (ix4 n c h w) ?_).trans ?_
    · rw [Shape.rowMajor_val_four, Shape.rowMajor_val_five]
      show ((n.val * 256 + c.val) * 128 + h.val) * 128 + w.val
        = (((n.val * 8 + q.val) * 32 + r.val) * 128 + h.val) * 128 + w.val
      omega
    · refine (extractStridedSlice_apply _ (padR x) _ (ix4 n c h w)
        (ix4 n c (⟨dy + h.val, by omega⟩ : Fin 130) (⟨dx + w.val, by omega⟩ : Fin 130)) ?_).trans ?_
      · intro b
        match b with
        | ⟨0, _⟩ => exact (Nat.zero_add _).symm
        | ⟨1, _⟩ => exact (Nat.zero_add _).symm
        | ⟨2, _⟩ => rfl
        | ⟨3, _⟩ => rfl
      · exact padR_apply x n c _ _ a b' (by rw [ha, Nat.add_comm]) (by rw [hb', Nat.add_comm])
  · refine (broadcastInDim_apply _ _ _ (ix5 n q r h w) (ix5 n q (0 : Fin 1) (0 : Fin 1) (0 : Fin 1)) ?_).trans ?_
    · intro b
      match b with
      | ⟨0, _⟩ => rfl
      | ⟨1, _⟩ => rfl
      | ⟨2, _⟩ => rfl
      | ⟨3, _⟩ => rfl
      | ⟨4, _⟩ => rfl
    · refine (broadcastInDim_apply _ _ _ _ (ix2 n q) ?_).trans ?_
      · intro b
        match b with
        | ⟨0, _⟩ => rfl
        | ⟨1, _⟩ => rfl
      · refine (shapeCast_apply _ _ (ix2 n q) (ix3 n q (0 : Fin 1)) ?_).trans ?_
        · rw [Shape.rowMajor_val_three, Shape.rowMajor_val_two]
          show (n.val * 8 + q.val) * 1 + 0 = n.val * 8 + q.val
          omega
        · refine extractStridedSlice_apply _ f _ _ (ix3 n q tt) ?_
          intro b
          match b with
          | ⟨0, _⟩ => exact (Nat.zero_add _).symm
          | ⟨1, _⟩ => exact (Nat.zero_add _).symm
          | ⟨2, _⟩ => exact htt

end Cert.Fam.Ref

end
-- ==== Proof.RefValueLow.lean ====
/-
  The local filter's response read at an index. The nine tap products are added left to right from the zero
  array in the grouped view, and the reshape back to [16, 256, 128, 128] reads channel c at group c / 32,
  member c % 32: the response at (n, c, h, w) is the specification's sum for the plane of channel c and the
  taps of its group.
-/
import proofs.«138818_j16441134809583_1_alg».proof.Proof.RefValueTap

noncomputable section

namespace Cert.Fam.Ref

open Idealize.ShloMosaic Idealize.ShloMosaic.ValueIdx Cert.ReferenceIdeal Cert.ReferenceIdeal.Facts₀

variable [Facts₀]

/-- The nine products added from the zero word, at a grouped index: the specification's sum for channel c = 32 q + r. -/
theorem low5R_apply (x : FVec Ideal S16x256x128x128 .f32) (f : FVec Ideal S16x8x9 .f32)
    (n : Fin 16) (q : Fin 8) (r : Fin 32) (h w : Fin 128) (c : Fin 256) (hc : c.val = q.val * 32 + r.val) :
    low5R (padR x) f (ix5 n q r h w) = lowCh (fun a b => x (ix4 n c a b)) (fun t => f (ix3 n q t)) h w := by
  unfold low5R lowCh tapCh
  refine (addf_apply _ _ _).trans (congrArg₂ (· + ·) ?_
    (tapPad_apply x f 2 2 8 _ _ n q r h w (by omega) (by omega) c hc _ _ rfl rfl _ rfl))
  refine (addf_apply _ _ _).trans (congrArg₂ (· + ·) ?_
    (tapPad_apply x f 2 1 7 _ _ n q r h w (by omega) (by omega) c hc _ _ rfl rfl _ rfl))
  refine (addf_apply _ _ _).trans (congrArg₂ (· + ·) ?_
    (tapPad_apply x f 2 0 6 _ _ n q r h w (by omega) (by omega) c hc _ _ rfl rfl _ rfl))
  refine (addf_apply _ _ _).trans (congrArg₂ (· + ·) ?_
    (tapPad_apply x f 1 2 5 _ _ n q r h w (by omega) (by omega) c hc _ _ rfl rfl _ rfl))
  refine (addf_apply _ _ _).trans (congrArg₂ (· + ·) ?_
    (tapPad_apply x f 1 1 4 _ _ n q r h w (by omega) (by omega) c hc _ _ rfl rfl _ rfl))
  refine (addf_apply _ _ _).trans (congrArg₂ (· + ·) ?_
    (tapPad_apply x f 1 0 3 _ _ n q r h w (by omega) (by omega) c hc _ _ rfl rfl _ rfl))
  refine (addf_apply _ _ _).trans (congrArg₂ (· + ·) ?_
    (tapPad_apply x f 0 2 2 _ _ n q r h w (by omega) (by omega) c hc _ _ rfl rfl _ rfl))
  refine (addf_apply _ _ _).trans (congrArg₂ (· + ·) ?_
    (tapPad_apply x f 0 1 1 _ _ n q r h w (by omega) (by omega) c hc _ _ rfl rfl _ rfl))
  refine (addf_apply _ _ _).trans (congrArg₂ (· + ·) ?_
    (tapPad_apply x f 0 0 0 _ _ n q r h w (by omega) (by omega) c hc _ _ rfl rfl _ rfl))
  rfl

/-- The response reshaped back: channel c reads group c / 32, member c % 32. -/
theorem lowR_apply (x : FVec Ideal S16x256x128x128 .f32) (f : FVec Ideal S16x8x9 .f32)
    (n : Fin 16) (c : Fin 256) (h w : Fin 128) :
    lowR (padR x) f (ix4 n c h w)
      = lowCh (fun a b => x (ix4 n c a b)) (fun t => f (ix3 n (⟨c.val / 32, by omega⟩ : Fin 8) t)) h w := by
  have hc := c.isLt
  unfold lowR
  refine (shapeCast_apply _ _ (ix4 n c h w)
    (ix5 n (⟨c.val / 32, by omega⟩ : Fin 8) (⟨c.val % 32, Nat.mod_lt _ (by decide)⟩ : Fin 32) h w) ?_).trans
    (low5R_apply x f n _ _ h w c ?_)
  · rw [Shape.rowMajor_val_five, Shape.rowMajor_val_four]
    show (((n.val * 8 + c.val / 32) * 32 + c.val % 32) * 128 + h.val) * 128 + w.val
      = ((n.val * 256 + c.val) * 128 + h.val) * 128 + w.val
    omega
  · show c.val = c.val / 32 * 32 + c.val % 32
    omega

end Cert.Fam.Ref

end
-- ==== Proof.RefValue.lean ====
/-
  The reference's result read index by index as the specification's gated output. The two means are the same
  sum divided by the same word (the keepdims one reads it through broadcasts to unit axes), a per-channel gate
  broadcast to the whole array reads its channel's entry, and the gating arithmetic is elementwise, so the
  result at (n, c, h, w) is the specification's expression in the response, the image, the pooled mean and
  the three gates, with the operands in the program's own order.
-/
import proofs.«138818_j16441134809583_1_alg».proof.Proof.RefValueLow

noncomputable section

namespace Cert.Fam.Ref

open Idealize.ShloMosaic Idealize.ShloMosaic.ValueIdx Cert.ReferenceIdeal Cert.ReferenceIdeal.Facts₀

variable [Facts₀]

/-- The keepdims mean at (n, c, 0, 0) is the pooled mean at (n, c): the same sum, the same divisor. -/
theorem gapR_apply (x : FVec Ideal S16x256x128x128 .f32) (n : Fin 16) (c : Fin 256) :
    gapR x (ix4 n c (0 : Fin 1) (0 : Fin 1)) = pooledR x (ix2 n c) := by
  unfold gapR pooledR
  show Ideal.div _ _ = Ideal.div _ _
  refine congrArg₂ Ideal.div ?_ rfl
  refine broadcastInDim_apply _ _ _ _ (ix2 n c) ?_
  intro b
  match b with
  | ⟨0, _⟩ => rfl
  | ⟨1, _⟩ => rfl

/-- A gate placed on the channel axis reads its channel's entry. -/
theorem chanR_apply (a : FVec Ideal S256 .f32) (c : Fin 256) :
    chanR a (ix4 (0 : Fin 1) c (0 : Fin 1) (0 : Fin 1)) = a (ix1 c) := by
  unfold chanR
  refine broadcastInDim_apply _ _ _ _ (ix1 c) ?_
  intro b
  match b with
  | ⟨0, _⟩ => rfl

/-- A gate plus one, broadcast to the whole array, reads its channel's entry plus the word of 1.0. -/
theorem gateR_apply (a : FVec Ideal S256 .f32) (n : Fin 16) (c : Fin 256) (h w : Fin 128) :
    gateR a (ix4 n c h w) = a (ix1 c) + oneW := by
  unfold gateR
  refine (broadcastInDim_apply _ _ _ (ix4 n c h w) (ix4 (0 : Fin 1) c (0 : Fin 1) (0 : Fin 1)) ?_).trans ?_
  · intro b
    match b with
    | ⟨0, _⟩ => rfl
    | ⟨1, _⟩ => rfl
    | ⟨2, _⟩ => rfl
    | ⟨3, _⟩ => rfl
  · refine (addf_apply _ _ _).trans ?_
    exact congrArg₂ (· + ·) (chanR_apply a c) rfl

/-- The gating at an index. -/
theorem gatedR_apply (x low : FVec Ideal S16x256x128x128 .f32) (gap : FVec Ideal S16x256x1x1 .f32)
    (ll lh ia : FVec Ideal S256 .f32) (n : Fin 16) (c : Fin 256) (h w : Fin 128) :
    gatedR x low gap ll lh ia (ix4 n c h w)
      = (low (ix4 n c h w) * (ia (ix1 c) + oneW) - ia (ix1 c) * gap (ix4 n c (0 : Fin 1) (0 : Fin 1))) * (ll (ix1 c) + oneW)
        + (x (ix4 n c h w) - low (ix4 n c h w)) * (lh (ix1 c) + oneW) := by
  unfold gatedR
  refine (addf_apply _ _ _).trans (congrArg₂ (· + ·) ?_ ?_)
  · refine (mulf_apply _ _ _).trans (congrArg₂ (· * ·) ?_ (gateR_apply ll n c h w))
    refine (subf_apply _ _ _).trans (congrArg₂ (· - ·) ?_ ?_)
    · exact (mulf_apply _ _ _).trans (congrArg₂ (· * ·) rfl (gateR_apply ia n c h w))
    · refine (broadcastInDim_apply _ _ _ (ix4 n c h w) (ix4 n c (0 : Fin 1) (0 : Fin 1)) ?_).trans ?_
      · intro b
        match b with
        | ⟨0, _⟩ => rfl
        | ⟨1, _⟩ => rfl
        | ⟨2, _⟩ => rfl
        | ⟨3, _⟩ => rfl
      · refine (mulf_apply _ _ _).trans (congrArg₂ (· * ·) ?_ rfl)
        refine (broadcastInDim_apply _ _ _ (ix4 n c (0 : Fin 1) (0 : Fin 1))
          (ix4 (0 : Fin 1) c (0 : Fin 1) (0 : Fin 1)) ?_).trans (chanR_apply ia c)
        intro b
        match b with
        | ⟨0, _⟩ => rfl
        | ⟨1, _⟩ => rfl
        | ⟨2, _⟩ => rfl
        | ⟨3, _⟩ => rfl
  · refine (mulf_apply _ _ _).trans (congrArg₂ (· * ·) ?_ (gateR_apply lh n c h w))
    exact subf_apply _ _ _

/-- The reference's result is the specification's gated output of the image, the reference's own pooled mean and
    predicted taps, and the three gates. -/
theorem refOut_eq (x : FVec Ideal S16x256x128x128 .f32) (cw : FVec Ideal S72x256 .f32) (g b mu var : FVec Ideal S72 .f32)
    (ll lh ia : FVec Ideal S256 .f32) :
    refOut x cw g b mu var ll lh ia
      = Cert.Fam.G x (pooledR x) (filtR (pooledR x) cw g b mu var) ll lh ia := by
  funext i
  obtain ⟨n, c, h, w, rfl⟩ : ∃ (n : Fin 16) (c : Fin 256) (h w : Fin 128), i = ix4 n c h w :=
    ⟨i 0, i 1, i 2, i 3, eq_ix4 i⟩
  rw [G_ix4]
  unfold refOut outAt outCh
  rw [gatedR_apply, lowR_apply, gapR_apply]

end Cert.Fam.Ref

end
-- ==== Proof.lean ====
/-
  The certificate's five claims.

  The kernel computes, per image, the mean of every channel's plane in a first pipelined region, predicts nine filter
  taps per group of 32 channels from the pooled means on the host (a contraction with the transposed weight, the
  inference batch-norm arithmetic, tanh), and in a second region filters every channel's reflect-padded plane with its
  group's 3x3 taps and gates the low and high parts per channel. The reference does the same with whole-array
  operations: a mean over the last two axes, the same prediction, jnp.pad in reflect mode, nine shifted slices in the
  grouped view, and the same gating.

  At the ideal instance both results are one function of the arguments (Spec: G at the pooled mean and the predicted
  taps): the kernel's mean is the plane sum over the word of 16384.0, the reference's the same sum (the index sets
  correspond one to one); the predicted taps are the same operations of it; the kernel's padded block and the
  reference's padded array both read the plane at the mirrored coordinate; both add the nine products left to right
  from the zero word and gate in the same order. No law of the extended reals is needed, so the precondition is not
  opened. The two frames of the kernel programs are the generated ones; the reference's frame is its run with the
  result dropped; the idealization rewrote nothing, so the preservation claim is trivial.
-/
import proofs.«138818_j16441134809583_1_alg».proof.Defs
import proofs.«138818_j16441134809583_1_alg».proof.Proof.Gen.Kernel
import proofs.«138818_j16441134809583_1_alg».proof.Proof.Gen.Kernel.Frame
import proofs.«138818_j16441134809583_1_alg».proof.Proof.Gen.KernelIdeal
import proofs.«138818_j16441134809583_1_alg».proof.Proof.Gen.KernelIdeal.Frame
import proofs.«138818_j16441134809583_1_alg».proof.Proof.Gen.ReferenceIdeal
import proofs.«138818_j16441134809583_1_alg».proof.Proof.Gen.Pre_finite_inputs
import proofs.«138818_j16441134809583_1_alg».proof.Proof.KFinal
import proofs.«138818_j16441134809583_1_alg».proof.Proof.Bridge
import proofs.«138818_j16441134809583_1_alg».proof.Proof.RefRun
import proofs.«138818_j16441134809583_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.Fam.RefRun.run m ρ)

theorem preserves : Cert.preserves_Kernel_KernelIdeal := trivial

/-- Both idealized programs end with the specification's function of the arguments in their result buffers. -/
theorem algebraic : Cert.algebraic_KernelIdeal_ReferenceIdeal := by
  intro m ρ m' ρ' _ hagree
  refine ⟨fun c => Cert.Fam.G (m ((c.tc : Thread Cert.KernelIdeal.nD Cert.KernelIdeal.τ).loc Cert.KernelIdeal.main_arg0)) (Cert.Fam.Ref.pooledR (m ((c.tc : Thread Cert.KernelIdeal.nD Cert.KernelIdeal.τ).loc Cert.KernelIdeal.main_arg0)))
      (Cert.Fam.Ref.filtR (Cert.Fam.Ref.pooledR (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩) (Cert.Fam.KRun.run (F := Ideal) m ρ)
    rw [Cert.Fam.KFinal.W3_v26]
    unfold Cert.Fam.KFinal.pooledK
    rw [Cert.Fam.Bridge.pooledK_eq, Cert.Fam.Bridge.filtK_eq_filtR]
  · refine (θ_run Cert.ReferenceIdeal.defs _ _).mono (fun r h c => ⟨(h c).1.trans ?_, (h c).2⟩) (Cert.Fam.RefRun.run m' ρ')
    obtain ⟨h0, h1, h2, h3, h4, h5, h6, h7, h8⟩ := hagree c
    rw [Cert.Fam.Ref.refOut_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
